-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S320000x16 : Shape := ⟨2, ![320000, 16]⟩
abbrev S3 : Shape := ⟨1, ![3]⟩
abbrev S10000 : Shape := ⟨1, ![10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S3 : S_.BroadcastsInDim S3 (![] : Fin 0 → Fin S3.rank)
  reducesTo_S3_S_d0 : S3.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part1 {F : FTy → Type} [FloatOps F] (main_arg1 : IVec S2x320000 32) (main_arg4 : IVec S10000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg1 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  let main_c_7 : IVec S_ 32 := constantI S_ 32 0#32
  let main_v21 : IVec S10000 32 := broadcastInDim S10000 ![] bcast_S_S10000 main_c_7
  let main_v22 : IVec S10000 1 := cmpi .sge main_arg4 main_v21
  let main_c_8 : IVec S_ 32 := constantI S_ 32 63#32
  let main_v23 : IVec S10000 32 := broadcastInDim S10000 ![] bcast_S_S10000 main_c_8
  let main_v24 : IVec S10000 1 := cmpi .sle main_arg4 main_v23
  let main_v25 : IVec S10000 1 := andi main_v22 main_v24
  let main_c_9 : IVec S_ 1 := constantI S_ 1 1#1
  let main_v26 : IVec S_ 1 := (fun x v => Host.reduce IntOp.andi x v reducesTo_S10000_S_d0 h_S_) main_v25 main_c_9
  let main_v27 : IVec S_ 1 := andi main_v20 main_v26
  main_v27

def fn {F : FTy → Type} [FloatOps F] (main_arg0 : FVec F S10000x128 .f32) (main_arg1 : IVec S2x320000 32) (main_arg2 : FVec F S320000x16 .f32) (main_arg3 : FVec F S3 .f32) (main_arg4 : IVec S10000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 32 := constantI S_ 32 9999#32
  fn_part1 (F := F) main_arg1 main_arg4 main_v13 main_v15 main_c_5
-- ==== Kernel.lean ====
abbrev S10000x128 : Shape := ⟨2, ![10000, 128]⟩
abbrev S2x320000 : Shape := ⟨2, ![2, 320000]⟩
abbrev S320000x16 : Shape := ⟨2, ![320000, 16]⟩
abbrev S3 : Shape := ⟨1, ![3]⟩
abbrev S10000 : Shape := ⟨1, ![10000]⟩
abbrev S1280000 : Shape := ⟨1, ![1280000]⟩
abbrev S32x16 : Shape := ⟨2, ![32, 16]⟩
abbrev S640 : Shape := ⟨1, ![640]⟩
abbrev S16 : Shape := ⟨1, ![16]⟩
abbrev S_ : Shape := ⟨0, ![]⟩
abbrev S1x16 : Shape := ⟨2, ![1, 16]⟩
abbrev S1 : Shape := ⟨1, ![1]⟩
abbrev S2000x128 : Shape := ⟨2, ![2000, 128]⟩
abbrev S1x2000x128 : Shape := ⟨3, ![1, 2000, 128]⟩
abbrev S1x1x1 : Shape := ⟨3, ![1, 1, 1]⟩
abbrev S1x32x16 : Shape := ⟨3, ![1, 32, 16]⟩

abbrev nBuf : Table → Nat
  | .hbm => 9
  | .local .tc .vmem => 3
  | .local .tc .smem => 4
  | .local .scVector .vmem => 3
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S3, .f32⟩
  | .hbm, ⟨4, _⟩ => ⟨S10000, .i32⟩
  | .hbm, ⟨5, _⟩ => ⟨S1280000, .f32⟩
  | .hbm, ⟨6, _⟩ => ⟨S32x16, .f32⟩
  | .hbm, ⟨7, _⟩ => ⟨S1, .f32⟩
  | .hbm, ⟨8, _⟩ => ⟨S3, .f32⟩
  | .local .tc .vmem, ⟨0, _⟩ => ⟨S2000x128, .f32⟩
  | .local .tc .vmem, ⟨1, _⟩ => ⟨S2000x128, .f32⟩
  | .local .tc .vmem, ⟨2, _⟩ => ⟨S32x16, .f32⟩
  | .local .tc .smem, ⟨0, _⟩ => ⟨S1, .f32⟩
  | .local .tc .smem, ⟨1, _⟩ => ⟨S1, .f32⟩
  | .local .tc .smem, ⟨2, _⟩ => ⟨S3, .f32⟩
  | .local .tc .smem, ⟨3, _⟩ => ⟨S3, .f32⟩
  | .local .scVector .vmem, ⟨0, _⟩ => ⟨S640, .f32⟩
  | .local .scVector .vmem, ⟨1, _⟩ => ⟨S640, .f32⟩
  | .local .scVector .vmem, ⟨2, _⟩ => ⟨S16, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc2_stg0_0 : Ref sig .tc := ⟨.vmem, 2, rfl⟩
abbrev cc1_stg1_0 : Ref sig .tc := ⟨.smem, 0, rfl⟩
abbrev cc2_stg1_0 : Ref sig .tc := ⟨.smem, 1, rfl⟩
abbrev cc2_stg2_0 : Ref sig .tc := ⟨.smem, 2, rfl⟩
abbrev cc2_stg3_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem2_0 : DmaSem sig := 8
abbrev cc2_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let c640_i32 : BitVec 32 := 640#32
  let v5 : BitVec 32 := Scalar.addi v2 c640_i32
  ![v5.toNat]
@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_off3 (k0_t1 : Fin k0_t1_loop.trips) (c0_i32_5 : BitVec 32) : Fin 1 → Nat :=
  let c0_i32 : BitVec 32 := 0#32
  let c1_i32 : BitVec 32 := 1#32
  let arg9 : BitVec 32 := Scf.iv c0_i32 c1_i32 k0_t1
  let c160_i32 : BitVec 32 := 160#32
  let v29 : BitVec 32 := Scalar.muli arg9 c160_i32
  let v30 : BitVec 32 := Scalar.addi v29 c0_i32_5
  let v31 : Index := Scalar.indexCast v30
  ![v31.toNat]
@[reducible] def k0_t2_loop : Scf.Loop 32 :=
  let c0_i32_1 : BitVec 32 := 0#32
  let c4_i32_2 : BitVec 32 := 4#32
  let v15 : BitVec 32 := Scalar.addi c0_i32_1 c4_i32_2
  let c1_i32_3 : BitVec 32 := 1#32
  ⟨c0_i32_1, v15, c1_i32_3⟩
def k0_off4 (k0_t2 : Fin k0_t2_loop.trips) (c0_i32_5 : BitVec 32) : Fin 1 → Nat :=
  let c0_i32_1 : BitVec 32 := 0#32
  let c1_i32_3 : BitVec 32 := 1#32
  let arg9 : BitVec 32 := Scf.iv c0_i32_1 c1_i32_3 k0_t2
  let c160_i32 : BitVec 32 := 160#32
  let v29 : BitVec 32 := Scalar.muli arg9 c160_i32
  let v30 : BitVec 32 := Scalar.addi v29 c0_i32_5
  let v31 : Index := Scalar.indexCast v30
  ![v31.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  ![v1.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S10000x128_S1280000 : S10000x128.ShapeCasts S1280000
  h_S16 : 0 < S16.numel
  shapeCasts_S16_S16 : S16.ShapeCasts S16
  inb_S16_S16_0 : ∀ a, (![0] : Fin 1 → Nat) a + S16.size a ≤ S16.size a
  squeezes_S1x16_S16 : S1x16.Squeezes S16
  inb_S1_S1_0 : ∀ a, (![0] : Fin 1 → Nat) a + S1.size a ≤ S1.size a
  numel1_S1 : S1.numel = 1
  inb_S2000x128_S2000x128_0_0 : ∀ a, (![0, 0] : Fin 2 → Nat) a + S2000x128.size a ≤ S2000x128.size a
  h_S2000x128 : 0 < S2000x128.numel
  shapeCasts_S2000x128_S1x2000x128 : S2000x128.ShapeCasts S1x2000x128
  reduces_S1x2000x128_S1 : S1x2000x128.Reduces [1, 2] S1
  shapeCasts_S1_S1x1x1 : S1.ShapeCasts S1x1x1
  inpos_S1x1x1_p0_0_0 : ∀ a, (![0, 0, 0] : Fin 3 → Nat) a < S1x1x1.size a
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  hcc0_scratch3 : 0 + S_.numel ≤ 10
  hcc0_scratch4 : 1 + S_.numel ≤ 10
  hcc0_scoped0 : 2 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S640.size a ≤ S1280000.size a
  k0_off2_inb : ∀ i : grid0.Coords, ∀ a, (k0_off2 i) a + S640.size a ≤ S1280000.size a
  k0_t1_ok : k0_t1_loop.OK
  k0_off3_inb : ∀ k0_t1 : Fin k0_t1_loop.trips, ∀ (r : Fin 10), ∀ a, (k0_off3 k0_t1 (BitVec.ofNat 32 (16 * r.val))) a + S16.size a ≤ S640.size a
  k0_t2_ok : k0_t2_loop.OK
  k0_off4_inb : ∀ k0_t2 : Fin k0_t2_loop.trips, ∀ (r : Fin 10), ∀ a, (k0_off4 k0_t2 (BitVec.ofNat 32 (16 * r.val))) a + S16.size a ≤ S640.size a
  k0_off5_inb : ∀ i : grid0.Coords, ∀ a, (k0_off5 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1.size a ≤ S1.size a
  hwx1_1 : ∀ i : grid1.Coords, EltTy.bits .f32 = 32 ∨ (Rect.block (s := S1) S1.size (cc1_transform_1 i) (hinb1_1 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.whole (Memref.whole main_v1) false false (stage2_0 0) (sem2_0 0) (Memref.isWhole_whole _) (hstage2_0 0)

abbrev win2_1 : Pipeline.Window sig grid2 :=
  Pipeline.Window.whole (Memref.whole main_v2) false false (stage2_1 0) (sem2_1 0) (Memref.isWhole_whole _) (hstage2_1 0)

abbrev win2_2 : Pipeline.Window sig grid2 :=
  Pipeline.Window.whole (Memref.whole main_arg3) false false (stage2_2 0) (sem2_2 0) (Memref.isWhole_whole _) (hstage2_2 0)

abbrev win2_3 : Pipeline.Window sig grid2 :=
  Pipeline.Window.whole (Memref.whole main_v3) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S3 : Shape := ⟨1, ![3]⟩
abbrev S10000 : Shape := ⟨1, ![10000]⟩
abbrev S1 : Shape := ⟨1, ![1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S3, .f32⟩
  | .hbm, ⟨4, _⟩ => ⟨S10000, .i32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S10000x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S3, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  slices_S3_S1_1 : S3.Slices ![1] S1
  shapeCasts_S1_S_ : S1.ShapeCasts S_
  slices_S3_S1_2 : S3.Slices ![2] S1
  reducesTo_S10000x128_S_d0_1 : S10000x128.ReducesTo [0, 1] S_
  h_S_ : 0 < S_.numel
  bcast_S_S1 : S_.BroadcastsInDim S1 (![] : Fin 0 → Fin S1.rank)
  concatenates_S1_S1_S1_S3_d0 : Shape.Concatenates [S1, S1, S1] S3 0

variable [Facts₀]

class Facts : Prop extends Facts₀ where

variable [Facts]
-- ==== Proof.KISpec.lean ====
/-
  What the kernel computes, as pure functions of its arrays (any float instance).

  The table x : f32[10000, 128] is read in five blocks of 2000 rows. The second pallas_call keeps one running word:
  zero before the first block, and after block t the word before it plus the sum of the squares of the block's
  entries. The third call's first result word is sqrt (0 * (sum of the 32 x 16 partial sums) + that word); its second
  and third result words are g[1] and g[2].
-/
import proofs.«209474_g91096256348957_cont_sun_m_1209_13_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Row `2000 t + r` and column `k` of the table, for a row `r` and column `k` of block `t` (the row taken
    modulo 10000, so that the function is total in `t`; for `t < 5` nothing wraps). -/
def rowIx (t : ℕ) (y : S2000x128.Idx) : S10000x128.Idx :=
  ix2 (⟨(2000 * t + (y 0).val) % 10000, Nat.mod_lt _ (by decide)⟩ : Fin 10000) (y 1 : Fin 128)

/-- Block `t` of the table: its rows `2000 t … 2000 t + 1999`. -/
def blk (x : Vec F S10000x128 .f32) (t : ℕ) : Vec F S2000x128 .f32 := fun y => x (rowIx t y)

/-- The running word after the first `n` blocks. -/
def acc (x : Vec F S10000x128 .f32) : ℕ → Elt F .f32
  | 0 => (Scalar.ofBits .f32 0x00000000#32 : F .f32)
  | n + 1 => k1_pay1 (blk x n) (acc x n)

/-- The three result words from the partial sums `p`, the running word `s` and `g`. -/
def result (p : Vec F S32x16 .f32) (s : Elt F .f32) (g : Vec F S3 .f32) : Vec F S3 .f32 :=
  fun j => if (j 0).val = 0 then k2_pay1 p s else g j

end Cert.KernelIdeal.Spec

end
-- ==== Proof.MathSum.lean ====
/-
  The kernel's three result words as sums, at the ideal values (floats are extended reals, operations exact).

  The table x : f32[10000, 128] is read in five blocks of 2000 consecutive rows. Block t adds to the running word the
  sum of the squares of its 2000 x 128 entries, so after five blocks the running word is
      0 + s_0 + s_1 + s_2 + s_3 + s_4,     s_t = sum over (r, k) of x(2000 t + r, k)^2,
  and since every row 0 ≤ R < 10000 is 2000 t + r for exactly one pair (t, r) with t < 5 and r < 2000, that is the sum
  of the squares of all 10000 x 128 entries. Addition of extended reals is commutative and associative, so no entry
  has to be finite. The last call's first word is sqrt (0 * (a sum of partial sums) + running word); on the extended
  reals 0 * v = 0 for every v, the infinities included, so that word is the square root of the running word.
-/
import proofs.«209474_g91096256348957_cont_sun_m_1209_13_alg».proof.Proof.KISpec
import Idealize.ShloMosaic.Lib.Pipeline.Value
import Idealize.ShloMosaic.PureOps.Ideal.Laws

noncomputable section

namespace Cert.Proof.RefSide

open Idealize.ShloMosaic Idealize.ShloMosaic.ValueIdx Cert.KernelIdeal Cert.KernelIdeal.Gen Cert.KernelIdeal.Spec

/-- The 10000 rows are five runs of 2000 consecutive rows: (t, r) ↦ 2000 t + r is a bijection from
    {0..4} x {0..1999} onto {0..9999}. -/
theorem sum_rows_by_block (h : Fin 10000 → EReal) :
    ∑ t ∈ Finset.range 5, ∑ r : Fin 2000, h ⟨(2000 * t + r.val) % 10000, Nat.mod_lt _ (by decide)⟩
      = ∑ r : Fin 10000, h r := by
  rw [← Equiv.sum_comp (finProdFinEquiv (m := 5) (n := 2000)) h, Fintype.sum_prod_type,
    ← Fin.sum_univ_eq_sum_range
      (fun t => ∑ r : Fin 2000, h ⟨(2000 * t + r.val) % 10000, Nat.mod_lt _ (by decide)⟩) 5]
  refine Finset.sum_congr rfl fun t _ => Finset.sum_congr rfl fun r _ => congrArg h (Fin.ext ?_)
  have ht := t.isLt
  have hr := r.isLt
  show (2000 * t.val + r.val) % 10000 = r.val + 2000 * t.val
  omega

/-- A sum over the whole table is the sum, over the five blocks, of the sums over each block's entries. -/
theorem sum_table_by_block (f : S10000x128.Idx → EReal) :
    ∑ t ∈ Finset.range 5, ∑ y : S2000x128.Idx, f (rowIx t y) = ∑ j : S10000x128.Idx, f j := by
  rw [sum_idx2 f, ← sum_rows_by_block fun r => ∑ k : Fin 128, f (ix2 r k)]
  refine Finset.sum_congr rfl fun t _ => ?_
  rw [sum_idx2 fun y : S2000x128.Idx => f (rowIx t y)]
  rfl

/-- One block's step: the running word plus the sum of the squares of the block's entries. The block is squared entry
    by entry, viewed as [1, 2000, 128] (the same entries in row-major order) and summed over its last two axes. -/
theorem block_word (v : Vec Ideal S2000x128 .f32) (s : Elt Ideal .f32) :
    k1_pay1 (F := Ideal) v s = s + ∑ y : S2000x128.Idx, v y * v y := by
  unfold k1_pay1
  show s + _ = _
  refine congrArg (s + ·) ?_
  unfold extractAt shapeCast
  refine (Ideal.multiReduction_add_total _ _ _ (by decide) _ _ _).trans ?_
  exact Equiv.sum_comp (Shape.reshapeEquiv shapeCasts_S2000x128_S1x2000x128) (fun y : S2000x128.Idx => v y * v y)

/-- The running word after the first n blocks is the sum of the squares of their entries. -/
theorem acc_eq_sum (x : Vec Ideal S10000x128 .f32) (n : ℕ) :
    acc (F := Ideal) x n = ∑ t ∈ Finset.range n, ∑ y : S2000x128.Idx, x (rowIx t y) * x (rowIx t y) := by
  induction n with
  | zero => exact Ideal.ofBits_zero_f32
  | succ n ih => rw [Finset.sum_range_succ, ← ih]; exact block_word (blk x n) (acc x n)

/-- The last call's first word: sqrt (0 * (the sum of the partial sums) + s) = sqrt s, because 0 * v = 0 for every
    extended real v. -/
theorem finish_word (p : Vec Ideal S32x16 .f32) (s : Elt Ideal .f32) : k2_pay1 (F := Ideal) p s = Ideal.sqrt s := by
  unfold k2_pay1
  show Ideal.sqrt (Ideal.ofBits .f32 0x00000000#32 * _ + s) = Ideal.sqrt s
  rw [Ideal.ofBits_zero_f32, zero_mul, zero_add]

/-- The kernel's three words: the square root of the sum of the squares of all entries of the table, then g[1], g[2]. -/
theorem result_words (p : Vec Ideal S32x16 .f32) (x : Vec Ideal S10000x128 .f32) (g : Vec Ideal S3 .f32) (j : S3.Idx) :
    result (F := Ideal) p (acc (F := Ideal) x 5) g j
      = if (j 0).val = 0 then Ideal.sqrt (∑ i : S10000x128.Idx, x i * x i) else g j := by
  unfold result
  rw [finish_word, acc_eq_sum, sum_table_by_block fun i => x i * x i]

end Cert.Proof.RefSide

end
-- ==== Proof.RefWords.lean ====
/-
  The reference's three result words, at the ideal values. The reference squares the table entry by entry, sums all
  10000 x 128 squares starting from the zero word, takes the square root, and joins that one-element array with the
  one-element arrays [g[1]] and [g[2]] along their only axis. Word j of a concatenation of three one-element arrays
  is the only entry of the j-th array.
-/
import proofs.«209474_g91096256348957_cont_sun_m_1209_13_alg».proof.Proof.Gen.ReferenceIdeal.Read
import Idealize.ShloMosaic.Lib.Pipeline.Value
import Idealize.ShloMosaic.Lib.ValueIdx
import Idealize.ShloMosaic.PureOps.Ideal.Laws

noncomputable section

namespace Cert.Proof.RefSide

open Idealize.ShloMosaic Idealize.ShloMosaic.ValueIdx
open Cert.ReferenceIdeal Cert.ReferenceIdeal.Gen Cert.ReferenceIdeal.Read

/-- The reference's word 0: the square root of the sum of the squares of all entries of the table (the sum starts from
    the zero word, and 0 + v = v). -/
theorem ref_word0 (x : Vec Ideal S10000x128 .f32) (g : Vec Ideal S3 .f32) :
    val_main_v10 (F := Ideal) x g (ix1 (⟨0, by decide⟩ : Fin 3)) = Ideal.sqrt (∑ j : S10000x128.Idx, x j * x j) := by
  unfold val_main_v10
  refine (concatenate_apply_piece (0 : Fin S3.rank)
    [⟨S1, val_main_v7 (F := Ideal) x⟩, ⟨S1, val_main_v8 (F := Ideal) g⟩, ⟨S1, val_main_v9 (F := Ideal) g⟩]
    concatenates_S1_S1_S1_S3_d0 _ 0 (show (0 : ℕ) < 3 by omega) S1 (val_main_v7 (F := Ideal) x) rfl rfl 0 rfl
    (ix1 (0 : Fin 1)) (fun b hb => absurd (Fin.ext (by have : b.val < 1 := b.isLt; show b.val = 0; omega)) hb) rfl).trans ?_
  rw [val_main_v7_apply, val_main_v6_apply, val_main_v5_apply]
  show Ideal.sqrt (Ideal.ofBits .f32 0x00000000#32 + ∑ j : S10000x128.Idx, x j * x j) = _
  rw [Ideal.ofBits_zero_f32, zero_add]

/-- The reference's word 1 is g[1]: the one-element slice of g at 1, viewed as a scalar and broadcast back to one
    element. -/
theorem ref_word1 (x : Vec Ideal S10000x128 .f32) (g : Vec Ideal S3 .f32) :
    val_main_v10 (F := Ideal) x g (ix1 (⟨1, by decide⟩ : Fin 3)) = g (ix1 (⟨1, by decide⟩ : Fin 3)) := by
  unfold val_main_v10
  refine (concatenate_apply_piece (0 : Fin S3.rank)
    [⟨S1, val_main_v7 (F := Ideal) x⟩, ⟨S1, val_main_v8 (F := Ideal) g⟩, ⟨S1, val_main_v9 (F := Ideal) g⟩]
    concatenates_S1_S1_S1_S3_d0 _ 1 (show (1 : ℕ) < 3 by omega) S1 (val_main_v8 (F := Ideal) g) rfl rfl 1 rfl
    (ix1 (0 : Fin 1)) (fun b hb => absurd (Fin.ext (by have : b.val < 1 := b.isLt; show b.val = 0; omega)) hb) rfl).trans ?_
  rw [val_main_v8_apply]
  unfold val_main_v1 shapeCast
  rw [val_main_v0_apply]
  refine congrArg g (funext fun a => match a with | ⟨0, _⟩ => Fin.ext ?_)
  show 1 + ((Shape.reshapeEquiv shapeCasts_S1_S_ (idx_main_v8 (ix1 (0 : Fin 1)))) 0).val = 1
  have := ((Shape.reshapeEquiv shapeCasts_S1_S_ (idx_main_v8 (ix1 (0 : Fin 1)))) 0).isLt
  have h1 : S1.size 0 = 1 := rfl
  omega

/-- The reference's word 2 is g[2]: the one-element slice of g at 2, viewed as a scalar and broadcast back to one
    element. -/
theorem ref_word2 (x : Vec Ideal S10000x128 .f32) (g : Vec Ideal S3 .f32) :
    val_main_v10 (F := Ideal) x g (ix1 (⟨2, by decide⟩ : Fin 3)) = g (ix1 (⟨2, by decide⟩ : Fin 3)) := by
  unfold val_main_v10
  refine (concatenate_apply_piece (0 : Fin S3.rank)
    [⟨S1, val_main_v7 (F := Ideal) x⟩, ⟨S1, val_main_v8 (F := Ideal) g⟩, ⟨S1, val_main_v9 (F := Ideal) g⟩]
    concatenates_S1_S1_S1_S3_d0 _ 2 (show (2 : ℕ) < 3 by omega) S1 (val_main_v9 (F := Ideal) g) rfl rfl 2 rfl
    (ix1 (0 : Fin 1)) (fun b hb => absurd (Fin.ext (by have : b.val < 1 := b.isLt; show b.val = 0; omega)) hb) rfl).trans ?_
  rw [val_main_v9_apply]
  unfold val_main_v3 shapeCast
  rw [val_main_v2_apply]
  refine congrArg g (funext fun a => match a with | ⟨0, _⟩ => Fin.ext ?_)
  show 2 + ((Shape.reshapeEquiv shapeCasts_S1_S_ (idx_main_v9 (ix1 (0 : Fin 1)))) 0).val = 2
  have := ((Shape.reshapeEquiv shapeCasts_S1_S_ (idx_main_v9 (ix1 (0 : Fin 1)))) 0).isLt
  have h1 : S1.size 0 = 1 := rfl
  omega

end Cert.Proof.RefSide

end
-- ==== Proof.RefSide.lean ====
/-
  The reference side. The reference computes the three words
    sqrt (sum over all 10000 x 128 entries of x * x),  g[1],  g[2]
  as one array f32[3]. Here: the reference's run with its result named as one function `refResult` of the table x and
  of g; the frame of the reference (its arguments end unchanged); and that the kernel's three words, the running word
  taken after all five blocks, are `refResult`, for every extended-real table, g and partial sums: both first words
  are the square root of the sum of the squares of all entries, both other words are g[1] and g[2].
-/
import proofs.«209474_g91096256348957_cont_sun_m_1209_13_alg».proof.Defs
import proofs.«209474_g91096256348957_cont_sun_m_1209_13_alg».proof.Proof.Gen.ReferenceIdeal.Run
import proofs.«209474_g91096256348957_cont_sun_m_1209_13_alg».proof.Proof.Gen.ReferenceIdeal.Read
import proofs.«209474_g91096256348957_cont_sun_m_1209_13_alg».proof.Proof.Gen.Pre_input_domain
import proofs.«209474_g91096256348957_cont_sun_m_1209_13_alg».proof.Proof.KISpec
import proofs.«209474_g91096256348957_cont_sun_m_1209_13_alg».proof.Proof.MathSum
import proofs.«209474_g91096256348957_cont_sun_m_1209_13_alg».proof.Proof.RefWords

noncomputable section

namespace Cert.Proof.RefSide

open Idealize.ShloMosaic Idealize.ShloMosaic.TcCoe Idealize.ShloMosaic.ValueIdx Idealize.SL.Sem
open Cert.ReferenceIdeal Cert.ReferenceIdeal.Gen

/-- The reference's result as a function of the table `x` and of `g`: the concatenation of
    `[sqrt (0 + sum of x * x)]`, `[g[1]]` and `[g[2]]`. -/
def refResult (x : Vec Ideal Cert.ReferenceIdeal.S10000x128 .f32) (g : Vec Ideal Cert.ReferenceIdeal.S3 .f32) :
    Vec Ideal Cert.ReferenceIdeal.S3 .f32 :=
  Cert.ReferenceIdeal.Read.val_main_v10 (F := Ideal) x g

/-- The reference runs and leaves its five arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run: its result array ends at `refResult` of the launch contents of the table and of `g`,
    the five arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v10)
        = refResult (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans (Cert.ReferenceIdeal.Read.val_main_v10_eq (F := Ideal) _ _), (h c).2⟩)
    (Cert.ReferenceIdeal.Value.run (F := Ideal) m ρ)

/-- The kernel's three words, the running word taken after all five blocks, are the reference's result: for every
    table, every g and every array of partial sums (no entry has to be finite). -/
theorem result_eq_ref (x : Vec Ideal Cert.KernelIdeal.S10000x128 .f32) (g : Vec Ideal Cert.KernelIdeal.S3 .f32)
    (p : Vec Ideal Cert.KernelIdeal.S32x16 .f32) :
    Cert.KernelIdeal.Spec.result (F := Ideal) p (Cert.KernelIdeal.Spec.acc (F := Ideal) x 5) g = refResult x g := by
  funext j
  obtain ⟨q, rfl⟩ : ∃ q : Fin 3, j = ix1 q := ⟨j 0, eq_ix1 j⟩
  refine (result_words p x g (ix1 q)).trans ?_
  unfold refResult
  match q with
  | ⟨0, _⟩ => exact (if_pos rfl).trans (ref_word0 x g).symm
  | ⟨1, _⟩ => exact (if_neg (show ¬ (1 : ℕ) = 0 by omega)).trans (ref_word1 x g).symm
  | ⟨2, _⟩ => exact (if_neg (show ¬ (2 : ℕ) = 0 by omega)).trans (ref_word2 x g).symm

end Cert.Proof.RefSide

end
-- ==== Proof.KISetup.lean ====
/-
  The program as the launch theorem for a SparseCore program reads it, and what travels with the one SparseCore call.

  The device runs 35 threads: the TensorCore (the host operations, the call of the vector-subcore kernel, then the two
  TensorCore kernels), two sequencers and 32 vector subcores. The vector-subcore kernel only READS the flattened table
  (two 640-word pieces per subcore) and WRITES one 16-word row of the 32 x 16 array of partial sums: subcore i of
  SparseCore c owns row 2 i + c. So the call hands every subcore a read share of the whole flattened table and its own
  row of the partial sums, at any contents, and brings the same back.
-/
import proofs.«209474_g91096256348957_cont_sun_m_1209_13_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«209474_g91096256348957_cont_sun_m_1209_13_alg».proof.Proof.Gen.KernelIdeal
import proofs.«209474_g91096256348957_cont_sun_m_1209_13_alg».proof.Proof.Gen.KernelIdeal.Skeleton
import proofs.«209474_g91096256348957_cont_sun_m_1209_13_alg».proof.Proof.Gen.KernelIdeal.Launch
import proofs.«209474_g91096256348957_cont_sun_m_1209_13_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the local transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The two arrays the SparseCore call touches -/

/-- The flattened table and the partial sums, as locations of device `d`. -/
abbrev xfLoc (d : Dev nD) : Loc nD τ sig := (SparseCore.T d).loc main_v0
abbrev pLoc (d : Dev nD) : Loc nD τ sig := (SparseCore.T d).loc main_v1

abbrev xfV : Memref sig .scVector .hbm S1280000 .f32 := Memref.whole main_v0_scv
abbrev pV : Memref sig .scVector .hbm S32x16 .f32 := Memref.whole main_v1_scv

theorem hdiv32 : 32 ∣ S32x16.size 0 := ⟨1, rfl⟩
/-- Row `r` of the partial sums. -/
abbrev prow (r : Fin 32) : Rect S32x16 := Rect.part (s := S32x16) (a₀ := 0) hdiv32 r
abbrev prowSet (r : Fin 32) : Finset S32x16.Idx := ((pV : Memref sig .scVector .hbm S32x16 .f32).view.slice (prow r)).set

/-- The row of subcore `i` of SparseCore `c`. -/
def wid (c : Fin 2) (i : Fin 16) : Fin 32 := ⟨2 * i.val + c.val, by omega⟩

/-- The read share of the flattened table that subcore `i` of SparseCore `c` is lent. -/
abbrev qx (c : Fin 2) (i : Fin 16) : PosShare TreeShare := shareTok (shareTok fullShare 2 c) 16 i
/-- What a SparseCore keeps of its share while its subcores hold theirs. -/
abbrev qxRest (c : Fin 2) : PosShare TreeShare := shareDrop (shareTok fullShare 2 c) 16

variable (xf : (d : Dev nD) → Buf (Elt F) (xfLoc d))

/-- What one subcore's task is handed and hands back: its read share of the flattened table, at the contents `xf`, and
    its row of the partial sums, at any contents. -/
def tileRes (d : Dev nD) (c : Fin 2) (i : Fin 16) : sProp 𝕄 :=
  iprop((xfLoc d ↦{qx c i} xf d) ∗ ∃ f : Buf (Elt F) (pLoc d), pLoc d ↦[prowSet (wid c i)]{fullShare} f)

/-- What one SparseCore is handed and hands back: its subcores' and the rest of its own share. -/
def coreRes (d : Dev nD) (c : Fin 2) : sProp 𝕄 :=
  iprop((xfLoc d ↦{qxRest c} xf d) ∗ bigSep Finset.univ fun i : Fin 16 => tileRes xf d c i)

/-- The one call's payloads: the same both ways, at both levels. -/
def P : (K (F := F)).Pay (nD := nD) (Val := Elt F) (Name := ℕ) (U := UU) where
  st := fun q d c => match q with | 0 => coreRes xf d (Fin.cast nCore_zero c)
  dn := fun q d c => match q with | 0 => coreRes xf d (Fin.cast nCore_zero c)
  go := fun q d c i => match q with | 0 => tileRes xf d (Fin.cast nCore_zero c) (Fin.cast nSub_zero i)
  td := fun q d c i => match q with | 0 => tileRes xf d (Fin.cast nCore_zero c) (Fin.cast nSub_zero i)
  x := fun _ _ => iprop(emp)

instance tileRes_storable (d : Dev nD) (c : Fin 2) (i : Fin 16) : BI.Storable (upEmb : UEmb _ 𝕄) (tileRes xf d c i) := by
  unfold tileRes; infer_instance
instance coreRes_storable (d : Dev nD) (c : Fin 2) : BI.Storable (upEmb : UEmb _ 𝕄) (coreRes xf d c) := by
  unfold coreRes; infer_instance

instance P_storable : (P (F := F) xf).IsStorable where
  st q d c := match q with | 0 => (inferInstance : BI.Storable (upEmb : UEmb _ 𝕄) (coreRes xf d (Fin.cast nCore_zero c)))
  dn q d c := match q with | 0 => (inferInstance : BI.Storable (upEmb : UEmb _ 𝕄) (coreRes xf d (Fin.cast nCore_zero c)))
  go q d c i := match q with | 0 => (inferInstance : BI.Storable (upEmb : UEmb _ 𝕄) (tileRes xf d (Fin.cast nCore_zero c) (Fin.cast nSub_zero i)))
  td q d c i := match q with | 0 => (inferInstance : BI.Storable (upEmb : UEmb _ 𝕄) (tileRes xf d (Fin.cast nCore_zero c) (Fin.cast nSub_zero i)))

end Cert.Proof.KI

end
-- ==== Proof.KIDat.lean ====
/-
  The proof data of the two TensorCore kernels, as the pipeline library asks it.

  Kernel 1 walks the table in five blocks of 2000 rows: its input window holds block t at point t, and its one-word
  output, kept in place from point to point and written back after the last, holds the running sum of squares after
  t + 1 blocks. Kernel 2 has one point: it reads the partial sums (at whatever contents the SparseCore call left,
  `pv`), the running word after five blocks and g, and leaves the three result words.
-/
import proofs.«209474_g91096256348957_cont_sun_m_1209_13_alg».proof.Proof.KISetup
import proofs.«209474_g91096256348957_cont_sun_m_1209_13_alg».proof.Proof.KISpec
import Idealize.ShloMosaic.Lib.Pipeline.FrameBody
import Idealize.ShloMosaic.Lib.Pipeline.Frame
import Idealize.ShloMosaic.Lib.Pipeline.Value

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-- The table on core `c`. -/
abbrev tbl (c : Dev nD) : Vec F S10000x128 .f32 := m ((c : Thread nD τ).loc main_arg0)
/-- g on core `c`. -/
abbrev gv (c : Dev nD) : Vec F S3 .f32 := m ((c : Thread nD τ).loc main_arg3)

/-- The pairs a TensorCore's waits may have recorded: those at or below the level of the one call's last handshake. -/
def recd (c : Dev nD) : Set (SemLoc sig × HIx 1) := {p | (K (F := F)).lev ((c : Thread nD τ), p.1) p.2 ≤ 8}

/-- The TensorCore's unscoped buffers when kernel 1 is entered: as launched, but the flattened table at `xf` and the
    partial sums at `pv`. -/
def VA (xf : (d : Dev nD) → Buf (Elt F) (xfLoc d)) (pv : (d : Dev nD) → Buf (Elt F) (pLoc d)) (c : Dev nD) (b : Ref sig .tc) :
    Buf (Elt F) ((c : Thread nD τ).loc b) :=
  if h0 : b = main_v0 then h0 ▸ xf c else if h1 : b = main_v1 then h1 ▸ pv c else m ((c : Thread nD τ).loc b)

/-- … when kernel 2 is entered: the running word after five blocks in place; -/
def VB (xf : (d : Dev nD) → Buf (Elt F) (xfLoc d)) (pv : (d : Dev nD) → Buf (Elt F) (pLoc d)) (c : Dev nD) (b : Ref sig .tc) :
    Buf (Elt F) ((c : Thread nD τ).loc b) :=
  if h2 : b = main_v2 then h2 ▸ (fun _ => Spec.acc (tbl m c) 5 : Vec F S1 .f32) else VA m xf pv c b

/-- … and when it is left: the three result words in place. -/
def VC (xf : (d : Dev nD) → Buf (Elt F) (xfLoc d)) (pv : (d : Dev nD) → Buf (Elt F) (pLoc d)) (c : Dev nD) (b : Ref sig .tc) :
    Buf (Elt F) ((c : Thread nD τ).loc b) :=
  if h3 : b = main_v3 then h3 ▸ (Spec.result (pv c) (Spec.acc (tbl m c) 5) (gv m c) : Vec F S3 .f32) else VB m xf pv c b

variable (xf : (d : Dev nD) → Buf (Elt F) (xfLoc d)) (pv : (d : Dev nD) → Buf (Elt F) (pLoc d))

/-- Kernel 1's proof data on core `c`. -/
def dat1 (c : Dev nD) : Dat τ (Elt F) (HIx 1) ℕ UU ℕ cfg1 c where
  A w := VA m xf pv c (Pipeline.arrRef spec1 w)
  after w t := match w with
    | ⟨0, _⟩ => Spec.blk (tbl m c) t.val
    | ⟨1, _⟩ => fun _ => Spec.acc (tbl m c) (t.val + 1)
  Φ _ := Pipeline.scopedRest spec1 c
  q _ := fullShare
  owed _ := 0
  recorded _ := recd (F := F) c

/-- Kernel 2's proof data on core `c`. -/
def dat2 (c : Dev nD) : Dat τ (Elt F) (HIx 1) ℕ UU ℕ cfg2 c where
  A w := VB m xf pv c (Pipeline.arrRef spec2 w)
  after w t := match w with
    | ⟨0, _⟩ => pv c
    | ⟨1, _⟩ => fun _ => Spec.acc (tbl m c) 5
    | ⟨2, _⟩ => gv m c
    | ⟨3, _⟩ => Spec.result (pv c) (Spec.acc (tbl m c) 5) (gv m c)
  Φ _ := Pipeline.scopedRest spec2 c
  q _ := fullShare
  owed _ := 0
  recorded _ := recd (F := F) c

/-- No kernel has a prefetched table. -/
abbrev adm : (p : Fin 2) → (pcfgs (F := F) p).Adm := fun p => (cfgs p).toPCfg_adm

/-- The two kernels' proof data. -/
def pdats : (p : Fin 2) → (c : Dev nD) → Dat τ (Elt F) (HIx 1) ℕ UU ℕ (Pipeline.pin (pcfgs (F := F)) adm p) c
  | ⟨0, _⟩ => dat1 m xf pv
  | ⟨1, _⟩ => dat2 m xf pv

theorem cellOf_inj' : Function.Injective (Pipeline.cellOf (nD := nD) (τ := τ) (Pipeline.pin (pcfgs (F := F)) adm)) :=
  cellOf_inj

/-! ## The valuations at the buffers that matter -/

theorem VA_arg (c : Dev nD) (b : Ref sig .tc) (h0 : b ≠ main_v0) (h1 : b ≠ main_v1) : VA m xf pv c b = m ((c : Thread nD τ).loc b) := by
  unfold VA; rw [dif_neg h0, dif_neg h1]
theorem VA_v0 (c : Dev nD) : VA m xf pv c main_v0 = xf c := by unfold VA; rw [dif_pos rfl]
theorem VA_v1 (c : Dev nD) : VA m xf pv c main_v1 = pv c := by unfold VA; rw [dif_neg (by decide), dif_pos rfl]
theorem VB_ne (c : Dev nD) (b : Ref sig .tc) (h2 : b ≠ main_v2) : VB m xf pv c b = VA m xf pv c b := by unfold VB; rw [dif_neg h2]
theorem VB_v2 (c : Dev nD) : VB m xf pv c main_v2 = (fun _ => Spec.acc (tbl m c) 5 : Vec F S1 .f32) := by unfold VB; rw [dif_pos rfl]
theorem VC_ne (c : Dev nD) (b : Ref sig .tc) (h3 : b ≠ main_v3) : VC m xf pv c b = VB m xf pv c b := by unfold VC; rw [dif_neg h3]
theorem VC_v3 (c : Dev nD) : VC m xf pv c main_v3 = (Spec.result (pv c) (Spec.acc (tbl m c) 5) (gv m c) : Vec F S3 .f32) := by
  unfold VC; rw [dif_pos rfl]

/-! ## Kernel 1, point by point -/

theorem A1_eq (c : Dev nD) (w : Fin cfg1.W) : (dat1 m xf pv c).A w = VA m xf pv c (Pipeline.arrRef spec1 w) := by dsimp only [dat1]
theorem after1_0 (c : Dev nD) (t : Fin cfg1.N) : (dat1 m xf pv c).after 0 t = Spec.blk (tbl m c) t.val := by dsimp only [dat1]
theorem after1_1 (c : Dev nD) (t : Fin cfg1.N) : (dat1 m xf pv c).after 1 t = (fun _ => Spec.acc (tbl m c) (t.val + 1)) := by dsimp only [dat1]

/-- Block `t` of the input window starts at row `2000 t`, column 0. -/
theorem idx1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input window's block at point `t`, read off the table, is the table's block `t`. -/
theorem blockOf1_0 (c : Dev nD) (t : Fin cfg1.N) : (dat1 m xf pv c).blockOf 0 t = Spec.blk (tbl m c) t.val := by
  unfold Dat.blockOf
  rw [A1_eq]
  funext y
  rw [View.read_apply]
  show VA m xf pv c main_arg0 (((cfg1.win 0).blk t).view.emb y) = tbl m c (Spec.rowIx t.val y)
  rw [VA_arg m xf pv c main_arg0 (by decide) (by decide)]
  refine congrArg (tbl m c) ?_
  have hN : t.val < 5 := lt_of_lt_of_eq t.isLt (show cfg1.N = 5 from N_1)
  have hy0 : (y 0).val < 2000 := (y 0).isLt
  funext a; apply Fin.ext
  match a with
  | ⟨0, _⟩ =>
    show win1_0.index t 0 * 2000 + 1 * (y 0).val = (2000 * t.val + (y 0).val) % 10000
    rw [(idx1 t).1]; omega
  | ⟨1, _⟩ =>
    show win1_0.index t 1 * 128 + 1 * (y 1).val = (y 1).val
    rw [(idx1 t).2]; omega

/-- The input window's current buffer holds block `t` at every point. -/
theorem before1_0 (c : Dev nD) (t : Fin cfg1.N) (d) : (dat1 m xf pv c).before 0 t d = Spec.blk (tbl m c) t.val :=
  ((dat1 m xf pv c).before_in_eq_fetched 0 rfl (fun _ => rfl) (fun _ _ _ => rfl)
      (fun t => by rw [after1_0, blockOf1_0]; rfl) t d).trans
    (by unfold Dat.fetched; rw [blockOf1_0]; rfl)

/-- At the first point the output word's buffer holds whatever it held. -/
theorem before1_1_first (c : Dev nD) (t : Fin cfg1.N) (h0 : t.val = 0) (d) : (dat1 m xf pv c).before 1 t d = d :=
  (dat1 m xf pv c).before_out_reset 1 rfl t (.inl h0) d

/-- At a later point it holds what the point before left: the buffer is written back after the last point only. -/
theorem before1_1_next (c : Dev nD) (t : Fin cfg1.N) (h0 : t.val ≠ 0) (d) :
    (dat1 m xf pv c).before 1 t d = (fun _ => Spec.acc (tbl m c) t.val) := by
  have hN : t.val < 5 := lt_of_lt_of_eq t.isLt (show cfg1.N = 5 from N_1)
  rw [Dat.before_out_kept _ 1 rfl t h0 (Bool.eq_false_iff.mpr fun h => by have := (flush1_1 _).mp h; dsimp only at this; omega)
    (fun _ => rfl) (fun _ _ => rfl), after1_1]
  funext _; show Spec.acc (tbl m c) (t.val - 1 + 1) = _; rw [Nat.sub_add_cancel (Nat.pos_of_ne_zero h0)]

/-- After the last point the one-word array holds the running word after five blocks. -/
theorem arrAt1_1 (c : Dev nD) : (dat1 m xf pv c).arrAt 1 cfg1.N = (fun _ => Spec.acc (tbl m c) 5 : Vec F S1 .f32) := by
  refine (dat1 m xf pv c).arrAt_eq_of_cover 1 _ (fun t hf => ?_) (fun i => ?_)
  · have h4 : t.val % 5 = 4 := (flush1_1 t).mp hf
    have hN : t.val < 5 := lt_of_lt_of_eq t.isLt (show cfg1.N = 5 from N_1)
    have h : t.val = 4 := by omega
    funext y
    show Spec.acc (tbl m c) (t.val + 1) = Spec.acc (tbl m c) 5
    rw [h]
  · refine ⟨t1_4, (flush1_1 _).mpr (by decide), ?_⟩
    show i ∈ ((View.whole main_v2).slice (win1_1.rect t1_4)).set
    rw [View.set_slice_whole, Rect.mem_set_unit]
    intro a
    match a with
    | ⟨0, _⟩ =>
      show win1_1.index t1_4 (0 : Fin 1) * 1 ≤ (i 0).val ∧ (i 0).val < win1_1.index t1_4 (0 : Fin 1) * 1 + 1
      have h0 : win1_1.index t1_4 (0 : Fin 1) = 0 := by decide
      have hi : (i 0).val < 1 := (i 0).isLt
      omega

/-! ## Kernel 2, at its one point -/

theorem A2_eq (c : Dev nD) (w : Fin cfg2.W) : (dat2 m xf pv c).A w = VB m xf pv c (Pipeline.arrRef spec2 w) := by dsimp only [dat2]
theorem after2_0 (c : Dev nD) (t : Fin cfg2.N) : (dat2 m xf pv c).after 0 t = pv c := by dsimp only [dat2]
theorem after2_1 (c : Dev nD) (t : Fin cfg2.N) : (dat2 m xf pv c).after 1 t = (fun _ => Spec.acc (tbl m c) 5) := by dsimp only [dat2]
theorem after2_2 (c : Dev nD) (t : Fin cfg2.N) : (dat2 m xf pv c).after 2 t = gv m c := by dsimp only [dat2]
theorem after2_3 (c : Dev nD) (t : Fin cfg2.N) :
    (dat2 m xf pv c).after 3 t = Spec.result (pv c) (Spec.acc (tbl m c) 5) (gv m c) := by dsimp only [dat2]

/-- Every window's one block starts at the origin. -/
theorem idx2 : ∀ t : Fin cfg2.N, (win2_0.index t (0 : Fin 2) = 0 ∧ win2_0.index t (1 : Fin 2) = 0) ∧ win2_1.index t (0 : Fin 1) = 0
    ∧ win2_2.index t (0 : Fin 1) = 0 ∧ win2_3.index t (0 : Fin 1) = 0 :=
  (by decide +kernel : ∀ t : Fin grid2.N, (win2_0.index t (0 : Fin 2) = 0 ∧ win2_0.index t (1 : Fin 2) = 0) ∧ win2_1.index t (0 : Fin 1) = 0
    ∧ win2_2.index t (0 : Fin 1) = 0 ∧ win2_3.index t (0 : Fin 1) = 0)

theorem blockOf2_0 (c : Dev nD) (t : Fin cfg2.N) : (dat2 m xf pv c).blockOf 0 t = pv c := by
  unfold Dat.blockOf
  rw [A2_eq]
  funext y
  rw [View.read_apply]
  show VB m xf pv c main_v1 (((cfg2.win 0).blk t).view.emb y) = pv c y
  rw [VB_ne m xf pv c main_v1 (by decide), VA_v1]
  refine congrArg (pv c) ?_
  funext a; apply Fin.ext
  match a with
  | ⟨0, _⟩ =>
    show win2_0.index t 0 * 32 + 1 * (y 0).val = (y 0).val
    rw [(idx2 t).1.1]; omega
  | ⟨1, _⟩ =>
    show win2_0.index t 1 * 16 + 1 * (y 1).val = (y 1).val
    rw [(idx2 t).1.2]; omega

theorem blockOf2_1 (c : Dev nD) (t : Fin cfg2.N) : (dat2 m xf pv c).blockOf 1 t = (fun _ => Spec.acc (tbl m c) 5) := by
  unfold Dat.blockOf
  rw [A2_eq]
  funext y
  rw [View.read_apply]
  show VB m xf pv c main_v2 (((cfg2.win 1).blk t).view.emb y) = Spec.acc (tbl m c) 5
  rw [VB_v2]

theorem blockOf2_2 (c : Dev nD) (t : Fin cfg2.N) : (dat2 m xf pv c).blockOf 2 t = gv m c := by
  unfold Dat.blockOf
  rw [A2_eq]
  funext y
  rw [View.read_apply]
  show VB m xf pv c main_arg3 (((cfg2.win 2).blk t).view.emb y) = gv m c y
  rw [VB_ne m xf pv c main_arg3 (by decide), VA_arg m xf pv c main_arg3 (by decide) (by decide)]
  refine congrArg (gv m c) ?_
  funext a; apply Fin.ext
  match a with
  | ⟨0, _⟩ =>
    show win2_2.index t 0 * 3 + 1 * (y 0).val = (y 0).val
    rw [(idx2 t).2.2.1]; omega

theorem before2_0 (c : Dev nD) (t : Fin cfg2.N) (d) : (dat2 m xf pv c).before 0 t d = pv c :=
  ((dat2 m xf pv c).before_in_eq_fetched 0 rfl (fun _ => rfl) (fun _ _ _ => rfl)
      (fun t => by rw [after2_0, blockOf2_0]) t d).trans
    (by unfold Dat.fetched; rw [blockOf2_0]; rfl)
theorem before2_1 (c : Dev nD) (t : Fin cfg2.N) (d) : (dat2 m xf pv c).before 1 t d = (fun _ => Spec.acc (tbl m c) 5) :=
  ((dat2 m xf pv c).before_in_eq_fetched 1 rfl (fun _ => rfl) (fun _ _ _ => rfl)
      (fun t => by rw [after2_1, blockOf2_1]) t d).trans
    (by unfold Dat.fetched; rw [blockOf2_1]; rfl)
theorem before2_2 (c : Dev nD) (t : Fin cfg2.N) (d) : (dat2 m xf pv c).before 2 t d = gv m c :=
  ((dat2 m xf pv c).before_in_eq_fetched 2 rfl (fun _ => rfl) (fun _ _ _ => rfl)
      (fun t => by rw [after2_2, blockOf2_2]) t d).trans
    (by unfold Dat.fetched; rw [blockOf2_2]; rfl)
theorem before2_3 (c : Dev nD) (t : Fin cfg2.N) (d) : (dat2 m xf pv c).before 3 t d = d :=
  (dat2 m xf pv c).before_out_reset 3 rfl t (.inl (by have h1 := t.isLt; have h2 : cfg2.N = 1 := N_2; omega)) d

/-- After its one point the result array holds the three result words. -/
theorem arrAt2_3 (c : Dev nD) :
    (dat2 m xf pv c).arrAt 3 cfg2.N = (Spec.result (pv c) (Spec.acc (tbl m c) 5) (gv m c) : Vec F S3 .f32) := by
  refine (dat2 m xf pv c).arrAt_eq_of_cover 3 _ (fun t hf => ?_) (fun i => ?_)
  · funext y
    rw [View.read_apply]
    show Spec.result (pv c) (Spec.acc (tbl m c) 5) (gv m c) y
      = Spec.result (pv c) (Spec.acc (tbl m c) 5) (gv m c) (((cfg2.win 3).blk t).view.emb y)
    refine congrArg _ ?_
    funext a; apply Fin.ext
    match a with
    | ⟨0, _⟩ =>
      show (y 0).val = win2_3.index t 0 * 3 + 1 * (y 0).val
      rw [(idx2 t).2.2.2]; omega
  · refine ⟨t2_0, flush2_3 _, ?_⟩
    show i ∈ ((View.whole main_v3).slice (win2_3.rect t2_0)).set
    rw [View.set_slice_whole, Rect.mem_set_unit]
    intro a
    match a with
    | ⟨0, _⟩ =>
      show win2_3.index t2_0 (0 : Fin 1) * 3 ≤ (i 0).val ∧ (i 0).val < win2_3.index t2_0 (0 : Fin 1) * 3 + 3
      have h0 : win2_3.index t2_0 (0 : Fin 1) = 0 := (idx2 t2_0).2.2.2
      have hi : (i 0).val < 3 := (i 0).isLt
      omega

end Cert.Proof.KI

end
-- ==== Proof.KIBodies.lean ====
/-
  The bodies of the two TensorCore kernels as separation-logic triples, at any float instance.

  The second call's body, at a grid point, reads the block of 2000 x 128 entries and the one running word, and stores
  back that word plus the sum of the squares of the block's entries; at the first grid point it first zeroes the word.
  The third call's body stores three words: sqrt (0 * (the sum of the 32 x 16 partial sums) + the running word), and
  the second and third words of the three-word input.
-/
import proofs.«209474_g91096256348957_cont_sun_m_1209_13_alg».proof.Proof.KISetup
import proofs.«209474_g91096256348957_cont_sun_m_1209_13_alg».proof.Proof.KISpec
import Idealize.ShloMosaic.Lib.Pipeline.FrameBody
import Idealize.ShloMosaic.Lib.Pipeline.Value
import Idealize.ShloMosaic.Lib.WholeRead

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The second call's branch: taken at the first grid point only -/

/-- The condition of the body's one `scf.if`, from the grid coordinate. -/
abbrev cond1 (i : grid1.Coords) : Prop :=
  (Scalar.cmpi .ne (Scalar.extui (Scalar.cmpi .eq (BitVec.ofNat 32 (i 0).val) 0#32)) 0#32) = 1#1

/-- It holds at the first of the five grid points only: decided over the grid. -/
theorem hcond1 : ∀ t : Fin cfg1.N, cond1 (grid1.coords t) ↔ t.val = 0 :=
  (by decide +kernel : ∀ t : Fin grid1.N, cond1 (grid1.coords t) ↔ t.val = 0)

/-! ## Small facts about the shapes -/

theorem hz1 : (![0] : Fin 1 → ℕ) = fun _ => 0 := funext fun a => by fin_cases a; rfl
theorem hz2 : (![0, 0] : Fin 2 → ℕ) = fun _ => 0 := funext fun a => by fin_cases a <;> rfl

/-- A shape of one axis of extent one has one index. -/
theorem idx_one_eq {sz : Fin 1 → ℕ} (h : sz 0 = 1) (a b : (d : Fin 1) → Fin (sz d)) : a = b :=
  funext fun d => by
    obtain rfl : d = 0 := Subsingleton.elim _ _
    exact Fin.ext (by have := (a 0).isLt; have := (b 0).isLt; omega)

/-- The one-word shape has one index. -/
theorem idx_S1_eq (a b : S1.Idx) : a = b := idx_one_eq rfl a b

/-! ## The second call's body -/

set_option maxHeartbeats 1000000 in
/-- At a grid point other than the first the body leaves, in the one-word buffer holding `s0`, that word plus the sum of
    the squares of the block `x0`: its one store covers the buffer, and its payload reads the two buffers whole. -/
theorem run1_next (c : Dev nD) (i : grid1.Coords) (hc : ¬ cond1 i) (arg1 : Memref sig .tc .vmem S2000x128 .f32) (harg1 : arg1.IsWhole)
    (arg2 : Memref sig .tc .smem S1 .f32) (harg2 : arg2.IsWhole) (x0 : Vec F S2000x128 .f32) (s0 : Vec F S1 .f32) (E : Set ℕ)
    (Kc : PUnit → sProp 𝕄) :
    iprop(owns (c : Thread nD τ) arg1 fullShare x0 ∗ owns (c : Thread nD τ) arg2 fullShare s0
        ∗ (iprop(owns (c : Thread nD τ) arg1 fullShare x0
            ∗ owns (c : Thread nD τ) arg2 fullShare (fun _ => k1_pay1 x0 (s0 (ValueIdx.ix1 0)))) -∗ Kc ⟨⟩))
      ⊢ wp frame (wpE (defs₀ (F := F)) 𝒱₀ (c : Thread nD τ) none) E (cc1__tc_reduce_body i arg1 harg1 arg2 harg2) Kc := by
  simp only [cc1__tc_reduce_body_eq_skeleton]; unfold cc1__tc_reduce_body_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr; swap; · iexact H1
  ipureintro
  funext y
  refine View.read_writes_apply_of_pieces (Val := Elt F) (e := .f32) _ _ (fun _ => k1_pay1 x0 (s0 (ValueIdx.ix1 0))) _ ?_ y ?_
  · intro p hp x
    obtain rfl := List.mem_singleton.mp hp
    dsimp only
    sl_unfold_words
    simp only [View.readAt_eq_ld, harg1.read_unread, harg2.read_unread, View.ld_unit_zero (S := S2000x128) hz2]
    exact congrArg (fun j => k1_pay1 x0 (s0 j)) (idx_S1_eq _ _)
  · exact ⟨_, List.mem_singleton_self _, View.mem_set_unit_zero hz1 inb_S1_S1_0 y⟩

set_option maxHeartbeats 1000000 in
/-- At the first grid point the body first stores zero over the one word, whatever it held, and then leaves zero plus the
    sum of the squares of the block `x0`: the last store alone covers the buffer, and the word its payload reads back is
    the zero just stored. -/
theorem run1_first (c : Dev nD) (i : grid1.Coords) (hc : cond1 i) (arg1 : Memref sig .tc .vmem S2000x128 .f32) (harg1 : arg1.IsWhole)
    (arg2 : Memref sig .tc .smem S1 .f32) (harg2 : arg2.IsWhole) (x0 : Vec F S2000x128 .f32) (s0 : Vec F S1 .f32) (E : Set ℕ)
    (Kc : PUnit → sProp 𝕄) :
    iprop(owns (c : Thread nD τ) arg1 fullShare x0 ∗ owns (c : Thread nD τ) arg2 fullShare s0
        ∗ (iprop(owns (c : Thread nD τ) arg1 fullShare x0
            ∗ owns (c : Thread nD τ) arg2 fullShare (fun _ => k1_pay1 x0 (Scalar.ofBits .f32 0x00000000#32 : F .f32))) -∗ Kc ⟨⟩))
      ⊢ wp frame (wpE (defs₀ (F := F)) 𝒱₀ (c : Thread nD τ) none) E (cc1__tc_reduce_body i arg1 harg1 arg2 harg2) Kc := by
  simp only [cc1__tc_reduce_body_eq_skeleton]; unfold cc1__tc_reduce_body_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr; swap; · iexact H1
  ipureintro
  funext y
  obtain ⟨x, rfl⟩ : ∃ x, (Rect.unit (s := S1) ![0] S1.size inb_S1_S1_0).emb x = y :=
    (Rect.unit (s := S1) ![0] S1.size inb_S1_S1_0).exists_idx_of_mem (View.mem_set_unit_zero hz1 inb_S1_S1_0 y)
  rw [View.read_writes_cons_emb]
  sl_unfold_words
  simp only [View.readAt_eq_ld, harg1.read_unread, View.ld_unit_zero (S := S2000x128) hz2]

/-! ## The third call's body -/

set_option maxHeartbeats 1000000 in
/-- The body leaves, in the three-word result buffer, whatever it held, the three result words as one function of the
    index: word 0 is sqrt (0 * (the sum of the entries of `p`) + `s`), words 1 and 2 are those of `g`. Its three one-word
    stores land at offsets 0, 1 and 2, which cover the three indices, and each store's payload is that function at its
    offset. -/
theorem run2 (c : Dev nD) (arg0 : Memref sig .tc .vmem S32x16 .f32) (harg0 : arg0.IsWhole) (arg1 : Memref sig .tc .smem S1 .f32) (harg1 : arg1.IsWhole)
    (arg2 : Memref sig .tc .smem S3 .f32) (harg2 : arg2.IsWhole) (arg3 : Memref sig .tc .smem S3 .f32) (harg3 : arg3.IsWhole)
    (p : Vec F S32x16 .f32) (s : Vec F S1 .f32) (g : Vec F S3 .f32) (o : Vec F S3 .f32) (E : Set ℕ) (Kc : PUnit → sProp 𝕄) :
    iprop(owns (c : Thread nD τ) arg0 fullShare p ∗ owns (c : Thread nD τ) arg1 fullShare s ∗ owns (c : Thread nD τ) arg2 fullShare g
        ∗ owns (c : Thread nD τ) arg3 fullShare o
        ∗ (iprop(owns (c : Thread nD τ) arg0 fullShare p ∗ owns (c : Thread nD τ) arg1 fullShare s ∗ owns (c : Thread nD τ) arg2 fullShare g
            ∗ owns (c : Thread nD τ) arg3 fullShare (Cert.KernelIdeal.Spec.result p (s (ValueIdx.ix1 0)) g)) -∗ Kc ⟨⟩))
      ⊢ wp frame (wpE (defs₀ (F := F)) 𝒱₀ (c : Thread nD τ) none) E (cc2__tc_finish_body arg0 harg0 arg1 harg1 arg2 harg2 arg3 harg3) Kc := by
  simp only [cc2__tc_finish_body_eq_skeleton]; unfold cc2__tc_finish_body_skel
  unfold owns
  iintro ⟨⟨%f0, %hf0, H0⟩, ⟨%f1, %hf1, H1⟩, ⟨%f2, %hf2, H2⟩, ⟨%f3, %hf3, H3⟩, Hk⟩
  obtain rfl := harg0.eq_unread hf0; obtain rfl := harg1.eq_unread hf1
  obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  refine View.read_writes_apply_of_pieces (Val := Elt F) (e := .f32) _ _ (Spec.result p (s (ValueIdx.ix1 0)) g) _ ?_ y ?_
  · intro q hq x
    simp only [List.mem_cons, List.not_mem_nil, or_false] at hq
    rcases hq with rfl | rfl | rfl
    · dsimp only
      sl_unfold_words
      simp only [View.readAt_eq_ld, harg2.read_unread]
      unfold Spec.result
      have h1 : (x 0).val < 1 := (x 0).isLt
      rw [if_neg (by show ¬ (2 + 1 * (x 0).val = 0); omega)]
      exact congrArg (fun j => g ((Rect.unit (s := S3) ![2] S1.size inb_S3_S1_2).emb j)) (idx_one_eq rfl _ _)
    · dsimp only
      sl_unfold_words
      simp only [View.readAt_eq_ld, harg2.read_unread]
      unfold Spec.result
      have h1 : (x 0).val < 1 := (x 0).isLt
      rw [if_neg (by show ¬ (1 + 1 * (x 0).val = 0); omega)]
      exact congrArg (fun j => g ((Rect.unit (s := S3) ![1] S1.size inb_S3_S1_1).emb j)) (idx_one_eq rfl _ _)
    · dsimp only
      sl_unfold_words
      simp only [View.readAt_eq_ld, harg0.read_unread, harg1.read_unread, View.ld_unit_zero (S := S32x16) hz2]
      unfold Spec.result
      have h1 : (x 0).val < 1 := (x 0).isLt
      rw [if_pos (by show 0 + 1 * (x 0).val = 0; omega)]
      exact congrArg (fun j => k2_pay1 p (s j)) (idx_one_eq rfl _ _)
  · have h3 : (y 0).val < 3 := (y 0).isLt
    have hy : (y 0).val = 0 ∨ (y 0).val = 1 ∨ (y 0).val = 2 := by omega
    rcases hy with h | h | h
    · refine ⟨_, List.mem_cons_of_mem _ (List.mem_cons_of_mem _ List.mem_cons_self), ?_⟩
      refine (Rect.mem_set_unit (inb := inb_S3_S1_0)).mpr fun a => ?_
      obtain rfl : a = 0 := Fin.ext (by have h1 : a.val < 1 := a.isLt; show a.val = 0; omega)
      exact ⟨by show 0 ≤ (y 0).val; omega, by show (y 0).val < 0 + 1; omega⟩
    · refine ⟨_, List.mem_cons_of_mem _ List.mem_cons_self, ?_⟩
      refine (Rect.mem_set_unit (inb := inb_S3_S1_1)).mpr fun a => ?_
      obtain rfl : a = 0 := Fin.ext (by have h1 : a.val < 1 := a.isLt; show a.val = 0; omega)
      exact ⟨by show 1 ≤ (y 0).val; omega, by show (y 0).val < 1 + 1; omega⟩
    · refine ⟨_, List.mem_cons_self, ?_⟩
      refine (Rect.mem_set_unit (inb := inb_S3_S1_2)).mpr fun a => ?_
      obtain rfl : a = 0 := Fin.ext (by have h1 : a.val < 1 := a.isLt; show a.val = 0; omega)
      exact ⟨by show 2 ≤ (y 0).val; omega, by show (y 0).val < 2 + 1; omega⟩

end Cert.Proof.KI

end
-- ==== Proof.KIBodyObl.lean ====
/-
  The two TensorCore kernels' body obligations: at every grid point, from what the pipeline hands the body (each
  window's current staging buffer at the contents the proof data names) the body runs to what the proof data says it
  leaves.
-/
import proofs.«209474_g91096256348957_cont_sun_m_1209_13_alg».proof.Proof.KIDat
import proofs.«209474_g91096256348957_cont_sun_m_1209_13_alg».proof.Proof.KIBodies

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))

/-! ## Kernel 1 -/

/-- What kernel 1's body is called with at point `t`, the windows one by one, -/
def bodyPre1 (c : Dev nD) (t : Fin cfg1.N) : sProp 𝕄 :=
  iprop((dat1 m xf pv c).Φ t.castSucc ∗ (dat1 m xf pv c).owesAt (none : HIx 1) t.castSucc
    ∗ (∃ d, owns (c : Thread nD τ) (st1_0 t) fullShare ((dat1 m xf pv c).before 0 t d))
    ∗ (∃ d, owns (c : Thread nD τ) (st1_1 t) fullShare ((dat1 m xf pv c).before 1 t d)))

/-- and what it returns. -/
def bodyPost1 (c : Dev nD) (t : Fin cfg1.N) : sProp 𝕄 :=
  iprop((dat1 m xf pv c).Φ t.succ ∗ (dat1 m xf pv c).owesAt (none : HIx 1) t.succ
    ∗ owns (c : Thread nD τ) (st1_0 t) fullShare ((dat1 m xf pv c).after 0 t)
    ∗ owns (c : Thread nD τ) (st1_1 t) fullShare ((dat1 m xf pv c).after 1 t))

/-- At the first point the body zeroes the word and adds the first block's sum of squares; at a later point it adds the
    block's to the word the point before left. -/
theorem sound_body1 (c : Dev nD) (t : Fin cfg1.N) :
    bodyPre1 m xf pv c t ⊢ wp frame (wpE (defs₀ (F := F)) 𝒱₀ c none) Set.univ (bodyAt1 t) (fun _ => bodyPost1 m xf pv c t) := by
  unfold bodyPre1 bodyPost1 bodyAt1
  simp only [before1_0]
  rw [show (dat1 m xf pv c).Φ t.succ = (dat1 m xf pv c).Φ t.castSucc from rfl,
    show (dat1 m xf pv c).owesAt (none : HIx 1) t.succ = (dat1 m xf pv c).owesAt (none : HIx 1) t.castSucc from rfl,
    after1_0, after1_1]
  by_cases h0 : t.val = 0
  · simp only [before1_1_first m xf pv c t h0]
    iintro ⟨HΦ, Ho, ⟨%d0, H0⟩, ⟨%d1, H1⟩⟩
    iapply (run1_first c (grid1.coords t) ((hcond1 t).mpr h0) _ _ _ _ (Spec.blk (tbl m c) t.val) d1 Set.univ _)
    isplitl [H0]; · iexact H0
    isplitl [H1]; · iexact H1
    iintro ⟨H0, H1⟩
    isplitl [HΦ]; · iexact HΦ
    isplitl [Ho]; · iexact Ho
    isplitl [H0]; · iexact H0
    have hw : Spec.acc (tbl m c) (t.val + 1) = k1_pay1 (Spec.blk (tbl m c) t.val) (Scalar.ofBits .f32 0x00000000#32 : F .f32) := by
      rw [h0]; rfl
    rw [hw]
    iexact H1
  · simp only [before1_1_next m xf pv c t h0]
    iintro ⟨HΦ, Ho, ⟨%d0, H0⟩, ⟨%d1, H1⟩⟩
    iapply (run1_next c (grid1.coords t) (fun h => h0 ((hcond1 t).mp h)) _ _ _ _ (Spec.blk (tbl m c) t.val)
      (fun _ => Spec.acc (tbl m c) t.val) Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- Kernel 1's body obligation. -/
theorem body1 (c : Dev nD) : Pipeline.BodyObligation (dat1 (F := F) m xf pv c) defs₀ 𝒱₀ (none : HIx 1) Set.univ := fun t => by
  rw [bigSep_W1, bigSep_W1]
  exact sound_body1 m xf pv c t

/-! ## Kernel 2 -/

def bodyPre2 (c : Dev nD) (t : Fin cfg2.N) : sProp 𝕄 :=
  iprop((dat2 m xf pv c).Φ t.castSucc ∗ (dat2 m xf pv c).owesAt (none : HIx 1) t.castSucc
    ∗ (∃ d, owns (c : Thread nD τ) (st2_0 t) fullShare ((dat2 m xf pv c).before 0 t d))
    ∗ (∃ d, owns (c : Thread nD τ) (st2_1 t) fullShare ((dat2 m xf pv c).before 1 t d))
    ∗ (∃ d, owns (c : Thread nD τ) (st2_2 t) fullShare ((dat2 m xf pv c).before 2 t d))
    ∗ (∃ d, owns (c : Thread nD τ) (st2_3 t) fullShare ((dat2 m xf pv c).before 3 t d)))

def bodyPost2 (c : Dev nD) (t : Fin cfg2.N) : sProp 𝕄 :=
  iprop((dat2 m xf pv c).Φ t.succ ∗ (dat2 m xf pv c).owesAt (none : HIx 1) t.succ
    ∗ owns (c : Thread nD τ) (st2_0 t) fullShare ((dat2 m xf pv c).after 0 t)
    ∗ owns (c : Thread nD τ) (st2_1 t) fullShare ((dat2 m xf pv c).after 1 t)
    ∗ owns (c : Thread nD τ) (st2_2 t) fullShare ((dat2 m xf pv c).after 2 t)
    ∗ owns (c : Thread nD τ) (st2_3 t) fullShare ((dat2 m xf pv c).after 3 t))

/-- The body reads the partial sums, the running word and g, and leaves the three result words. -/
theorem sound_body2 (c : Dev nD) (t : Fin cfg2.N) :
    bodyPre2 m xf pv c t ⊢ wp frame (wpE (defs₀ (F := F)) 𝒱₀ c none) Set.univ (bodyAt2 t) (fun _ => bodyPost2 m xf pv c t) := by
  unfold bodyPre2 bodyPost2 bodyAt2
  simp only [before2_0, before2_1, before2_2, before2_3]
  rw [show (dat2 m xf pv c).Φ t.succ = (dat2 m xf pv c).Φ t.castSucc from rfl,
    show (dat2 m xf pv c).owesAt (none : HIx 1) t.succ = (dat2 m xf pv c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (run2 c _ _ _ _ _ _ _ _ (pv c) (fun _ => Spec.acc (tbl m c) 5) (gv m c) d3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Kernel 2's body obligation. -/
theorem body2 (c : Dev nD) : Pipeline.BodyObligation (dat2 (F := F) m xf pv c) defs₀ 𝒱₀ (none : HIx 1) Set.univ := fun t => by
  rw [bigSep_W2, bigSep_W2]
  exact sound_body2 m xf pv c t

end Cert.Proof.KI

end
-- ==== Proof.KIRegs.lean ====
/-
  The two TensorCore kernels as regions of @main: what each is entered from and what it leaves, around the pipeline
  library's proof data.

  Between the statements of @main the TensorCore holds its unscoped buffers at a valuation (VA when kernel 1 is entered,
  VB when kernel 2 is, VC at the end), its free semaphores at zero, the generator register, and owes nothing, its
  recorded waits at or below the level of the one SparseCore call's last handshake (the staging semaphores' waits sit at
  level zero).
-/
import proofs.«209474_g91096256348957_cont_sun_m_1209_13_alg».proof.Proof.KIBodyObl

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))
variable (ρ : Dev nD → PrngReg)

/-- The level assignment of the launch: the handshakes'. -/
abbrev LL : GSem nD τ sig → Finset (HIx 1) := (K (F := F)).L
abbrev lvv : GSem nD τ sig → HIx 1 → ℕ := (K (F := F)).lev
/-- A TensorCore kernel's region of @main, as the pipeline library records it. -/
abbrev RS (p : Fin 2) := Pipeline.RegionSeg (pcfgs (F := F)) adm (pdats m xf pv) (none : HIx 1) defs₀ 𝒱₀ (LL (F := F)) (lvv (F := F)) p

/-- What the TensorCore owes and has recorded once the one SparseCore call is over: nothing owed, its recorded waits at or
    below the call's last handshake. -/
def owesT (c : Dev nD) : sProp 𝕄 :=
  iprop(∃ W, ⌜(K (F := F)).WBelow (SparseCore.T c) W 8⌝ ∗ owes (SparseCore.T c) (0 : CellTallies nD τ sig (HIx 1)) W)

/-- What rides along beside the buffers: the TensorCore's free semaphores at zero, the generator register, the `owes`. -/
def rideT (c : Dev nD) : sProp 𝕄 :=
  iprop((K (F := F)).tcSems0 c ∗ prngReg c (ρ c) ∗ owesT (F := F) c)

omit [FloatOps F] in
theorem prefHeld_emp (p : Fin 2) (c : Dev nD) (q) (pf) :
    (Pipeline.prefHeld (Ix := HIx 1) (Name := ℕ) (U := UU) (Lvl := ℕ) (Val := Elt F) (pcfgs (F := F) p).pre c q pf : sProp 𝕄) = BI.emp :=
  match p with
  | ⟨0, _⟩ => bigSep_univ_eq_bigSepL [] (Finset.ext fun x => x.elim0) List.nodup_nil _
  | ⟨1, _⟩ => bigSep_univ_eq_bigSepL [] (Finset.ext fun x => x.elim0) List.nodup_nil _

theorem owesAt_intro {cfg : Pipeline.Cfg sig Λ₀} (c : Dev nD) (dat : Dat τ (Elt F) (HIx 1) ℕ UU ℕ cfg c) (t : Fin (cfg.N + 1))
    (h0 : dat.owed t = 0) (hr : dat.recorded t = recd (F := F) c) : owesT (F := F) c ⊢ (dat.owesAt (none : HIx 1) t : sProp 𝕄) := by
  unfold owesT Pipeline.Dat.owesAt Pipeline.owesWithin Pipeline.Dat.bound
  rw [h0, hr]
  iintro ⟨%W, %hW, HO⟩
  iexists W; isplitr
  · ipureintro; intro p hp; exact Or.inl (hW p hp)
  · iexact HO

theorem owesAt_elim {cfg : Pipeline.Cfg sig Λ₀} (c : Dev nD) (dat : Dat τ (Elt F) (HIx 1) ℕ UU ℕ cfg c) (t : Fin (cfg.N + 1))
    (h0 : dat.owed t = 0) (hr : dat.recorded t = recd (F := F) c) : (dat.owesAt (none : HIx 1) t : sProp 𝕄) ⊢ owesT (F := F) c := by
  unfold owesT Pipeline.Dat.owesAt Pipeline.owesWithin Pipeline.Dat.bound
  rw [h0, hr]
  iintro ⟨%W, %hW, HO⟩
  iexists W; isplitr
  · ipureintro; intro p hp
    rcases hW hp with h | ⟨w, s, rfl⟩
    · exact h
    · show (K (F := F)).lev _ none ≤ 8
      rw [SparseCore.Cfg.lev_none]; exact Nat.zero_le _
  · iexact HO

/-! ## Kernel 1 -/

theorem arrAt1_0 (c : Dev nD) (n : ℕ) : (dat1 m xf pv c).arrAt 0 n = VA m xf pv c main_arg0 :=
  ((dat1 m xf pv c).arrAt_in 0 rfl n).trans (A1_eq m xf pv c 0)

theorem rest1_eq (c : Dev nD) :
    (Pipeline.unscopedRest spec1 c (VA m xf pv c) : sProp 𝕄) = Pipeline.unscopedRest (Pipeline.pin (pcfgs (F := F)) adm 0).spec c (VB m xf pv c) := by
  show (Pipeline.unscopedRest spec1 c (VA m xf pv c) : sProp 𝕄) = Pipeline.unscopedRest spec1 c (VB m xf pv c)
  rw [unscopedRest1_eq, unscopedRest1_eq, VB_ne m xf pv c main_arg1 (by decide), VB_ne m xf pv c main_arg2 (by decide),
    VB_ne m xf pv c main_arg3 (by decide), VB_ne m xf pv c main_arg4 (by decide), VB_ne m xf pv c main_v0 (by decide),
    VB_ne m xf pv c main_v1 (by decide), VB_ne m xf pv c main_v3 (by decide)]

def reg1 : RS m xf pv 0 where
  win := launch1.win.to₀
  block_pos := block_pos1
  stage_whole := stage_whole1
  K := PEmpty
  osem k := k.elim
  ho := Pipeline.OwnSemFacts.none _
  hbody c := (body1 m xf pv c).loose
  hwaits := Pipeline.hwaits_of_owed_zero _ _ _ _ _ _ 0 fun _ _ => rfl
  pre c := iprop(unscopedBufs c (VA m xf pv c) ∗ rideT (F := F) ρ c)
  post c := iprop(unscopedBufs c (VB m xf pv c) ∗ rideT (F := F) ρ c)
  X _ := iprop(emp)
  Y _ := iprop(emp)
  Z c := iprop(Pipeline.unscopedRest spec1 c (VA m xf pv c) ∗ (K (F := F)).tcSems0 c ∗ prngReg c (ρ c))
  hentry c := by
    rw [Pipeline.ownSems0_none, prefHeld_emp]
    unfold rideT
    iintro ⟨⟨Hb, Hs, Hp, HO⟩, -, -⟩
    ihave H := (Pipeline.arrays_of_unscopedBufs (pcfgs (F := F)) adm (pdats m xf pv) (p := 0) launch1.win arr_whole1 c
      ((dat1 m xf pv c).share_full fun _ => rfl) (VA m xf pv c) (fun w => A1_eq m xf pv c w)) $$ Hb
    icases H with ⟨Ha, Hr⟩
    imodintro
    isplitl [Ha]; · iexact Ha
    isplitr; · iempintro
    isplitl [HO]; · iapply (owesAt_intro c (dat1 m xf pv c) 0 rfl rfl); iexact HO
    isplitr; · iempintro
    isplitl [Hr]; · iexact Hr
    isplitl [Hs]; · iexact Hs
    iexact Hp
  hin c := by
    rw [show (pdats m xf pv 0 c).Φ 0 = Pipeline.scopedRest spec1 c from rfl]
    iintro ⟨-, -, H⟩; iexact H
  hout c := by
    rw [show (pdats m xf pv 0 c).Φ (Fin.last _) = Pipeline.scopedRest spec1 c from rfl, Pipeline.ownSems0_none]
    iintro H
    isplitr; · iempintro
    isplitr; · iempintro
    iexact H
  hexit c := by
    rw [Pipeline.arrays_eq (Pipeline.pin (pcfgs (F := F)) adm) (pdats m xf pv) 0 c arr_whole1 ((dat1 m xf pv c).share_full fun _ => rfl),
      Pipeline.unscopedBufs_split (Pipeline.pin (pcfgs (F := F)) adm) 0 launch1.win.arr_unscoped launch1.win.arr_inj c (VB m xf pv c),
      bigSep_W1, bigSep_W1, ← rest1_eq]
    unfold rideT
    iintro ⟨⟨H0, H1⟩, HO, -, Hr, Hs, Hp⟩
    imodintro
    isplitl [H0 H1 Hr]
    · isplitl [H0 H1]
      · isplitl [H0]
        · rw [show (pdats m xf pv 0 c).arrAt 0 (Pipeline.pin (pcfgs (F := F)) adm 0).N = VB m xf pv c main_arg0 from
            (arrAt1_0 m xf pv c _).trans (VB_ne m xf pv c main_arg0 (by decide)).symm]
          iexact H0
        · rw [show (pdats m xf pv 0 c).arrAt 1 (Pipeline.pin (pcfgs (F := F)) adm 0).N = VB m xf pv c main_v2 from
            (arrAt1_1 m xf pv c).trans (VB_v2 m xf pv c).symm]
          iexact H1
      · iexact Hr
    isplitl [Hs]; · iexact Hs
    isplitl [Hp]; · iexact Hp
    iapply (owesAt_elim c (dat1 m xf pv c) _ rfl rfl); iexact HO

/-! ## Kernel 2 -/

theorem arrAt2_in (c : Dev nD) (w : Fin cfg2.W) (hw : (cfg2.win w).isOut = false) (n : ℕ) :
    (dat2 m xf pv c).arrAt w n = VB m xf pv c (Pipeline.arrRef spec2 w) :=
  ((dat2 m xf pv c).arrAt_in w hw n).trans (A2_eq m xf pv c w)

theorem rest2_eq (c : Dev nD) :
    (Pipeline.unscopedRest spec2 c (VB m xf pv c) : sProp 𝕄) = Pipeline.unscopedRest (Pipeline.pin (pcfgs (F := F)) adm 1).spec c (VC m xf pv c) := by
  show (Pipeline.unscopedRest spec2 c (VB m xf pv c) : sProp 𝕄) = Pipeline.unscopedRest spec2 c (VC m xf pv c)
  rw [unscopedRest2_eq, unscopedRest2_eq, VC_ne m xf pv c main_arg0 (by decide), VC_ne m xf pv c main_arg1 (by decide),
    VC_ne m xf pv c main_arg2 (by decide), VC_ne m xf pv c main_arg4 (by decide), VC_ne m xf pv c main_v0 (by decide)]

def reg2 : RS m xf pv 1 where
  win := launch2.win.to₀
  block_pos := block_pos2
  stage_whole := stage_whole2
  K := PEmpty
  osem k := k.elim
  ho := Pipeline.OwnSemFacts.none _
  hbody c := (body2 m xf pv c).loose
  hwaits := Pipeline.hwaits_of_owed_zero _ _ _ _ _ _ 1 fun _ _ => rfl
  pre c := iprop(unscopedBufs c (VB m xf pv c) ∗ rideT (F := F) ρ c)
  post c := iprop(unscopedBufs c (VC m xf pv c) ∗ rideT (F := F) ρ c)
  X _ := iprop(emp)
  Y _ := iprop(emp)
  Z c := iprop(Pipeline.unscopedRest spec2 c (VB m xf pv c) ∗ (K (F := F)).tcSems0 c ∗ prngReg c (ρ c))
  hentry c := by
    rw [Pipeline.ownSems0_none, prefHeld_emp]
    unfold rideT
    iintro ⟨⟨Hb, Hs, Hp, HO⟩, -, -⟩
    ihave H := (Pipeline.arrays_of_unscopedBufs (pcfgs (F := F)) adm (pdats m xf pv) (p := 1) launch2.win arr_whole2 c
      ((dat2 m xf pv c).share_full fun _ => rfl) (VB m xf pv c) (fun w => A2_eq m xf pv c w)) $$ Hb
    icases H with ⟨Ha, Hr⟩
    imodintro
    isplitl [Ha]; · iexact Ha
    isplitr; · iempintro
    isplitl [HO]; · iapply (owesAt_intro c (dat2 m xf pv c) 0 rfl rfl); iexact HO
    isplitr; · iempintro
    isplitl [Hr]; · iexact Hr
    isplitl [Hs]; · iexact Hs
    iexact Hp
  hin c := by
    rw [show (pdats m xf pv 1 c).Φ 0 = Pipeline.scopedRest spec2 c from rfl]
    iintro ⟨-, -, H⟩; iexact H
  hout c := by
    rw [show (pdats m xf pv 1 c).Φ (Fin.last _) = Pipeline.scopedRest spec2 c from rfl, Pipeline.ownSems0_none]
    iintro H
    isplitr; · iempintro
    isplitr; · iempintro
    iexact H
  hexit c := by
    rw [Pipeline.arrays_eq (Pipeline.pin (pcfgs (F := F)) adm) (pdats m xf pv) 1 c arr_whole2 ((dat2 m xf pv c).share_full fun _ => rfl),
      Pipeline.unscopedBufs_split (Pipeline.pin (pcfgs (F := F)) adm) 1 launch2.win.arr_unscoped launch2.win.arr_inj c (VC m xf pv c),
      bigSep_W2, bigSep_W2, ← rest2_eq]
    unfold rideT
    iintro ⟨⟨H0, H1, H2, H3⟩, HO, -, Hr, Hs, Hp⟩
    imodintro
    isplitl [H0 H1 H2 H3 Hr]
    · isplitl [H0 H1 H2 H3]
      · isplitl [H0]
        · rw [show (pdats m xf pv 1 c).arrAt 0 (Pipeline.pin (pcfgs (F := F)) adm 1).N = VC m xf pv c main_v1 from
            (arrAt2_in m xf pv c 0 rfl _).trans (VC_ne m xf pv c main_v1 (by decide)).symm]
          iexact H0
        isplitl [H1]
        · rw [show (pdats m xf pv 1 c).arrAt 1 (Pipeline.pin (pcfgs (F := F)) adm 1).N = VC m xf pv c main_v2 from
            (arrAt2_in m xf pv c 1 rfl _).trans (VC_ne m xf pv c main_v2 (by decide)).symm]
          iexact H1
        isplitl [H2]
        · rw [show (pdats m xf pv 1 c).arrAt 2 (Pipeline.pin (pcfgs (F := F)) adm 1).N = VC m xf pv c main_arg3 from
            (arrAt2_in m xf pv c 2 rfl _).trans (VC_ne m xf pv c main_arg3 (by decide)).symm]
          iexact H2
        · rw [show (pdats m xf pv 1 c).arrAt 3 (Pipeline.pin (pcfgs (F := F)) adm 1).N = VC m xf pv c main_v3 from
            (arrAt2_3 m xf pv c).trans (VC_v3 m xf pv c).symm]
          iexact H3
      · iexact Hr
    isplitl [Hs]; · iexact Hs
    isplitl [Hp]; · iexact Hp
    iapply (owesAt_elim c (dat2 m xf pv c) _ rfl rfl); iexact HO

end Cert.Proof.KI

end
-- ==== Proof.KILaunchElem.lean ====
/-
  The launch element of the kernel's ghost state.

  The program's ghost state has three parts side by side: the rounds of the four handshake semaphores of the one
  SparseCore call, the rounds of the staging cells of the two TensorCore kernels, and the counters of the local
  transfers. At launch the first part is the handshakes' launch element, the second the staging cells' launch element
  (every cell at round 0 with no schedule chosen, and one duty token per transfer the two kernels' loops will issue),
  the third the unit. The handshakes' part goes to the launch theorem as it is; the staging cells' part is dealt out
  per device and per kernel; the counters are not used (the vector-subcore kernel's copies are local and need no
  schedule) and the SparseCore kernel asks nothing of its own at its call.
-/
import proofs.«209474_g91096256348957_cont_sun_m_1209_13_alg».proof.Proof.KIDat

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshakes' rounds, the two kernels' staging cells' rounds with their duty tokens, no
    counter. -/
def u₀ : UU :=
  (initOf (K (F := F)).hsCells (K (F := F)).hsToks,
    (initOf (Pipeline.cells (Pipeline.pin (pcfgs (F := F)) adm) cellOf_inj')
      (Pipeline.launchToks (Pipeline.pin (pcfgs (F := F)) adm) cellOf_inj'), 1))

/-- What @main on device `d` starts from: the rounds state of the staging cells of both TensorCore kernels and the
    duty tokens of their transfers. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem bigSep_emp' {I : Type} (s : Finset I) : (bigSep s fun _ => iprop(emp)) = (iprop(emp) : sProp 𝕄) := bigSep_emp_const s

omit [FloatOps F] in
/-- The staging cells' part and the counters, owned side by side, are each owned through its own embedding. -/
theorem own_pair_EP (b : UP) (k : Counters) :
    (BI.own ((embR : Emb (UP × Counters) 𝕄) (b, k)) : sProp 𝕄)
      ⊢ iprop(BI.own ((EP : Emb UP 𝕄) b) ∗ BI.own (((Emb.inr : Emb Counters (UP × Counters)).trans (embR : Emb (UP × Counters) 𝕄)) k)) :=
  own_pair_emb embR b k

/-- The launch element splits into the handshakes' part, each device's staging-cell state, and nothing for the
    SparseCore kernel itself; the counters, the kernels' own credit and the free semaphores are dropped. -/
theorem hu₀ (xf : (d : Dev nD) → Buf (Elt F) (xfLoc d)) :
    iprop(ownU (u₀ (F := F)) ∗ (P xf).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P xf).x q thr) := by
  unfold u₀
  iintro ⟨Hu, -, -⟩
  ihave H := (ownU_pair _ _) $$ Hu
  icases H with ⟨HH, HR⟩
  ihave H2 := (own_pair_EP _ _) $$ HR
  icases H2 with ⟨HP, -⟩
  imod (Pipeline.fund_ghost (Pipeline.pin (pcfgs (F := F)) adm) EP cellOf_inj') $$ HP with ⟨Hg, Ht⟩
  imodintro
  isplitl [HH]; · iexact HH
  isplitl [Hg Ht]
  · unfold G
    rw [bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

omit [FloatOps F] in
/-- A product over the two kernels, written out. -/
theorem bigSep_two (Φ : Fin 2 → sProp 𝕄) : bigSep Finset.univ Φ = iprop(Φ 0 ∗ Φ 1) :=
  bigSep_univ_eq_bigSepL [(0 : Fin 2), 1] (by decide) (by decide) Φ

/-- A device's staging-cell state, kernel by kernel: each kernel's cells' rounds state with its duty tokens. -/
theorem G_split (d : Dev nD) :
    (G (F := F) d : sProp 𝕄)
      ⊢ iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [bigSep_two, bigSep_two]
  iintro ⟨⟨Hg0, Hg1⟩, Ht0, Ht1⟩
  isplitl [Hg0 Ht0]
  · isplitl [Hg0] <;> iassumption
  · isplitl [Hg1] <;> iassumption

/-- The same as the pipeline library names the state of a set of kernels not yet entered, at the set of both. -/
theorem G_ghostOn (d : Dev nD) :
    (G (F := F) d : sProp 𝕄) ⊢ Pipeline.ghostOn (pcfgs (F := F)) adm EP Finset.univ d :=
  Entails.of_eq (by unfold G Pipeline.ghostOn Pipeline.PerCore.ghostOn; rw [bigSep_sep'])

end Cert.Proof.KI

end
-- ==== Proof.KIVals.lean ====
/-
  The contents of the two arrays the SparseCore call touches, as @main makes them.

  The flattened table is the host reshape of the table; the partial sums hold, after the call, contents the proof does
  not name: they are carried as a parameter.
-/
import proofs.«209474_g91096256348957_cont_sun_m_1209_13_alg».proof.Proof.KIDat
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- @main's first statement: the table recast as one row of 1280000 words. -/
abbrev opR : HloOp τ sig (Elt F) := StableHlo.reshape main_arg0 main_v0 rfl shapeCasts_S10000x128_S1280000

/-- The device's buffers at launch, as a valuation. -/
abbrev V0 (d : Dev nD) : Valuation τ sig (Elt F) := fun b => m (d, b)

/-- The flattened table's contents once the reshape has run. -/
def xfOf (d : Dev nD) : Buf (Elt F) (xfLoc d) := (opR (F := F)).result (V0 m d) (Proc.devRef .tc main_v0)

/-- The partial sums' contents at launch. -/
def pv0 (d : Dev nD) : Buf (Elt F) (pLoc d) := m (pLoc d)

/-- Contents of device `d`'s partial sums, as a family over the devices (there is one device). -/
def pvOf (d : Dev nD) (p : Buf (Elt F) (pLoc d)) : (c : Dev nD) → Buf (Elt F) (pLoc c) :=
  fun c => (Subsingleton.elim d c : d = c) ▸ p

omit [FloatOps F] in
theorem pvOf_self (d : Dev nD) (p : Buf (Elt F) (pLoc d)) : pvOf d p d = p := rfl

end Cert.Proof.KI

end
-- ==== Proof.KISplit.lean ====
/-
  How one SparseCore's share of the call's resources divides among its sixteen vector subcores, and how the
  TensorCore's two arrays divide between the two SparseCores.

  A SparseCore holds a read share of the flattened table, one sixteenth of it per subcore and a remainder of its
  own, and the sixteen rows of the partial sums its subcores write (rows 2 i + c). Handing the subcores their parts
  and taking them back is regrouping; the remainder of the share stays with the SparseCore meanwhile.
-/
import proofs.«209474_g91096256348957_cont_sun_m_1209_13_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable [FloatOps F] (xf : (d : Dev nD) → Buf (Elt F) (xfLoc d))

/-- A product over the subcores of the call's grid is the product over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's resources are its subcores' and the rest of its read share; the subcores' come back as they went. -/
theorem vecSplit : (K (F := F)).VecSplit' (P xf) 0 := by
  intro d c
  show coreRes xf d (Fin.cast nCore_zero c) ⊢ |={Set.univ}=> iprop(
      (bigSep Finset.univ fun i : Fin ((K (F := F)).nSub 0) => tileRes xf d (Fin.cast nCore_zero c) (Fin.cast nSub_zero i))
      ∗ ((bigSep Finset.univ fun i : Fin ((K (F := F)).nSub 0) => tileRes xf d (Fin.cast nCore_zero c) (Fin.cast nSub_zero i))
          -∗ coreRes xf d (Fin.cast nCore_zero c)))
  rw [bigSep_tasks (F := F) (fun i => tileRes xf d (Fin.cast nCore_zero c) i)]
  unfold coreRes
  iintro ⟨Hr, Hts⟩; imodintro
  isplitl [Hts]; · iexact Hts
  iintro Hts
  isplitl [Hr]; · iexact Hr
  iexact Hts

/-! ## The TensorCore's two arrays between the two SparseCores

The flattened table goes out as read shares: two halves-of-halves for the SparseCores with a remainder the TensorCore
keeps, each SparseCore's again sixteen for its subcores with a remainder of its own. The partial sums go out by rows:
the 32 rows `2 i + c`, over SparseCore `c` and subcore `i`, are pairwise disjoint and cover the array. -/

/-- A product over the SparseCores of the call's grid is the product over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The row of subcore `i` of SparseCore `c`, as a set of elements of the partial sums. -/
abbrev rowOf (ci : Fin 2 × Fin 16) : Finset S32x16.Idx := prowSet (wid ci.1 ci.2)

omit [FloatOps F] in
theorem prowSet_eq (r : Fin 32) : prowSet r = (prow r).set := by
  show ((View.whole (main_v1_scv : Ref sig .scVector)).slice (prow r)).set = _
  rw [View.set_slice]; exact Finset.map_refl

omit [FloatOps F] in
/-- Different (SparseCore, subcore) pairs own different rows: `2 i + c` determines `i` and `c < 2`. -/
theorem wid_injective : Function.Injective fun ci : Fin 2 × Fin 16 => wid ci.1 ci.2 := by
  rintro ⟨c, i⟩ ⟨c', i'⟩ h
  have hv : 2 * i.val + c.val = 2 * i'.val + c'.val := congrArg Fin.val h
  have hc := c.isLt; have hc' := c'.isLt
  exact Prod.ext (Fin.ext (by show c.val = c'.val; omega)) (Fin.ext (by show i.val = i'.val; omega))

omit [FloatOps F] in
theorem rows_disjoint : ∀ a ∈ (Finset.univ : Finset (Fin 2 × Fin 16)), ∀ b ∈ (Finset.univ : Finset (Fin 2 × Fin 16)), a ≠ b → Disjoint (rowOf a) (rowOf b) :=
  fun a _ b _ h => by
    show Disjoint (prowSet _) (prowSet _)
    rw [prowSet_eq, prowSet_eq]; exact Rect.part_disjoint hdiv32 fun e => h (wid_injective e)

omit [FloatOps F] in
/-- Every row `r` is the row of subcore `r / 2` of SparseCore `r % 2`. -/
theorem rows_cover : (Finset.univ : Finset (Fin 2 × Fin 16)).biUnion rowOf = Finset.univ := by
  refine Finset.eq_univ_iff_forall.mpr fun x => ?_
  obtain ⟨r, hr⟩ := Rect.exists_mem_part hdiv32 x
  have hr32 := r.isLt
  have hw : wid ⟨r.val % 2, Nat.mod_lt _ (by decide)⟩ ⟨r.val / 2, by omega⟩ = r := Fin.ext (by show 2 * (r.val / 2) + r.val % 2 = r.val; omega)
  refine Finset.mem_biUnion.mpr ⟨(⟨r.val % 2, Nat.mod_lt _ (by decide)⟩, ⟨r.val / 2, by omega⟩), Finset.mem_univ _, ?_⟩
  show x ∈ prowSet _
  rw [prowSet_eq, hw]; exact hr

omit [FloatOps F] in
/-- The partial sums whole are their 32 rows, by SparseCore and subcore. -/
theorem pPts_rows (d : Dev nD) (f : Buf (Elt F) (pLoc d)) :
    (pLoc d ↦{fullShare} f : sProp 𝕄)
      = bigSep Finset.univ fun c : Fin 2 => bigSep Finset.univ fun i : Fin 16 => pLoc d ↦[prowSet (wid c i)]{fullShare} f := by
  rw [← bigSep_univ_prod (fun ci : Fin 2 × Fin 16 => (pLoc d ↦[rowOf ci]{fullShare} f : sProp 𝕄)),
    ← pointsTo_biUnion Finset.univ (ℓ := pLoc d) rowOf rows_disjoint, rows_cover]; try rfl

omit [FloatOps F] in
/-- The table at the full share is the TensorCore's remainder and the two SparseCores' shares; -/
theorem xfPts_cores (d : Dev nD) (f : Buf (Elt F) (xfLoc d)) :
    (xfLoc d ↦{fullShare} f : sProp 𝕄)
      = iprop((xfLoc d ↦{shareDrop fullShare 2} f) ∗ bigSep Finset.univ fun c : Fin 2 => xfLoc d ↦{shareTok fullShare 2 c} f) :=
  BI.equiv_iff.mp ⟨(Transfers.pointsTo_toks fullShare 2).1, (Transfers.pointsTo_toks fullShare 2).2⟩

omit [FloatOps F] in
/-- a SparseCore's share is its own remainder and its sixteen subcores' shares. -/
theorem xfPts_tiles (d : Dev nD) (f : Buf (Elt F) (xfLoc d)) (c : Fin 2) :
    (xfLoc d ↦{shareTok fullShare 2 c} f : sProp 𝕄)
      = iprop((xfLoc d ↦{qxRest c} f) ∗ bigSep Finset.univ fun i : Fin 16 => xfLoc d ↦{qx c i} f) :=
  BI.equiv_iff.mp ⟨(Transfers.pointsTo_toks (shareTok fullShare 2 c) 16).1, (Transfers.pointsTo_toks (shareTok fullShare 2 c) 16).2⟩

/-- One SparseCore's resources from its share of the table and its sixteen rows, at the contents `f`. -/
theorem core_intro (d : Dev nD) (f : Buf (Elt F) (pLoc d)) (c : Fin 2) :
    iprop((xfLoc d ↦{shareTok fullShare 2 c} xf d) ∗ bigSep Finset.univ fun i : Fin 16 => pLoc d ↦[prowSet (wid c i)]{fullShare} f)
      ⊢ (coreRes xf d c : sProp 𝕄) := by
  rw [xfPts_tiles]; unfold coreRes tileRes
  iintro ⟨⟨Hr, Hts⟩, Hrows⟩
  isplitl [Hr]; · iexact Hr
  rw [bigSep_sep']
  isplitl [Hts]; · iexact Hts
  have hi : ∀ i : Fin 16, (pLoc d ↦[prowSet (wid c i)]{fullShare} f : sProp 𝕄) ⊢ iprop(∃ f, pLoc d ↦[prowSet (wid c i)]{fullShare} f) :=
    fun i => by iintro H; iexists f; iexact H
  have hm : (bigSep Finset.univ fun i : Fin 16 => (pLoc d ↦[prowSet (wid c i)]{fullShare} f : sProp 𝕄))
      ⊢ bigSep Finset.univ fun i : Fin 16 => (iprop(∃ f, pLoc d ↦[prowSet (wid c i)]{fullShare} f) : sProp 𝕄) :=
    bigSep_mono fun i _ => hi i
  iapply hm; iexact Hrows

/-- and back: its share of the table, and each of its rows at some contents. -/
theorem core_elim (d : Dev nD) (c : Fin 2) :
    (coreRes xf d c : sProp 𝕄)
      ⊢ iprop((xfLoc d ↦{shareTok fullShare 2 c} xf d) ∗ bigSep Finset.univ fun i : Fin 16 => iprop(∃ f, pLoc d ↦[prowSet (wid c i)]{fullShare} f)) := by
  rw [xfPts_tiles]; unfold coreRes tileRes
  rw [bigSep_sep']
  iintro ⟨Hr, Hts, Hrows⟩
  isplitl [Hr Hts]
  · isplitl [Hr]; · iexact Hr
    iexact Hts
  · iexact Hrows

/-- Rows held each at some contents are the array whole at some contents. -/
theorem rows_join (d : Dev nD) :
    (bigSep Finset.univ fun c : Fin 2 => bigSep Finset.univ fun i : Fin 16 => iprop(∃ f, pLoc d ↦[prowSet (wid c i)]{fullShare} f))
      ⊢ (iprop(∃ f : Buf (Elt F) (pLoc d), pLoc d ↦{fullShare} f) : sProp 𝕄) := by
  rw [← bigSep_univ_prod (fun ci : Fin 2 × Fin 16 => (iprop(∃ f : Buf (Elt F) (pLoc d), pLoc d ↦[rowOf ci]{fullShare} f) : sProp 𝕄))]
  refine (bigSep_exists_pi Finset.univ (fun ci (f : Buf (Elt F) (pLoc d)) => (pLoc d ↦[rowOf ci]{fullShare} f : sProp 𝕄))).trans ?_
  iintro ⟨%fs, H⟩
  ihave H' := (pointsTo_biUnion_join Finset.univ rowOf fs (fs (0, 0)) rows_disjoint) $$ H
  icases H' with ⟨%g, -, Hg⟩
  rw [rows_cover]
  iexists g; iexact Hg

/-- The call takes the table and the partial sums whole and hands each SparseCore its part; the TensorCore keeps the
    remainder of the table's share. -/
theorem st_intro (d : Dev nD) (f : Buf (Elt F) (pLoc d)) :
    iprop((xfLoc d ↦{fullShare} xf d) ∗ (pLoc d ↦{fullShare} f))
      ⊢ (iprop((xfLoc d ↦{shareDrop fullShare 2} xf d) ∗ bigSep Finset.univ fun c : Fin ((K (F := F)).nCore 0) => (P xf).st 0 d c) : sProp 𝕄) := by
  show _ ⊢ iprop(_ ∗ bigSep Finset.univ fun c : Fin ((K (F := F)).nCore 0) => coreRes xf d (Fin.cast nCore_zero c))
  rw [bigSep_cores (F := F) (fun c => coreRes xf d c), xfPts_cores, pPts_rows]
  iintro ⟨⟨Hd, Hts⟩, Hrows⟩
  isplitl [Hd]; · iexact Hd
  ihave H := (Entails.of_eq (bigSep_sep' (Finset.univ : Finset (Fin 2)) (fun c => (xfLoc d ↦{shareTok fullShare 2 c} xf d : sProp 𝕄))
      (fun c => bigSep Finset.univ fun i : Fin 16 => (pLoc d ↦[prowSet (wid c i)]{fullShare} f : sProp 𝕄))).symm) $$ [Hts Hrows]
  · isplitl [Hts]; · iexact Hts
    iexact Hrows
  have hm : (bigSep Finset.univ fun c : Fin 2 => (iprop((xfLoc d ↦{shareTok fullShare 2 c} xf d)
        ∗ bigSep Finset.univ fun i : Fin 16 => pLoc d ↦[prowSet (wid c i)]{fullShare} f) : sProp 𝕄))
      ⊢ bigSep Finset.univ fun c : Fin 2 => (coreRes xf d c : sProp 𝕄) := bigSep_mono fun c _ => core_intro xf d f c
  iapply hm; iexact H

/-- What the SparseCores hand back with the TensorCore's remainder is the table whole, unchanged, and the partial sums
    whole at some contents. -/
theorem dn_elim (d : Dev nD) :
    (iprop((xfLoc d ↦{shareDrop fullShare 2} xf d) ∗ bigSep Finset.univ fun c : Fin ((K (F := F)).nCore 0) => (P xf).dn 0 d c) : sProp 𝕄)
      ⊢ iprop((xfLoc d ↦{fullShare} xf d) ∗ ∃ f : Buf (Elt F) (pLoc d), pLoc d ↦{fullShare} f) := by
  show iprop(_ ∗ bigSep Finset.univ fun c : Fin ((K (F := F)).nCore 0) => coreRes xf d (Fin.cast nCore_zero c)) ⊢ _
  rw [bigSep_cores (F := F) (fun c => coreRes xf d c), xfPts_cores (f := xf d)]
  iintro ⟨Hd, Hcs⟩
  have hm : (bigSep Finset.univ fun c : Fin 2 => (coreRes xf d c : sProp 𝕄))
      ⊢ bigSep Finset.univ fun c : Fin 2 => (iprop((xfLoc d ↦{shareTok fullShare 2 c} xf d)
        ∗ bigSep Finset.univ fun i : Fin 16 => iprop(∃ f, pLoc d ↦[prowSet (wid c i)]{fullShare} f)) : sProp 𝕄) :=
    bigSep_mono fun c _ => core_elim xf d c
  ihave H := hm $$ Hcs
  ihave H' := (Entails.of_eq (bigSep_sep' (Finset.univ : Finset (Fin 2)) (fun c => (xfLoc d ↦{shareTok fullShare 2 c} xf d : sProp 𝕄))
      (fun c => bigSep Finset.univ fun i : Fin 16 => (iprop(∃ f, pLoc d ↦[prowSet (wid c i)]{fullShare} f) : sProp 𝕄)))) $$ H
  icases H' with ⟨Hts, Hrows⟩
  isplitl [Hd Hts]
  · isplitl [Hd]; · iexact Hd
    iexact Hts
  · iapply (rows_join d); iexact Hrows

end Cert.Proof.KI

end
-- ==== Proof.KICall.lean ====
/-
  The head of @main on the TensorCore: the host reshape, then the one SparseCore call.

  The reshape writes the flattened table and touches nothing else, so the TensorCore's unscoped buffers pass from the
  launch contents to the same with the flattened table at the reshaped table. The call takes the flattened table and
  the partial sums out of those buffers, hands them to the two SparseCores (the table by read shares, the partial sums
  by rows), and puts back what they return: the flattened table unchanged and the partial sums at some contents.
-/
import proofs.«209474_g91096256348957_cont_sun_m_1209_13_alg».proof.Proof.KIVals
import proofs.«209474_g91096256348957_cont_sun_m_1209_13_alg».proof.Proof.KISplit

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ)

/-! ## The reshape -/

/-- The reshape names two of the TensorCore's unscoped buffers. -/
theorem opR_sub : (opR (F := F)).bufs ⊆ Pipeline.ucRefs τ sig :=
  Pipeline.sub_ucRefs _ (StableHlo.reshape_bufs_sub _ _ _ _ _ _)

/-- What the reshape leaves in each of the TensorCore's buffers: the reshaped table in the flattened table, every other
    buffer as launched. -/
theorem res_eq (d : Dev nD) (b : Ref sig .tc) :
    (opR (F := F)).result (V0 m d) (Proc.devRef .tc b) = VA m (xfOf m) (pv0 m) d b := by
  by_cases h0 : b = main_v0
  · subst h0; exact (VA_v0 m (xfOf m) (pv0 m) d).symm
  · have e : (opR (F := F)).result (V0 m d) (Proc.devRef .tc b) = V0 m d (Proc.devRef .tc b) :=
      StableHlo.reshape_result_ne _ _ _ _ _ _ (V0 m d) h0
    rw [e]
    by_cases h1 : b = main_v1
    · subst h1; exact (VA_v1 m (xfOf m) (pv0 m) d).symm
    · exact (VA_arg m (xfOf m) (pv0 m) d b h0 h1).symm

theorem unscopedBufs_res (d : Dev nD) :
    (unscopedBufs d (VA m (xfOf m) (pv0 m) d) : sProp 𝕄)
      = held (SparseCore.T d) (Pipeline.ucRefs τ sig) ((opR (F := F)).result (V0 m d)) :=
  (congrArg (fun W => (unscopedBufs d W : sProp 𝕄)) (funext fun b => (res_eq m d b).symm)).trans
    (Pipeline.unscopedBufs_held d ((opR (F := F)).result (V0 m d)))

/-- The reshape, from the TensorCore's unscoped buffers as launched to the same with the flattened table written. -/
theorem wp_reshape (d : Dev nD) (Φ : PUnit → sProp 𝕄) :
    iprop(boundary (SparseCore.T d) ∗ unscopedBufs d (fun b => m ((SparseCore.T d).loc b))
        ∗ (iprop(boundary (SparseCore.T d) ∗ unscopedBufs d (VA m (xfOf m) (pv0 m) d)) -∗ Φ ⟨⟩))
      ⊢ wp frame (wpE ((K (F := F)).defs (D (F := F))) 𝒱 (SparseCore.T d) none) Set.univ (hlo rfl (opR (F := F)) (fun _ => .ret ⟨⟩)) Φ := by
  rw [show (unscopedBufs d (fun b => m ((SparseCore.T d).loc b)) : sProp 𝕄) = held (SparseCore.T d) (Pipeline.ucRefs τ sig) (V0 m d) from
      Pipeline.unscopedBufs_held d (V0 m d), unscopedBufs_res m d]
  iintro ⟨Hb, Hheld, Hk⟩
  iapply (wp_hlo_within 𝒱 (SparseCore.T d) none Set.univ (op := opR (F := F)) (S := Pipeline.ucRefs τ sig) (opR_sub (F := F)) (V := V0 m d)) $$ [Hb Hheld]
  · isplitl [Hb]; · iexact Hb
    iexact Hheld
  iintro ⟨Hb, Hheld⟩
  rw [wp_ret]; imodintro
  iapply Hk
  isplitl [Hb]; · iexact Hb
  iexact Hheld

/-! ## The call -/

/-- The TensorCore's unscoped references. -/
abbrev UB : Finset (Ref sig .tc) := Finset.univ.filter fun b : Ref sig .tc => ¬ b.isScoped

omit [FloatOps F] in
/-- The unscoped buffers are the flattened table, the partial sums and the other seven. -/
theorem unscopedBufs_two (d : Dev nD) (W : (b : Ref sig .tc) → Buf (Elt F) ((d.tc : Thread nD τ).loc b)) :
    (unscopedBufs d W : sProp 𝕄)
      = iprop((xfLoc d ↦{fullShare} W main_v0) ∗ (pLoc d ↦{fullShare} W main_v1)
          ∗ bigSep ((UB.erase main_v0).erase main_v1) fun b => ((d.tc : Thread nD τ).loc b) ↦{fullShare} W b) := by
  unfold unscopedBufs
  rw [SparseCore.bigSep_erase' (i := main_v0) (by decide), SparseCore.bigSep_erase' (i := main_v1) (by decide)]

/-- The other seven are as launched whatever the partial sums hold. -/
theorem rest_congr (d : Dev nD) (pv pv' : (c : Dev nD) → Buf (Elt F) (pLoc c)) :
    (bigSep ((UB.erase main_v0).erase main_v1) fun b => (((d.tc : Thread nD τ).loc b) ↦{fullShare} VA m (xfOf m) pv d b : sProp 𝕄))
      = bigSep ((UB.erase main_v0).erase main_v1) fun b => ((d.tc : Thread nD τ).loc b) ↦{fullShare} VA m (xfOf m) pv' d b :=
  bigSep_congr fun b hb => by
    have h1 : b ≠ main_v1 := (Finset.mem_erase.mp hb).1
    have h0 : b ≠ main_v0 := (Finset.mem_erase.mp (Finset.mem_erase.mp hb).2).1
    rw [VA_arg m _ _ d b h0 h1, VA_arg m _ _ d b h0 h1]

/-- The SparseCore call on the TensorCore: from its handshake state before the call and its unscoped buffers with the
    flattened table written, to its state after the call and the same buffers with the partial sums at some contents. -/
theorem wp_call (κ : GSem nD τ sig → ℕ) (d : Dev nD) (Φ : PUnit → sProp 𝕄) :
    iprop((K (F := F)).ctx EH (P (xfOf m)) κ ∗ (K (F := F)).tcSt EH d 0 ∗ unscopedBufs d (VA m (xfOf m) (pv0 m) d)
        ∗ (∀ p : Buf (Elt F) (pLoc d), iprop((K (F := F)).tcSt EH d 1 ∗ unscopedBufs d (VA m (xfOf m) (pvOf d p) d)) -∗ Φ ⟨⟩))
      ⊢ wp frame (wpE ((K (F := F)).defs (D (F := F))) 𝒱 (SparseCore.T d) none) Set.univ ((K (F := F)).run d 0) Φ := by
  rw [unscopedBufs_two d (VA m (xfOf m) (pv0 m) d), VA_v0, VA_v1]
  iintro ⟨#Hctx, Hst, ⟨Hx, Hp, Hrest⟩, Hk⟩
  ihave H := (st_intro (xfOf m) d (pv0 m d)) $$ [Hx Hp]
  · isplitl [Hx]; · iexact Hx
    iexact Hp
  icases H with ⟨Hd, Hsts⟩
  iapply ((K (F := F)).wp_run (D (F := F)) 𝒱 (EH := EH) (P := P (xfOf m)) κ d 0) $$ [Hst Hsts Hd Hrest Hk]
  isplitr; · iexact Hctx
  isplitl [Hst]; · iexact Hst
  isplitl [Hsts]; · iexact Hsts
  iintro ⟨Hst, Hdn⟩
  ihave H := (dn_elim (xfOf m) d) $$ [Hd Hdn]
  · isplitl [Hd]; · iexact Hd
    iexact Hdn
  icases H with ⟨Hx, %p, Hp⟩
  iapply Hk $$ %p
  isplitl [Hst]; · iexact Hst
  rw [unscopedBufs_two d (VA m (xfOf m) (pvOf d p) d), VA_v0, VA_v1, pvOf_self, rest_congr m d (pvOf d p) (pv0 m)]
  isplitl [Hx]; · iexact Hx
  isplitl [Hp]; · iexact Hp
  iexact Hrest

end Cert.Proof.KI

end
-- ==== Proof.KITcSt.lean ====
/-
  The TensorCore's handshake state once the one SparseCore call is over, in two parts: that it owes nothing, its recorded
  waits at or below the call's last handshake; and the rest — its position on its own cell after one round, that round
  reached, every sequencer's next round reached, and the tokens and credit of later calls (there is none).
-/
import proofs.«209474_g91096256348957_cont_sun_m_1209_13_alg».proof.Proof.KIRegs

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore's state after the call, less what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing: its state is that fact and the rest. -/
theorem tcSt_one (d : Dev nD) : (K (F := F)).tcSt EH d 1 ⊣⊢ iprop(owesT (F := F) d ∗ tcRest (F := F) d) := by
  unfold SparseCore.Cfg.tcSt owesT tcRest
  rw [(K (F := F)).Otc_end d (le_refl 1)]

end Cert.Proof.KI

end
-- ==== Proof.KIFin.lean ====
/-
  The end of the run: what the TensorCore of a device holds when @main has ended, and how the claim is read off it.

  At the end every unscoped buffer of the TensorCore is held whole: the result array at the three result words (for
  the contents, whatever they are, that the SparseCore call left in the partial sums), the one-word array at the
  running word after five blocks, the flattened table, the partial sums, and the five arguments at their launch
  contents. A buffer held whole pins the physical memory's contents of that buffer, so the final memory has the result
  array at the three result words and every argument unchanged.
-/
import proofs.«209474_g91096256348957_cont_sun_m_1209_13_alg».proof.Proof.KIVals

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- What device `d`'s TensorCore holds at the end: its unscoped buffers, whole, at the final contents, for some
    contents `p` of the partial sums. -/
def FIN (d : Dev nD) : sProp 𝕄 :=
  iprop(∃ p : Buf (Elt F) (pLoc d), unscopedBufs d (VC m (xfOf m) (pvOf d p) d))

/-- What the final memory of device `d` must satisfy: the result array holds the three result words for some
    partial sums, and the five arguments are as launched. -/
def fq (d : Dev nD) (s' : Phys nD τ sig (Elt F)) : Prop :=
  (∃ p : Vec F S32x16 .f32,
      s'.mem.mem ((SparseCore.T d).loc main_v3) = Spec.result p (Spec.acc (tbl m d) 5) (gv m d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

/-- The claim's post, per device. -/
def QC : PUnit × MemSt nD τ sig (Elt F) → Prop := fun r => ∀ c : Dev nD,
  (∃ p : Vec F S32x16 .f32,
      r.2.mem ((c.tc : Thread nD τ).loc main_v3) = Spec.result p (Spec.acc (tbl m c) 5) (gv m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

omit [FloatOps F] in
/-- An unscoped buffer held whole pins the physical memory's contents of that buffer. -/
theorem agree_at (d : Dev nD) (W : (b : Ref sig .tc) → Buf (Elt F) ((d.tc : Thread nD τ).loc b)) (b : Ref sig .tc)
    (hb : ¬ b.isScoped) (s' : Phys nD τ sig (Elt F)) :
    iprop(unscopedBufs d W ∗ SI s') ⊢ (⌜s'.mem.mem ((d.tc : Thread nD τ).loc b) = W b⌝ : sProp 𝕄) := by
  have h1 : (unscopedBufs d W : sProp 𝕄) ⊢ ((d.tc : Thread nD τ).loc b ↦{fullShare} W b) := by
    unfold unscopedBufs; exact bigSep_elim (i := b) (s := Finset.univ.filter fun b : Ref sig .tc => ¬ b.isScoped)
      (Finset.mem_filter.mpr ⟨Finset.mem_univ b, hb⟩)
  iintro ⟨Hb, HSI⟩
  ihave Hx := h1 $$ Hb
  ihave H := (SI_pointsTo_agree (st := s') (ℓ := (d.tc : Thread nD τ).loc b) (I := Finset.univ) (q := fullShare) (f := W b)) $$ [HSI Hx]
  · isplitl [HSI] <;> iassumption
  icases H with %hx
  ipureintro; exact funext fun i => hx i (Finset.mem_univ i)

omit [FloatOps F] in
/-- Two pure consequences of one assertion hold together. -/
theorem pure_both {X : sProp 𝕄} {φ ψ : Prop} (h : X ⊢ (⌜φ⌝ : sProp 𝕄)) (h' : X ⊢ (⌜ψ⌝ : sProp 𝕄)) :
    X ⊢ (⌜φ ∧ ψ⌝ : sProp 𝕄) :=
  (Laws.and_intro h h').trans Laws.pure_and.1

/-- The final contents at the result array and at an argument. -/
theorem VC_arg (xf : (d : Dev nD) → Buf (Elt F) (xfLoc d)) (pv : (d : Dev nD) → Buf (Elt F) (pLoc d)) (c : Dev nD)
    (b : Ref sig .tc) (h0 : b ≠ main_v0) (h1 : b ≠ main_v1) (h2 : b ≠ main_v2) (h3 : b ≠ main_v3) :
    VC m xf pv c b = m ((c : Thread nD τ).loc b) := by
  rw [VC_ne m xf pv c b h3, VB_ne m xf pv c b h2, VA_arg m xf pv c b h0 h1]

/-- The final memory of a device satisfies the claim's post there. -/
theorem hfin (d : Dev nD) (s' : Phys nD τ sig (Elt F)) : iprop(FIN m d ∗ SI s') ⊢ (⌜fq m d s'⌝ : sProp 𝕄) := by
  have key : ∀ p : Buf (Elt F) (pLoc d), iprop(unscopedBufs d (VC m (xfOf m) (pvOf d p) d) ∗ SI s') ⊢ (⌜fq m d s'⌝ : sProp 𝕄) := fun p =>
    (pure_both (agree_at d _ main_v3 (by decide) s')
      (pure_both (agree_at d _ main_arg0 (by decide) s')
        (pure_both (agree_at d _ main_arg1 (by decide) s')
          (pure_both (agree_at d _ main_arg2 (by decide) s')
            (pure_both (agree_at d _ main_arg3 (by decide) s') (agree_at d _ main_arg4 (by decide) s')))))).trans
      (Laws.pure_mono fun ⟨h3, h0, h1, h2, h3', h4⟩ =>
        ⟨⟨p, h3.trans (VC_v3 m (xfOf m) (pvOf d p) d)⟩,
          h0.trans (VC_arg m _ _ d main_arg0 (by decide) (by decide) (by decide) (by decide)),
          h1.trans (VC_arg m _ _ d main_arg1 (by decide) (by decide) (by decide) (by decide)),
          h2.trans (VC_arg m _ _ d main_arg2 (by decide) (by decide) (by decide) (by decide)),
          h3'.trans (VC_arg m _ _ d main_arg3 (by decide) (by decide) (by decide) (by decide)),
          h4.trans (VC_arg m _ _ d main_arg4 (by decide) (by decide) (by decide) (by decide))⟩)
  unfold FIN
  iintro ⟨HF, HSI⟩
  icases HF with ⟨%p, Hb⟩
  iapply (key p)
  isplitl [Hb] <;> iassumption

/-- Every device's final memory satisfying the post is the claim's post. -/
theorem hQ : ∀ s' : Phys nD τ sig (Elt F), (∀ d, fq m d s') → QC m (⟨⟩, s'.mem) := fun _ h c => h c

end Cert.Proof.KI

end
-- ==== Proof.KITile.lean ====
/-
  The task of one vector subcore, proved once at a symbolic subcore.

  Subcore (L 0, L 1) copies two 640-word pieces of the flattened table into its two scratch buffers (one copy per
  semaphore, both outstanding together), waits for the first, reads the first scratch in a counted loop of loads, waits
  for the second, reads the second scratch likewise, stores sixteen words into its third scratch and copies that scratch
  into row 2 (L 1) + (L 0) of the partial sums on its scoped semaphore, waiting for the copy. Only the frame is stated:
  the read share of the table comes back as it was, the row at some contents, the scratches and the three semaphores as
  the subcore's scoped storage was handed over.
-/
import proofs.«209474_g91096256348957_cont_sun_m_1209_13_alg».proof.Proof.KISetup
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

variable [FloatOps F] (xf : (d : Dev nD) → Buf (Elt F) (xfLoc d))

section Tile

variable (d : Dev nD) (L : grid0.Coords)

/-- The SparseCore and the subcore the grid point names, as the device numbers them and as the payloads do. -/
abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- A subcore's three scratch buffers. -/
abbrev s0 : Memref sig .scVector .vmem S640 .f32 := Memref.whole cc0_scratch0
abbrev s1 : Memref sig .scVector .vmem S640 .f32 := Memref.whole cc0_scratch1
abbrev s2 : Memref sig .scVector .vmem S16 .f32 := Memref.whole cc0_scratch2

/-- The row of the partial sums the subcore addresses, as the program slices and squeezes it. -/
abbrev rowK (L : grid0.Coords) : Rect S32x16 := Rect.unit (s := S32x16) (k0_off5 L) S1x16.size (k0_off5_inb L)
abbrev pRowK (L : grid0.Coords) : Memref sig .scVector .hbm S16 .f32 :=
  ((pV : Memref sig .scVector .hbm S32x16 .f32).slice (rowK L) (fun _ => rfl)).squeeze S16 squeezes_S1x16_S16

omit [FloatOps F] in
/-- That rectangle is row 2 (L 1) + (L 0) of the 32 rows. -/
theorem rowK_eq : rowK L = prow (wid (cL L) (jL L)) := by
  unfold rowK prow Rect.part Rect.block
  congr 1 <;> funext a
  · rw [k0_off5_eq]
    match a with
    | 0 => simp [Shape.partIx, Shape.partSize, wid]
    | 1 => simp [Shape.partIx, Shape.partSize]
  · match a with
    | 0 => simp [Shape.partSize]
    | 1 => simp [Shape.partSize]

omit [FloatOps F] in
theorem set_pRowK : (pRowK L).view.set = prowSet (wid (cL L) (jL L)) := by
  show (((pV : Memref sig .scVector .hbm S32x16 .f32).view.slice (rowK L)).reshape S16 squeezes_S1x16_S16.numel_eq).set
    = ((pV : Memref sig .scVector .hbm S32x16 .f32).view.slice (prow (wid (cL L) (jL L)))).set
  rw [View.set_reshape]
  exact rowK_eq L ▸ rfl

omit [FloatOps F] in
theorem pts_pRowK (f : Buf (Elt F) (pLoc d)) :
    ((pRowK L).view.loc (V d (cV L) (jV L)) ↦[(pRowK L).view.set]{fullShare} f : sProp 𝕄) = pLoc d ↦[prowSet (wid (cL L) (jL L))]{fullShare} f := by
  rw [set_pRowK]
omit [FloatOps F] in
theorem pts_xf (q : PosShare TreeShare) (f : Buf (Elt F) (xfLoc d)) :
    ((xfV : Memref sig .scVector .hbm S1280000 .f32).view.loc (V d (cV L) (jV L)) ↦{q} f : sProp 𝕄) = xfLoc d ↦{q} f := rfl
omit [FloatOps F] in
theorem pts_s0 (f : Buf (Elt F) ((V d (cV L) (jV L)).loc cc0_scratch0)) :
    ((s0 : Memref sig .scVector .vmem S640 .f32).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1 : Memref sig .scVector .vmem S640 .f32).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2 : Memref sig .scVector .vmem S16 .f32).view.loc (V d (cV L) (jV L)) ↦{fullShare} f : sProp 𝕄) = (V d (cV L) (jV L)).loc cc0_scratch2 ↦{fullShare} f := rfl

/-- The subcore's three semaphores as cells. -/
abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
/-- The three semaphores are among the subcore's own: at zero they are these three and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What the two counted loops carry: ten vectors of sixteen words. -/
abbrev Acc (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32

/-- The loops only load from a scratch buffer: before every trip, whatever is carried, the scratch is held whole at some
    contents. -/
def inv0 (_ : Nat) (_ : Acc F) : sProp 𝕄 :=
  iprop(∃ f, (s0 : Memref sig .scVector .vmem S640 .f32).view.loc (V d (cV L) (jV L)) ↦{fullShare} f)
def inv1 (_ : Nat) (_ : Acc F) : sProp 𝕄 :=
  iprop(∃ f, (s1 : Memref sig .scVector .vmem S640 .f32).view.loc (V d (cV L) (jV L)) ↦{fullShare} f)

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes xf d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_sumsq_body L xfV (Memref.isWhole_whole _) pV (Memref.isWhole_whole _)
            s0 (Memref.isWhole_whole _) s1 (Memref.isWhole_whole _) s2 (Memref.isWhole_whole _) cc0_scratch3 cc0_scratch4 cc0_scoped0)
          fun _ => iprop(tileRes xf d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_sumsq_body_eq_skeleton]; unfold cc0__sc_sumsq_body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hx, %fp, Hp⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hx' := (Entails.of_eq (pts_xf (F := F) d L _ _).symm) $$ Hx
  ihave Hp' := (Entails.of_eq (pts_pRowK (F := F) d L _).symm) $$ Hp
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two copies out of the table are started, one per semaphore, and the first is waited for: the first scratch is
  -- held again, the second copy still outstanding
  sl_exec
  -- the first loop only loads from the first scratch
  sl_for (inv0 (F := F) d L) $$ [Hs0']
  case region =>
    intro k acc
    obtain ⟨a0, a1, a2, a3, a4, a5, a6, a7, a8, a9⟩ := acc
    unfold inv0
    iintro ⟨%f, Hs⟩
    sl_exec
    sl_step
    iexists _; iexact Hs
  · unfold inv0; iexists _; iexact Hs0'
  iintro %acc HI
  unfold inv0
  icases HI with ⟨%f0', Hs0⟩
  -- the second copy is waited for: the table's share is whole again; the second loop only loads from the second scratch
  sl_exec
  sl_for (inv1 (F := F) d L) $$ [Hs1']
  case region =>
    intro k acc
    obtain ⟨a0, a1, a2, a3, a4, a5, a6, a7, a8, a9⟩ := acc
    unfold inv1
    iintro ⟨%f, Hs⟩
    sl_exec
    sl_step
    iexists _; iexact Hs
  · unfold inv1; iexists _; iexact Hs1'
  iintro %acc' HI
  unfold inv1
  icases HI with ⟨%f1', Hs1⟩
  -- the third scratch is loaded and stored, copied into the subcore's row on the scoped semaphore, and the copy waited for
  sl_exec
  sl_step
  -- everything is held again: the share of the table as it was, the row and the scratches at what they now hold, the
  -- three semaphores at zero; the three waits recorded are the task's own
  isplitl [Hx' Hp']
  · isplitl [Hx']
    · iapply (Entails.of_eq (pts_xf (F := F) d L _ _)); iexact Hx'
    · iexists _; iapply (Entails.of_eq (pts_pRowK (F := F) d L _)); iexact Hp'
  isplitl [Hs0 Hs1 Hs2' Hbufs]
  · isplitl [Hs0]
    · iexists _; iapply (Entails.of_eq (pts_s0 (F := F) d L _)); iexact Hs0
    isplitl [Hs1]
    · iexists _; iapply (Entails.of_eq (pts_s1 (F := F) d L _)); iexact Hs1
    isplitl [Hs2']
    · iexists _; iapply (Entails.of_eq (pts_s2 (F := F) d L _)); iexact Hs2'
    · iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1))
    (insert (SemLoc.dma cc0_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

/-! ## The launch theorem's obligation for the kernel -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_sumsq_body (coordsV c s)
          xfV (Memref.isWhole_whole _) pV (Memref.isWhole_whole _)
          s0 (Memref.isWhole_whole _) s1 (Memref.isWhole_whole _) s2 (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch theorem's obligation: from its share of the table and its row, with its
    scoped storage, to the same back. -/
theorem tileObl : (K (F := F)).TileObl (D (F := F)) 𝒱 (P xf) v₀ 0 := by
  intro d c i O W hO _ _
  -- the kernel owes nothing for a protocol of its own
  simp only [show (P xf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body xf d (coordsV ⟨_, hc.1⟩ ⟨_, hc.2⟩) facts O W hO).trans (wp_mono frame _ _ fun _ => obl_post)

end Cert.Proof.KI

end
-- ==== Proof.KIMain.lean ====
/-
  @main on the TensorCore, and the run of the whole program.

  @main is four statements: the host reshape of the table, the call of the SparseCore kernel, and the two TensorCore
  kernels. The first two leave the flattened table in place and the partial sums at contents `p` the proof does not
  name; kernel 1 leaves the running word after five blocks; kernel 2 leaves the three result words. Each TensorCore
  kernel is entered by the region rule of the pipeline library, lifted to the SparseCore program's body table, from the
  staging cells' ghost state the launch funded.
-/
import proofs.«209474_g91096256348957_cont_sun_m_1209_13_alg».proof.Proof.KIRegs
import proofs.«209474_g91096256348957_cont_sun_m_1209_13_alg».proof.Proof.KILaunchElem
import proofs.«209474_g91096256348957_cont_sun_m_1209_13_alg».proof.Proof.KICall
import proofs.«209474_g91096256348957_cont_sun_m_1209_13_alg».proof.Proof.KITcSt
import proofs.«209474_g91096256348957_cont_sun_m_1209_13_alg».proof.Proof.KIFin
import proofs.«209474_g91096256348957_cont_sun_m_1209_13_alg».proof.Proof.KITile
import proofs.«209474_g91096256348957_cont_sun_m_1209_13_alg».proof.Proof.KISplit

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))
variable (ρ : Dev nD → PrngReg)

omit [FloatOps F] in
/-- A TensorCore kernel's call, as @main spells it, is the call in the kernels' own signature, lifted. -/
theorem call_eq (p : Fin 2) :
    (Prog.lift (.customCall (SparseCore.inner (Pipeline.entry p)) ()) : Prog (TpuEff nD τ sig (Elt F) (SparseCore.Sig (ΛP (F := F)) 1) .tc) PUnit)
      = SparseCore.liftProg (Q := 1) (.op (.customCall (Pipeline.entry p) ()) fun _ => .ret ⟨⟩) := rfl

/-- A TensorCore kernel's region in the kernels' own body table: the region rule of the pipeline library. -/
theorem wp_region₀ (p : Fin 2) (R : RS m xf pv p) (d : Dev nD) (Φ : PUnit → sProp 𝕄) :
    iprop(boundary (SparseCore.T d) ∗ R.pre d ∗ levAts (LL (F := F)) (lvv (F := F))
        ∗ Pipeline.cellsGhost (Pipeline.pin (pcfgs (F := F)) adm) EP p d ∗ Pipeline.toksInit (Pipeline.pin (pcfgs (F := F)) adm) EP p d
        ∗ (iprop(boundary (SparseCore.T d) ∗ R.post d) -∗ Φ ⟨⟩))
      ⊢ wp frame (wpE (D (F := F)) 𝒱 (SparseCore.T d) none) Set.univ
          (.op (.customCall (Pipeline.entry p) ()) fun _ => .ret ⟨⟩) Φ := by
  iintro ⟨Hb, Hpre, Hlev, Hg, Ht, Hk⟩
  iapply (Pipeline.RegionSeg.wp (pcfgs (F := F)) adm (pdats m xf pv) (none : HIx 1) cellOf_inj' EP defs₀ 𝒱₀ (LL (F := F)) (lvv (F := F)) R d none
    (fun _ h => nomatch h) (fun _ => .ret ⟨⟩) Φ)
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-- The same inside the SparseCore program: lifted to the extended body table. -/
theorem wp_region (p : Fin 2) (R : RS m xf pv p) (d : Dev nD) (Φ : PUnit → sProp 𝕄) :
    iprop(boundary (SparseCore.T d) ∗ R.pre d ∗ levAts (LL (F := F)) (lvv (F := F))
        ∗ Pipeline.cellsGhost (Pipeline.pin (pcfgs (F := F)) adm) EP p d ∗ Pipeline.toksInit (Pipeline.pin (pcfgs (F := F)) adm) EP p d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  rw [call_eq]
  exact (wp_region₀ m xf pv p R d Φ).trans ((K (F := F)).wp_liftProg (D (F := F)) 𝒱 (SparseCore.T d) Set.univ none _ Φ)

/-- Kernel 1's call, from the buffers at VA to the buffers at VB. -/
theorem wp_kernel1 (d : Dev nD) (Φ : PUnit → sProp 𝕄) :
    iprop(boundary (SparseCore.T d) ∗ iprop(unscopedBufs d (VA m xf pv d) ∗ rideT (F := F) ρ d) ∗ levAts (LL (F := F)) (lvv (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ iprop(unscopedBufs d (VB m xf pv d) ∗ rideT (F := F) ρ d)) -∗ Φ ⟨⟩))
      ⊢ wp frame (wpE ((K (F := F)).defs (D (F := F))) 𝒱 (SparseCore.T d) none) Set.univ
          (Prog.lift (.customCall (SparseCore.inner (Pipeline.entry 0)) ())) Φ :=
  wp_region m xf pv 0 (reg1 m xf pv ρ) d Φ

/-- Kernel 2's call, from the buffers at VB to the buffers at VC. -/
theorem wp_kernel2 (d : Dev nD) (Φ : PUnit → sProp 𝕄) :
    iprop(boundary (SparseCore.T d) ∗ iprop(unscopedBufs d (VB m xf pv d) ∗ rideT (F := F) ρ d) ∗ levAts (LL (F := F)) (lvv (F := F))
        ∗ Pipeline.cellsGhost (Pipeline.pin (pcfgs (F := F)) adm) EP 1 d ∗ Pipeline.toksInit (Pipeline.pin (pcfgs (F := F)) adm) EP 1 d
        ∗ (iprop(boundary (SparseCore.T d) ∗ iprop(unscopedBufs d (VC m xf pv d) ∗ rideT (F := F) ρ d)) -∗ Φ ⟨⟩))
      ⊢ wp frame (wpE ((K (F := F)).defs (D (F := F))) 𝒱 (SparseCore.T d) none) Set.univ
          (Prog.lift (.customCall (SparseCore.inner (Pipeline.entry 1)) ())) Φ :=
  wp_region m xf pv 1 (reg2 m xf pv ρ) d Φ

/-- @main on device `d`'s TensorCore. -/
theorem hmain (κ : GSem nD τ sig → ℕ) (d : Dev nD) :
    iprop((K (F := F)).ctx EH (P (xfOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, wp_bind, wp_pure]
  iintro ⟨#Hctx, Hst, ⟨Hb, Hbufs, Hsems, Hprng⟩, HG⟩
  ihave Hlev := (SparseCore.Cfg.ctx_levAts κ) $$ Hctx
  ihave HG' := (G_split d) $$ HG
  icases HG' with ⟨⟨Hg0, Ht0⟩, ⟨Hg1, Ht1⟩⟩
  -- the reshape
  iapply (wp_reshape m d _)
  isplitl [Hb]; · iexact Hb
  isplitl [Hbufs]; · iexact Hbufs
  iintro ⟨Hb, Hbufs⟩
  -- the SparseCore call
  iapply (wp_call m κ d _)
  isplitr; · iexact Hctx
  isplitl [Hst]; · iexact Hst
  isplitl [Hbufs]; · iexact Hbufs
  iintro %p ⟨Hst, Hbufs⟩
  ihave Hst' := (tcSt_one d).1 $$ Hst
  icases Hst' with ⟨HO, Hrest⟩
  -- kernel 1
  iapply (wp_kernel1 m (xfOf m) (pvOf d p) ρ d _)
  isplitl [Hb]; · iexact Hb
  isplitl [Hbufs Hsems Hprng HO]
  · unfold rideT
    isplitl [Hbufs]; · iexact Hbufs
    isplitl [Hsems]; · iexact Hsems
    isplitl [Hprng]; · iexact Hprng
    iexact HO
  isplitr; · iexact Hlev
  isplitl [Hg0]; · iexact Hg0
  isplitl [Ht0]; · iexact Ht0
  iintro ⟨Hb, Hpost⟩
  -- kernel 2
  iapply (wp_kernel2 m (xfOf m) (pvOf d p) ρ d _)
  isplitl [Hb]; · iexact Hb
  isplitl [Hpost]; · iexact Hpost
  isplitr; · iexact Hlev
  isplitl [Hg1]; · iexact Hg1
  isplitl [Ht1]; · iexact Ht1
  iintro ⟨Hb, Hpost⟩
  unfold rideT
  icases Hpost with ⟨Hbufs, -, -, HO⟩
  imodintro
  isplitl [HO Hrest]
  · iapply (tcSt_one d).2
    isplitl [HO]; · iexact HO
    iexact Hrest
  unfold FIN
  iexists p; iexact Hbufs

/-! ## The program's run -/

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (xfOf m)) facts v₀
    (fun q hq => match q with | 0 => nomatch hq)
    (fun q _ => match q with | 0 => tileObl (xfOf m))
    (fun q _ => match q with | 0 => SparseCore.Cfg.VecSplit.of_plain (vecSplit (xfOf m)))
    m ρ main (G (F := F)) (FIN m) (u₀ (F := F)) (hu₀ (xfOf m)) (hmain m ρ) (fq m) (hfin m) (QC m) (hQ m)

end Cert.Proof.KI

end
-- ==== Proof.KBSetup.lean ====
/-
  The program as the launch theorem for a SparseCore program reads it, and what travels with the one SparseCore call.

  The device runs 35 threads: the TensorCore (the host operations, the call of the vector-subcore kernel, then the two
  TensorCore kernels), two sequencers and 32 vector subcores. The vector-subcore kernel only READS the flattened table
  (two 640-word pieces per subcore) and WRITES one 16-word row of the 32 x 16 array of partial sums: subcore i of
  SparseCore c owns row 2 i + c. So the call hands every subcore a read share of the whole flattened table and its own
  row of the partial sums, at any contents, and brings the same back.
-/
import proofs.«209474_g91096256348957_cont_sun_m_1209_13_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«209474_g91096256348957_cont_sun_m_1209_13_alg».proof.Proof.Gen.Kernel
import proofs.«209474_g91096256348957_cont_sun_m_1209_13_alg».proof.Proof.Gen.Kernel.Skeleton
import proofs.«209474_g91096256348957_cont_sun_m_1209_13_alg».proof.Proof.Gen.Kernel.Launch
import proofs.«209474_g91096256348957_cont_sun_m_1209_13_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the local transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The two arrays the SparseCore call touches -/

/-- The flattened table and the partial sums, as locations of device `d`. -/
abbrev xfLoc (d : Dev nD) : Loc nD τ sig := (SparseCore.T d).loc main_v0
abbrev pLoc (d : Dev nD) : Loc nD τ sig := (SparseCore.T d).loc main_v1

abbrev xfV : Memref sig .scVector .hbm S1280000 .f32 := Memref.whole main_v0_scv
abbrev pV : Memref sig .scVector .hbm S32x16 .f32 := Memref.whole main_v1_scv

theorem hdiv32 : 32 ∣ S32x16.size 0 := ⟨1, rfl⟩
/-- Row `r` of the partial sums. -/
abbrev prow (r : Fin 32) : Rect S32x16 := Rect.part (s := S32x16) (a₀ := 0) hdiv32 r
abbrev prowSet (r : Fin 32) : Finset S32x16.Idx := ((pV : Memref sig .scVector .hbm S32x16 .f32).view.slice (prow r)).set

/-- The row of subcore `i` of SparseCore `c`. -/
def wid (c : Fin 2) (i : Fin 16) : Fin 32 := ⟨2 * i.val + c.val, by omega⟩

/-- The read share of the flattened table that subcore `i` of SparseCore `c` is lent. -/
abbrev qx (c : Fin 2) (i : Fin 16) : PosShare TreeShare := shareTok (shareTok fullShare 2 c) 16 i
/-- What a SparseCore keeps of its share while its subcores hold theirs. -/
abbrev qxRest (c : Fin 2) : PosShare TreeShare := shareDrop (shareTok fullShare 2 c) 16

variable (xf : (d : Dev nD) → Buf (Elt F) (xfLoc d))

/-- What one subcore's task is handed and hands back: its read share of the flattened table, at the contents `xf`, and
    its row of the partial sums, at any contents. -/
def tileRes (d : Dev nD) (c : Fin 2) (i : Fin 16) : sProp 𝕄 :=
  iprop((xfLoc d ↦{qx c i} xf d) ∗ ∃ f : Buf (Elt F) (pLoc d), pLoc d ↦[prowSet (wid c i)]{fullShare} f)

/-- What one SparseCore is handed and hands back: its subcores' and the rest of its own share. -/
def coreRes (d : Dev nD) (c : Fin 2) : sProp 𝕄 :=
  iprop((xfLoc d ↦{qxRest c} xf d) ∗ bigSep Finset.univ fun i : Fin 16 => tileRes xf d c i)

/-- The one call's payloads: the same both ways, at both levels. -/
def P : (K (F := F)).Pay (nD := nD) (Val := Elt F) (Name := ℕ) (U := UU) where
  st := fun q d c => match q with | 0 => coreRes xf d (Fin.cast nCore_zero c)
  dn := fun q d c => match q with | 0 => coreRes xf d (Fin.cast nCore_zero c)
  go := fun q d c i => match q with | 0 => tileRes xf d (Fin.cast nCore_zero c) (Fin.cast nSub_zero i)
  td := fun q d c i => match q with | 0 => tileRes xf d (Fin.cast nCore_zero c) (Fin.cast nSub_zero i)
  x := fun _ _ => iprop(emp)

instance tileRes_storable (d : Dev nD) (c : Fin 2) (i : Fin 16) : BI.Storable (upEmb : UEmb _ 𝕄) (tileRes xf d c i) := by
  unfold tileRes; infer_instance
instance coreRes_storable (d : Dev nD) (c : Fin 2) : BI.Storable (upEmb : UEmb _ 𝕄) (coreRes xf d c) := by
  unfold coreRes; infer_instance

instance P_storable : (P (F := F) xf).IsStorable where
  st q d c := match q with | 0 => (inferInstance : BI.Storable (upEmb : UEmb _ 𝕄) (coreRes xf d (Fin.cast nCore_zero c)))
  dn q d c := match q with | 0 => (inferInstance : BI.Storable (upEmb : UEmb _ 𝕄) (coreRes xf d (Fin.cast nCore_zero c)))
  go q d c i := match q with | 0 => (inferInstance : BI.Storable (upEmb : UEmb _ 𝕄) (tileRes xf d (Fin.cast nCore_zero c) (Fin.cast nSub_zero i)))
  td q d c i := match q with | 0 => (inferInstance : BI.Storable (upEmb : UEmb _ 𝕄) (tileRes xf d (Fin.cast nCore_zero c) (Fin.cast nSub_zero i)))

end Cert.Proof.KB

end
-- ==== Proof.KBSpec.lean ====
/-
  What the kernel computes, as pure functions of its arrays (any float instance).

  The table x : f32[10000, 128] is read in five blocks of 2000 rows. The second pallas_call keeps one running word:
  zero before the first block, and after block t the word before it plus the sum of the squares of the block's
  entries. The third call's first result word is sqrt (0 * (sum of the 32 x 16 partial sums) + that word); its second
  and third result words are g[1] and g[2].
-/
import proofs.«209474_g91096256348957_cont_sun_m_1209_13_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- Row `2000 t + r` and column `k` of the table, for a row `r` and column `k` of block `t` (the row taken
    modulo 10000, so that the function is total in `t`; for `t < 5` nothing wraps). -/
def rowIx (t : ℕ) (y : S2000x128.Idx) : S10000x128.Idx :=
  ix2 (⟨(2000 * t + (y 0).val) % 10000, Nat.mod_lt _ (by decide)⟩ : Fin 10000) (y 1 : Fin 128)

/-- Block `t` of the table: its rows `2000 t … 2000 t + 1999`. -/
def blk (x : Vec F S10000x128 .f32) (t : ℕ) : Vec F S2000x128 .f32 := fun y => x (rowIx t y)

/-- The running word after the first `n` blocks. -/
def acc (x : Vec F S10000x128 .f32) : ℕ → Elt F .f32
  | 0 => (Scalar.ofBits .f32 0x00000000#32 : F .f32)
  | n + 1 => k1_pay1 (blk x n) (acc x n)

/-- The three result words from the partial sums `p`, the running word `s` and `g`. -/
def result (p : Vec F S32x16 .f32) (s : Elt F .f32) (g : Vec F S3 .f32) : Vec F S3 .f32 :=
  fun j => if (j 0).val = 0 then k2_pay1 p s else g j

end Cert.Kernel.Spec

end
-- ==== Proof.KBDat.lean ====
/-
  The proof data of the two TensorCore kernels, as the pipeline library asks it.

  Kernel 1 walks the table in five blocks of 2000 rows: its input window holds block t at point t, and its one-word
  output, kept in place from point to point and written back after the last, holds the running sum of squares after
  t + 1 blocks. Kernel 2 has one point: it reads the partial sums (at whatever contents the SparseCore call left,
  `pv`), the running word after five blocks and g, and leaves the three result words.
-/
import proofs.«209474_g91096256348957_cont_sun_m_1209_13_alg».proof.Proof.KBSetup
import proofs.«209474_g91096256348957_cont_sun_m_1209_13_alg».proof.Proof.KBSpec
import Idealize.ShloMosaic.Lib.Pipeline.FrameBody
import Idealize.ShloMosaic.Lib.Pipeline.Frame
import Idealize.ShloMosaic.Lib.Pipeline.Value

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-- The table on core `c`. -/
abbrev tbl (c : Dev nD) : Vec F S10000x128 .f32 := m ((c : Thread nD τ).loc main_arg0)
/-- g on core `c`. -/
abbrev gv (c : Dev nD) : Vec F S3 .f32 := m ((c : Thread nD τ).loc main_arg3)

/-- The pairs a TensorCore's waits may have recorded: those at or below the level of the one call's last handshake. -/
def recd (c : Dev nD) : Set (SemLoc sig × HIx 1) := {p | (K (F := F)).lev ((c : Thread nD τ), p.1) p.2 ≤ 8}

/-- The TensorCore's unscoped buffers when kernel 1 is entered: as launched, but the flattened table at `xf` and the
    partial sums at `pv`. -/
def VA (xf : (d : Dev nD) → Buf (Elt F) (xfLoc d)) (pv : (d : Dev nD) → Buf (Elt F) (pLoc d)) (c : Dev nD) (b : Ref sig .tc) :
    Buf (Elt F) ((c : Thread nD τ).loc b) :=
  if h0 : b = main_v0 then h0 ▸ xf c else if h1 : b = main_v1 then h1 ▸ pv c else m ((c : Thread nD τ).loc b)

/-- … when kernel 2 is entered: the running word after five blocks in place; -/
def VB (xf : (d : Dev nD) → Buf (Elt F) (xfLoc d)) (pv : (d : Dev nD) → Buf (Elt F) (pLoc d)) (c : Dev nD) (b : Ref sig .tc) :
    Buf (Elt F) ((c : Thread nD τ).loc b) :=
  if h2 : b = main_v2 then h2 ▸ (fun _ => Spec.acc (tbl m c) 5 : Vec F S1 .f32) else VA m xf pv c b

/-- … and when it is left: the three result words in place. -/
def VC (xf : (d : Dev nD) → Buf (Elt F) (xfLoc d)) (pv : (d : Dev nD) → Buf (Elt F) (pLoc d)) (c : Dev nD) (b : Ref sig .tc) :
    Buf (Elt F) ((c : Thread nD τ).loc b) :=
  if h3 : b = main_v3 then h3 ▸ (Spec.result (pv c) (Spec.acc (tbl m c) 5) (gv m c) : Vec F S3 .f32) else VB m xf pv c b

variable (xf : (d : Dev nD) → Buf (Elt F) (xfLoc d)) (pv : (d : Dev nD) → Buf (Elt F) (pLoc d))

/-- Kernel 1's proof data on core `c`. -/
def dat1 (c : Dev nD) : Dat τ (Elt F) (HIx 1) ℕ UU ℕ cfg1 c where
  A w := VA m xf pv c (Pipeline.arrRef spec1 w)
  after w t := match w with
    | ⟨0, _⟩ => Spec.blk (tbl m c) t.val
    | ⟨1, _⟩ => fun _ => Spec.acc (tbl m c) (t.val + 1)
  Φ _ := Pipeline.scopedRest spec1 c
  q _ := fullShare
  owed _ := 0
  recorded _ := recd (F := F) c

/-- Kernel 2's proof data on core `c`. -/
def dat2 (c : Dev nD) : Dat τ (Elt F) (HIx 1) ℕ UU ℕ cfg2 c where
  A w := VB m xf pv c (Pipeline.arrRef spec2 w)
  after w t := match w with
    | ⟨0, _⟩ => pv c
    | ⟨1, _⟩ => fun _ => Spec.acc (tbl m c) 5
    | ⟨2, _⟩ => gv m c
    | ⟨3, _⟩ => Spec.result (pv c) (Spec.acc (tbl m c) 5) (gv m c)
  Φ _ := Pipeline.scopedRest spec2 c
  q _ := fullShare
  owed _ := 0
  recorded _ := recd (F := F) c

/-- No kernel has a prefetched table. -/
abbrev adm : (p : Fin 2) → (pcfgs (F := F) p).Adm := fun p => (cfgs p).toPCfg_adm

/-- The two kernels' proof data. -/
def pdats : (p : Fin 2) → (c : Dev nD) → Dat τ (Elt F) (HIx 1) ℕ UU ℕ (Pipeline.pin (pcfgs (F := F)) adm p) c
  | ⟨0, _⟩ => dat1 m xf pv
  | ⟨1, _⟩ => dat2 m xf pv

theorem cellOf_inj' : Function.Injective (Pipeline.cellOf (nD := nD) (τ := τ) (Pipeline.pin (pcfgs (F := F)) adm)) :=
  cellOf_inj

/-! ## The valuations at the buffers that matter -/

theorem VA_arg (c : Dev nD) (b : Ref sig .tc) (h0 : b ≠ main_v0) (h1 : b ≠ main_v1) : VA m xf pv c b = m ((c : Thread nD τ).loc b) := by
  unfold VA; rw [dif_neg h0, dif_neg h1]
theorem VA_v0 (c : Dev nD) : VA m xf pv c main_v0 = xf c := by unfold VA; rw [dif_pos rfl]
theorem VA_v1 (c : Dev nD) : VA m xf pv c main_v1 = pv c := by unfold VA; rw [dif_neg (by decide), dif_pos rfl]
theorem VB_ne (c : Dev nD) (b : Ref sig .tc) (h2 : b ≠ main_v2) : VB m xf pv c b = VA m xf pv c b := by unfold VB; rw [dif_neg h2]
theorem VB_v2 (c : Dev nD) : VB m xf pv c main_v2 = (fun _ => Spec.acc (tbl m c) 5 : Vec F S1 .f32) := by unfold VB; rw [dif_pos rfl]
theorem VC_ne (c : Dev nD) (b : Ref sig .tc) (h3 : b ≠ main_v3) : VC m xf pv c b = VB m xf pv c b := by unfold VC; rw [dif_neg h3]
theorem VC_v3 (c : Dev nD) : VC m xf pv c main_v3 = (Spec.result (pv c) (Spec.acc (tbl m c) 5) (gv m c) : Vec F S3 .f32) := by
  unfold VC; rw [dif_pos rfl]

/-! ## Kernel 1, point by point -/

theorem A1_eq (c : Dev nD) (w : Fin cfg1.W) : (dat1 m xf pv c).A w = VA m xf pv c (Pipeline.arrRef spec1 w) := by dsimp only [dat1]
theorem after1_0 (c : Dev nD) (t : Fin cfg1.N) : (dat1 m xf pv c).after 0 t = Spec.blk (tbl m c) t.val := by dsimp only [dat1]
theorem after1_1 (c : Dev nD) (t : Fin cfg1.N) : (dat1 m xf pv c).after 1 t = (fun _ => Spec.acc (tbl m c) (t.val + 1)) := by dsimp only [dat1]

/-- Block `t` of the input window starts at row `2000 t`, column 0. -/
theorem idx1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input window's block at point `t`, read off the table, is the table's block `t`. -/
theorem blockOf1_0 (c : Dev nD) (t : Fin cfg1.N) : (dat1 m xf pv c).blockOf 0 t = Spec.blk (tbl m c) t.val := by
  unfold Dat.blockOf
  rw [A1_eq]
  funext y
  rw [View.read_apply]
  show VA m xf pv c main_arg0 (((cfg1.win 0).blk t).view.emb y) = tbl m c (Spec.rowIx t.val y)
  rw [VA_arg m xf pv c main_arg0 (by decide) (by decide)]
  refine congrArg (tbl m c) ?_
  have hN : t.val < 5 := lt_of_lt_of_eq t.isLt (show cfg1.N = 5 from N_1)
  have hy0 : (y 0).val < 2000 := (y 0).isLt
  funext a; apply Fin.ext
  match a with
  | ⟨0, _⟩ =>
    show win1_0.index t 0 * 2000 + 1 * (y 0).val = (2000 * t.val + (y 0).val) % 10000
    rw [(idx1 t).1]; omega
  | ⟨1, _⟩ =>
    show win1_0.index t 1 * 128 + 1 * (y 1).val = (y 1).val
    rw [(idx1 t).2]; omega

/-- The input window's current buffer holds block `t` at every point. -/
theorem before1_0 (c : Dev nD) (t : Fin cfg1.N) (d) : (dat1 m xf pv c).before 0 t d = Spec.blk (tbl m c) t.val :=
  ((dat1 m xf pv c).before_in_eq_fetched 0 rfl (fun _ => rfl) (fun _ _ _ => rfl)
      (fun t => by rw [after1_0, blockOf1_0]; rfl) t d).trans
    (by unfold Dat.fetched; rw [blockOf1_0]; rfl)

/-- At the first point the output word's buffer holds whatever it held. -/
theorem before1_1_first (c : Dev nD) (t : Fin cfg1.N) (h0 : t.val = 0) (d) : (dat1 m xf pv c).before 1 t d = d :=
  (dat1 m xf pv c).before_out_reset 1 rfl t (.inl h0) d

/-- At a later point it holds what the point before left: the buffer is written back after the last point only. -/
theorem before1_1_next (c : Dev nD) (t : Fin cfg1.N) (h0 : t.val ≠ 0) (d) :
    (dat1 m xf pv c).before 1 t d = (fun _ => Spec.acc (tbl m c) t.val) := by
  have hN : t.val < 5 := lt_of_lt_of_eq t.isLt (show cfg1.N = 5 from N_1)
  rw [Dat.before_out_kept _ 1 rfl t h0 (Bool.eq_false_iff.mpr fun h => by have := (flush1_1 _).mp h; dsimp only at this; omega)
    (fun _ => rfl) (fun _ _ => rfl), after1_1]
  funext _; show Spec.acc (tbl m c) (t.val - 1 + 1) = _; rw [Nat.sub_add_cancel (Nat.pos_of_ne_zero h0)]

/-- After the last point the one-word array holds the running word after five blocks. -/
theorem arrAt1_1 (c : Dev nD) : (dat1 m xf pv c).arrAt 1 cfg1.N = (fun _ => Spec.acc (tbl m c) 5 : Vec F S1 .f32) := by
  refine (dat1 m xf pv c).arrAt_eq_of_cover 1 _ (fun t hf => ?_) (fun i => ?_)
  · have h4 : t.val % 5 = 4 := (flush1_1 t).mp hf
    have hN : t.val < 5 := lt_of_lt_of_eq t.isLt (show cfg1.N = 5 from N_1)
    have h : t.val = 4 := by omega
    funext y
    show Spec.acc (tbl m c) (t.val + 1) = Spec.acc (tbl m c) 5
    rw [h]
  · refine ⟨t1_4, (flush1_1 _).mpr (by decide), ?_⟩
    show i ∈ ((View.whole main_v2).slice (win1_1.rect t1_4)).set
    rw [View.set_slice_whole, Rect.mem_set_unit]
    intro a
    match a with
    | ⟨0, _⟩ =>
      show win1_1.index t1_4 (0 : Fin 1) * 1 ≤ (i 0).val ∧ (i 0).val < win1_1.index t1_4 (0 : Fin 1) * 1 + 1
      have h0 : win1_1.index t1_4 (0 : Fin 1) = 0 := by decide
      have hi : (i 0).val < 1 := (i 0).isLt
      omega

/-! ## Kernel 2, at its one point -/

theorem A2_eq (c : Dev nD) (w : Fin cfg2.W) : (dat2 m xf pv c).A w = VB m xf pv c (Pipeline.arrRef spec2 w) := by dsimp only [dat2]
theorem after2_0 (c : Dev nD) (t : Fin cfg2.N) : (dat2 m xf pv c).after 0 t = pv c := by dsimp only [dat2]
theorem after2_1 (c : Dev nD) (t : Fin cfg2.N) : (dat2 m xf pv c).after 1 t = (fun _ => Spec.acc (tbl m c) 5) := by dsimp only [dat2]
theorem after2_2 (c : Dev nD) (t : Fin cfg2.N) : (dat2 m xf pv c).after 2 t = gv m c := by dsimp only [dat2]
theorem after2_3 (c : Dev nD) (t : Fin cfg2.N) :
    (dat2 m xf pv c).after 3 t = Spec.result (pv c) (Spec.acc (tbl m c) 5) (gv m c) := by dsimp only [dat2]

/-- Every window's one block starts at the origin. -/
theorem idx2 : ∀ t : Fin cfg2.N, (win2_0.index t (0 : Fin 2) = 0 ∧ win2_0.index t (1 : Fin 2) = 0) ∧ win2_1.index t (0 : Fin 1) = 0
    ∧ win2_2.index t (0 : Fin 1) = 0 ∧ win2_3.index t (0 : Fin 1) = 0 :=
  (by decide +kernel : ∀ t : Fin grid2.N, (win2_0.index t (0 : Fin 2) = 0 ∧ win2_0.index t (1 : Fin 2) = 0) ∧ win2_1.index t (0 : Fin 1) = 0
    ∧ win2_2.index t (0 : Fin 1) = 0 ∧ win2_3.index t (0 : Fin 1) = 0)

theorem blockOf2_0 (c : Dev nD) (t : Fin cfg2.N) : (dat2 m xf pv c).blockOf 0 t = pv c := by
  unfold Dat.blockOf
  rw [A2_eq]
  funext y
  rw [View.read_apply]
  show VB m xf pv c main_v1 (((cfg2.win 0).blk t).view.emb y) = pv c y
  rw [VB_ne m xf pv c main_v1 (by decide), VA_v1]
  refine congrArg (pv c) ?_
  funext a; apply Fin.ext
  match a with
  | ⟨0, _⟩ =>
    show win2_0.index t 0 * 32 + 1 * (y 0).val = (y 0).val
    rw [(idx2 t).1.1]; omega
  | ⟨1, _⟩ =>
    show win2_0.index t 1 * 16 + 1 * (y 1).val = (y 1).val
    rw [(idx2 t).1.2]; omega

theorem blockOf2_1 (c : Dev nD) (t : Fin cfg2.N) : (dat2 m xf pv c).blockOf 1 t = (fun _ => Spec.acc (tbl m c) 5) := by
  unfold Dat.blockOf
  rw [A2_eq]
  funext y
  rw [View.read_apply]
  show VB m xf pv c main_v2 (((cfg2.win 1).blk t).view.emb y) = Spec.acc (tbl m c) 5
  rw [VB_v2]

theorem blockOf2_2 (c : Dev nD) (t : Fin cfg2.N) : (dat2 m xf pv c).blockOf 2 t = gv m c := by
  unfold Dat.blockOf
  rw [A2_eq]
  funext y
  rw [View.read_apply]
  show VB m xf pv c main_arg3 (((cfg2.win 2).blk t).view.emb y) = gv m c y
  rw [VB_ne m xf pv c main_arg3 (by decide), VA_arg m xf pv c main_arg3 (by decide) (by decide)]
  refine congrArg (gv m c) ?_
  funext a; apply Fin.ext
  match a with
  | ⟨0, _⟩ =>
    show win2_2.index t 0 * 3 + 1 * (y 0).val = (y 0).val
    rw [(idx2 t).2.2.1]; omega

theorem before2_0 (c : Dev nD) (t : Fin cfg2.N) (d) : (dat2 m xf pv c).before 0 t d = pv c :=
  ((dat2 m xf pv c).before_in_eq_fetched 0 rfl (fun _ => rfl) (fun _ _ _ => rfl)
      (fun t => by rw [after2_0, blockOf2_0]) t d).trans
    (by unfold Dat.fetched; rw [blockOf2_0]; rfl)
theorem before2_1 (c : Dev nD) (t : Fin cfg2.N) (d) : (dat2 m xf pv c).before 1 t d = (fun _ => Spec.acc (tbl m c) 5) :=
  ((dat2 m xf pv c).before_in_eq_fetched 1 rfl (fun _ => rfl) (fun _ _ _ => rfl)
      (fun t => by rw [after2_1, blockOf2_1]) t d).trans
    (by unfold Dat.fetched; rw [blockOf2_1]; rfl)
theorem before2_2 (c : Dev nD) (t : Fin cfg2.N) (d) : (dat2 m xf pv c).before 2 t d = gv m c :=
  ((dat2 m xf pv c).before_in_eq_fetched 2 rfl (fun _ => rfl) (fun _ _ _ => rfl)
      (fun t => by rw [after2_2, blockOf2_2]) t d).trans
    (by unfold Dat.fetched; rw [blockOf2_2]; rfl)
theorem before2_3 (c : Dev nD) (t : Fin cfg2.N) (d) : (dat2 m xf pv c).before 3 t d = d :=
  (dat2 m xf pv c).before_out_reset 3 rfl t (.inl (by have h1 := t.isLt; have h2 : cfg2.N = 1 := N_2; omega)) d

/-- After its one point the result array holds the three result words. -/
theorem arrAt2_3 (c : Dev nD) :
    (dat2 m xf pv c).arrAt 3 cfg2.N = (Spec.result (pv c) (Spec.acc (tbl m c) 5) (gv m c) : Vec F S3 .f32) := by
  refine (dat2 m xf pv c).arrAt_eq_of_cover 3 _ (fun t hf => ?_) (fun i => ?_)
  · funext y
    rw [View.read_apply]
    show Spec.result (pv c) (Spec.acc (tbl m c) 5) (gv m c) y
      = Spec.result (pv c) (Spec.acc (tbl m c) 5) (gv m c) (((cfg2.win 3).blk t).view.emb y)
    refine congrArg _ ?_
    funext a; apply Fin.ext
    match a with
    | ⟨0, _⟩ =>
      show (y 0).val = win2_3.index t 0 * 3 + 1 * (y 0).val
      rw [(idx2 t).2.2.2]; omega
  · refine ⟨t2_0, flush2_3 _, ?_⟩
    show i ∈ ((View.whole main_v3).slice (win2_3.rect t2_0)).set
    rw [View.set_slice_whole, Rect.mem_set_unit]
    intro a
    match a with
    | ⟨0, _⟩ =>
      show win2_3.index t2_0 (0 : Fin 1) * 3 ≤ (i 0).val ∧ (i 0).val < win2_3.index t2_0 (0 : Fin 1) * 3 + 3
      have h0 : win2_3.index t2_0 (0 : Fin 1) = 0 := (idx2 t2_0).2.2.2
      have hi : (i 0).val < 3 := (i 0).isLt
      omega

end Cert.Proof.KB

end
-- ==== Proof.KBBodies.lean ====
/-
  The bodies of the two TensorCore kernels as separation-logic triples, at any float instance.

  The second call's body, at a grid point, reads the block of 2000 x 128 entries and the one running word, and stores
  back that word plus the sum of the squares of the block's entries; at the first grid point it first zeroes the word.
  The third call's body stores three words: sqrt (0 * (the sum of the 32 x 16 partial sums) + the running word), and
  the second and third words of the three-word input.
-/
import proofs.«209474_g91096256348957_cont_sun_m_1209_13_alg».proof.Proof.KBSetup
import proofs.«209474_g91096256348957_cont_sun_m_1209_13_alg».proof.Proof.KBSpec
import Idealize.ShloMosaic.Lib.Pipeline.FrameBody
import Idealize.ShloMosaic.Lib.Pipeline.Value
import Idealize.ShloMosaic.Lib.WholeRead

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The second call's branch: taken at the first grid point only -/

/-- The condition of the body's one `scf.if`, from the grid coordinate. -/
abbrev cond1 (i : grid1.Coords) : Prop :=
  (Scalar.cmpi .ne (Scalar.extui (Scalar.cmpi .eq (BitVec.ofNat 32 (i 0).val) 0#32)) 0#32) = 1#1

/-- It holds at the first of the five grid points only: decided over the grid. -/
theorem hcond1 : ∀ t : Fin cfg1.N, cond1 (grid1.coords t) ↔ t.val = 0 :=
  (by decide +kernel : ∀ t : Fin grid1.N, cond1 (grid1.coords t) ↔ t.val = 0)

/-! ## Small facts about the shapes -/

theorem hz1 : (![0] : Fin 1 → ℕ) = fun _ => 0 := funext fun a => by fin_cases a; rfl
theorem hz2 : (![0, 0] : Fin 2 → ℕ) = fun _ => 0 := funext fun a => by fin_cases a <;> rfl

/-- A shape of one axis of extent one has one index. -/
theorem idx_one_eq {sz : Fin 1 → ℕ} (h : sz 0 = 1) (a b : (d : Fin 1) → Fin (sz d)) : a = b :=
  funext fun d => by
    obtain rfl : d = 0 := Subsingleton.elim _ _
    exact Fin.ext (by have := (a 0).isLt; have := (b 0).isLt; omega)

/-- The one-word shape has one index. -/
theorem idx_S1_eq (a b : S1.Idx) : a = b := idx_one_eq rfl a b

/-! ## The second call's body -/

set_option maxHeartbeats 1000000 in
/-- At a grid point other than the first the body leaves, in the one-word buffer holding `s0`, that word plus the sum of
    the squares of the block `x0`: its one store covers the buffer, and its payload reads the two buffers whole. -/
theorem run1_next (c : Dev nD) (i : grid1.Coords) (hc : ¬ cond1 i) (arg1 : Memref sig .tc .vmem S2000x128 .f32) (harg1 : arg1.IsWhole)
    (arg2 : Memref sig .tc .smem S1 .f32) (harg2 : arg2.IsWhole) (x0 : Vec F S2000x128 .f32) (s0 : Vec F S1 .f32) (E : Set ℕ)
    (Kc : PUnit → sProp 𝕄) :
    iprop(owns (c : Thread nD τ) arg1 fullShare x0 ∗ owns (c : Thread nD τ) arg2 fullShare s0
        ∗ (iprop(owns (c : Thread nD τ) arg1 fullShare x0
            ∗ owns (c : Thread nD τ) arg2 fullShare (fun _ => k1_pay1 x0 (s0 (ValueIdx.ix1 0)))) -∗ Kc ⟨⟩))
      ⊢ wp frame (wpE (defs₀ (F := F)) 𝒱₀ (c : Thread nD τ) none) E (cc1__tc_reduce_body i arg1 harg1 arg2 harg2) Kc := by
  simp only [cc1__tc_reduce_body_eq_skeleton]; unfold cc1__tc_reduce_body_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr; swap; · iexact H1
  ipureintro
  funext y
  refine View.read_writes_apply_of_pieces (Val := Elt F) (e := .f32) _ _ (fun _ => k1_pay1 x0 (s0 (ValueIdx.ix1 0))) _ ?_ y ?_
  · intro p hp x
    obtain rfl := List.mem_singleton.mp hp
    dsimp only
    sl_unfold_words
    simp only [View.readAt_eq_ld, harg1.read_unread, harg2.read_unread, View.ld_unit_zero (S := S2000x128) hz2]
    exact congrArg (fun j => k1_pay1 x0 (s0 j)) (idx_S1_eq _ _)
  · exact ⟨_, List.mem_singleton_self _, View.mem_set_unit_zero hz1 inb_S1_S1_0 y⟩

set_option maxHeartbeats 1000000 in
/-- At the first grid point the body first stores zero over the one word, whatever it held, and then leaves zero plus the
    sum of the squares of the block `x0`: the last store alone covers the buffer, and the word its payload reads back is
    the zero just stored. -/
theorem run1_first (c : Dev nD) (i : grid1.Coords) (hc : cond1 i) (arg1 : Memref sig .tc .vmem S2000x128 .f32) (harg1 : arg1.IsWhole)
    (arg2 : Memref sig .tc .smem S1 .f32) (harg2 : arg2.IsWhole) (x0 : Vec F S2000x128 .f32) (s0 : Vec F S1 .f32) (E : Set ℕ)
    (Kc : PUnit → sProp 𝕄) :
    iprop(owns (c : Thread nD τ) arg1 fullShare x0 ∗ owns (c : Thread nD τ) arg2 fullShare s0
        ∗ (iprop(owns (c : Thread nD τ) arg1 fullShare x0
            ∗ owns (c : Thread nD τ) arg2 fullShare (fun _ => k1_pay1 x0 (Scalar.ofBits .f32 0x00000000#32 : F .f32))) -∗ Kc ⟨⟩))
      ⊢ wp frame (wpE (defs₀ (F := F)) 𝒱₀ (c : Thread nD τ) none) E (cc1__tc_reduce_body i arg1 harg1 arg2 harg2) Kc := by
  simp only [cc1__tc_reduce_body_eq_skeleton]; unfold cc1__tc_reduce_body_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr; swap; · iexact H1
  ipureintro
  funext y
  obtain ⟨x, rfl⟩ : ∃ x, (Rect.unit (s := S1) ![0] S1.size inb_S1_S1_0).emb x = y :=
    (Rect.unit (s := S1) ![0] S1.size inb_S1_S1_0).exists_idx_of_mem (View.mem_set_unit_zero hz1 inb_S1_S1_0 y)
  rw [View.read_writes_cons_emb]
  sl_unfold_words
  simp only [View.readAt_eq_ld, harg1.read_unread, View.ld_unit_zero (S := S2000x128) hz2]

/-! ## The third call's body -/

set_option maxHeartbeats 1000000 in
/-- The body leaves, in the three-word result buffer, whatever it held, the three result words as one function of the
    index: word 0 is sqrt (0 * (the sum of the entries of `p`) + `s`), words 1 and 2 are those of `g`. Its three one-word
    stores land at offsets 0, 1 and 2, which cover the three indices, and each store's payload is that function at its
    offset. -/
theorem run2 (c : Dev nD) (arg0 : Memref sig .tc .vmem S32x16 .f32) (harg0 : arg0.IsWhole) (arg1 : Memref sig .tc .smem S1 .f32) (harg1 : arg1.IsWhole)
    (arg2 : Memref sig .tc .smem S3 .f32) (harg2 : arg2.IsWhole) (arg3 : Memref sig .tc .smem S3 .f32) (harg3 : arg3.IsWhole)
    (p : Vec F S32x16 .f32) (s : Vec F S1 .f32) (g : Vec F S3 .f32) (o : Vec F S3 .f32) (E : Set ℕ) (Kc : PUnit → sProp 𝕄) :
    iprop(owns (c : Thread nD τ) arg0 fullShare p ∗ owns (c : Thread nD τ) arg1 fullShare s ∗ owns (c : Thread nD τ) arg2 fullShare g
        ∗ owns (c : Thread nD τ) arg3 fullShare o
        ∗ (iprop(owns (c : Thread nD τ) arg0 fullShare p ∗ owns (c : Thread nD τ) arg1 fullShare s ∗ owns (c : Thread nD τ) arg2 fullShare g
            ∗ owns (c : Thread nD τ) arg3 fullShare (Cert.Kernel.Spec.result p (s (ValueIdx.ix1 0)) g)) -∗ Kc ⟨⟩))
      ⊢ wp frame (wpE (defs₀ (F := F)) 𝒱₀ (c : Thread nD τ) none) E (cc2__tc_finish_body arg0 harg0 arg1 harg1 arg2 harg2 arg3 harg3) Kc := by
  simp only [cc2__tc_finish_body_eq_skeleton]; unfold cc2__tc_finish_body_skel
  unfold owns
  iintro ⟨⟨%f0, %hf0, H0⟩, ⟨%f1, %hf1, H1⟩, ⟨%f2, %hf2, H2⟩, ⟨%f3, %hf3, H3⟩, Hk⟩
  obtain rfl := harg0.eq_unread hf0; obtain rfl := harg1.eq_unread hf1
  obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  refine View.read_writes_apply_of_pieces (Val := Elt F) (e := .f32) _ _ (Spec.result p (s (ValueIdx.ix1 0)) g) _ ?_ y ?_
  · intro q hq x
    simp only [List.mem_cons, List.not_mem_nil, or_false] at hq
    rcases hq with rfl | rfl | rfl
    · dsimp only
      sl_unfold_words
      simp only [View.readAt_eq_ld, harg2.read_unread]
      unfold Spec.result
      have h1 : (x 0).val < 1 := (x 0).isLt
      rw [if_neg (by show ¬ (2 + 1 * (x 0).val = 0); omega)]
      exact congrArg (fun j => g ((Rect.unit (s := S3) ![2] S1.size inb_S3_S1_2).emb j)) (idx_one_eq rfl _ _)
    · dsimp only
      sl_unfold_words
      simp only [View.readAt_eq_ld, harg2.read_unread]
      unfold Spec.result
      have h1 : (x 0).val < 1 := (x 0).isLt
      rw [if_neg (by show ¬ (1 + 1 * (x 0).val = 0); omega)]
      exact congrArg (fun j => g ((Rect.unit (s := S3) ![1] S1.size inb_S3_S1_1).emb j)) (idx_one_eq rfl _ _)
    · dsimp only
      sl_unfold_words
      simp only [View.readAt_eq_ld, harg0.read_unread, harg1.read_unread, View.ld_unit_zero (S := S32x16) hz2]
      unfold Spec.result
      have h1 : (x 0).val < 1 := (x 0).isLt
      rw [if_pos (by show 0 + 1 * (x 0).val = 0; omega)]
      exact congrArg (fun j => k2_pay1 p (s j)) (idx_one_eq rfl _ _)
  · have h3 : (y 0).val < 3 := (y 0).isLt
    have hy : (y 0).val = 0 ∨ (y 0).val = 1 ∨ (y 0).val = 2 := by omega
    rcases hy with h | h | h
    · refine ⟨_, List.mem_cons_of_mem _ (List.mem_cons_of_mem _ List.mem_cons_self), ?_⟩
      refine (Rect.mem_set_unit (inb := inb_S3_S1_0)).mpr fun a => ?_
      obtain rfl : a = 0 := Fin.ext (by have h1 : a.val < 1 := a.isLt; show a.val = 0; omega)
      exact ⟨by show 0 ≤ (y 0).val; omega, by show (y 0).val < 0 + 1; omega⟩
    · refine ⟨_, List.mem_cons_of_mem _ List.mem_cons_self, ?_⟩
      refine (Rect.mem_set_unit (inb := inb_S3_S1_1)).mpr fun a => ?_
      obtain rfl : a = 0 := Fin.ext (by have h1 : a.val < 1 := a.isLt; show a.val = 0; omega)
      exact ⟨by show 1 ≤ (y 0).val; omega, by show (y 0).val < 1 + 1; omega⟩
    · refine ⟨_, List.mem_cons_self, ?_⟩
      refine (Rect.mem_set_unit (inb := inb_S3_S1_2)).mpr fun a => ?_
      obtain rfl : a = 0 := Fin.ext (by have h1 : a.val < 1 := a.isLt; show a.val = 0; omega)
      exact ⟨by show 2 ≤ (y 0).val; omega, by show (y 0).val < 2 + 1; omega⟩

end Cert.Proof.KB

end
-- ==== Proof.KBBodyObl.lean ====
/-
  The two TensorCore kernels' body obligations: at every grid point, from what the pipeline hands the body (each
  window's current staging buffer at the contents the proof data names) the body runs to what the proof data says it
  leaves.
-/
import proofs.«209474_g91096256348957_cont_sun_m_1209_13_alg».proof.Proof.KBDat
import proofs.«209474_g91096256348957_cont_sun_m_1209_13_alg».proof.Proof.KBBodies

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))

/-! ## Kernel 1 -/

/-- What kernel 1's body is called with at point `t`, the windows one by one, -/
def bodyPre1 (c : Dev nD) (t : Fin cfg1.N) : sProp 𝕄 :=
  iprop((dat1 m xf pv c).Φ t.castSucc ∗ (dat1 m xf pv c).owesAt (none : HIx 1) t.castSucc
    ∗ (∃ d, owns (c : Thread nD τ) (st1_0 t) fullShare ((dat1 m xf pv c).before 0 t d))
    ∗ (∃ d, owns (c : Thread nD τ) (st1_1 t) fullShare ((dat1 m xf pv c).before 1 t d)))

/-- and what it returns. -/
def bodyPost1 (c : Dev nD) (t : Fin cfg1.N) : sProp 𝕄 :=
  iprop((dat1 m xf pv c).Φ t.succ ∗ (dat1 m xf pv c).owesAt (none : HIx 1) t.succ
    ∗ owns (c : Thread nD τ) (st1_0 t) fullShare ((dat1 m xf pv c).after 0 t)
    ∗ owns (c : Thread nD τ) (st1_1 t) fullShare ((dat1 m xf pv c).after 1 t))

/-- At the first point the body zeroes the word and adds the first block's sum of squares; at a later point it adds the
    block's to the word the point before left. -/
theorem sound_body1 (c : Dev nD) (t : Fin cfg1.N) :
    bodyPre1 m xf pv c t ⊢ wp frame (wpE (defs₀ (F := F)) 𝒱₀ c none) Set.univ (bodyAt1 t) (fun _ => bodyPost1 m xf pv c t) := by
  unfold bodyPre1 bodyPost1 bodyAt1
  simp only [before1_0]
  rw [show (dat1 m xf pv c).Φ t.succ = (dat1 m xf pv c).Φ t.castSucc from rfl,
    show (dat1 m xf pv c).owesAt (none : HIx 1) t.succ = (dat1 m xf pv c).owesAt (none : HIx 1) t.castSucc from rfl,
    after1_0, after1_1]
  by_cases h0 : t.val = 0
  · simp only [before1_1_first m xf pv c t h0]
    iintro ⟨HΦ, Ho, ⟨%d0, H0⟩, ⟨%d1, H1⟩⟩
    iapply (run1_first c (grid1.coords t) ((hcond1 t).mpr h0) _ _ _ _ (Spec.blk (tbl m c) t.val) d1 Set.univ _)
    isplitl [H0]; · iexact H0
    isplitl [H1]; · iexact H1
    iintro ⟨H0, H1⟩
    isplitl [HΦ]; · iexact HΦ
    isplitl [Ho]; · iexact Ho
    isplitl [H0]; · iexact H0
    have hw : Spec.acc (tbl m c) (t.val + 1) = k1_pay1 (Spec.blk (tbl m c) t.val) (Scalar.ofBits .f32 0x00000000#32 : F .f32) := by
      rw [h0]; rfl
    rw [hw]
    iexact H1
  · simp only [before1_1_next m xf pv c t h0]
    iintro ⟨HΦ, Ho, ⟨%d0, H0⟩, ⟨%d1, H1⟩⟩
    iapply (run1_next c (grid1.coords t) (fun h => h0 ((hcond1 t).mp h)) _ _ _ _ (Spec.blk (tbl m c) t.val)
      (fun _ => Spec.acc (tbl m c) t.val) Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- Kernel 1's body obligation. -/
theorem body1 (c : Dev nD) : Pipeline.BodyObligation (dat1 (F := F) m xf pv c) defs₀ 𝒱₀ (none : HIx 1) Set.univ := fun t => by
  rw [bigSep_W1, bigSep_W1]
  exact sound_body1 m xf pv c t

/-! ## Kernel 2 -/

def bodyPre2 (c : Dev nD) (t : Fin cfg2.N) : sProp 𝕄 :=
  iprop((dat2 m xf pv c).Φ t.castSucc ∗ (dat2 m xf pv c).owesAt (none : HIx 1) t.castSucc
    ∗ (∃ d, owns (c : Thread nD τ) (st2_0 t) fullShare ((dat2 m xf pv c).before 0 t d))
    ∗ (∃ d, owns (c : Thread nD τ) (st2_1 t) fullShare ((dat2 m xf pv c).before 1 t d))
    ∗ (∃ d, owns (c : Thread nD τ) (st2_2 t) fullShare ((dat2 m xf pv c).before 2 t d))
    ∗ (∃ d, owns (c : Thread nD τ) (st2_3 t) fullShare ((dat2 m xf pv c).before 3 t d)))

def bodyPost2 (c : Dev nD) (t : Fin cfg2.N) : sProp 𝕄 :=
  iprop((dat2 m xf pv c).Φ t.succ ∗ (dat2 m xf pv c).owesAt (none : HIx 1) t.succ
    ∗ owns (c : Thread nD τ) (st2_0 t) fullShare ((dat2 m xf pv c).after 0 t)
    ∗ owns (c : Thread nD τ) (st2_1 t) fullShare ((dat2 m xf pv c).after 1 t)
    ∗ owns (c : Thread nD τ) (st2_2 t) fullShare ((dat2 m xf pv c).after 2 t)
    ∗ owns (c : Thread nD τ) (st2_3 t) fullShare ((dat2 m xf pv c).after 3 t))

/-- The body reads the partial sums, the running word and g, and leaves the three result words. -/
theorem sound_body2 (c : Dev nD) (t : Fin cfg2.N) :
    bodyPre2 m xf pv c t ⊢ wp frame (wpE (defs₀ (F := F)) 𝒱₀ c none) Set.univ (bodyAt2 t) (fun _ => bodyPost2 m xf pv c t) := by
  unfold bodyPre2 bodyPost2 bodyAt2
  simp only [before2_0, before2_1, before2_2, before2_3]
  rw [show (dat2 m xf pv c).Φ t.succ = (dat2 m xf pv c).Φ t.castSucc from rfl,
    show (dat2 m xf pv c).owesAt (none : HIx 1) t.succ = (dat2 m xf pv c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (run2 c _ _ _ _ _ _ _ _ (pv c) (fun _ => Spec.acc (tbl m c) 5) (gv m c) d3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Kernel 2's body obligation. -/
theorem body2 (c : Dev nD) : Pipeline.BodyObligation (dat2 (F := F) m xf pv c) defs₀ 𝒱₀ (none : HIx 1) Set.univ := fun t => by
  rw [bigSep_W2, bigSep_W2]
  exact sound_body2 m xf pv c t

end Cert.Proof.KB

end
-- ==== Proof.KBRegs.lean ====
/-
  The two TensorCore kernels as regions of @main: what each is entered from and what it leaves, around the pipeline
  library's proof data.

  Between the statements of @main the TensorCore holds its unscoped buffers at a valuation (VA when kernel 1 is entered,
  VB when kernel 2 is, VC at the end), its free semaphores at zero, the generator register, and owes nothing, its
  recorded waits at or below the level of the one SparseCore call's last handshake (the staging semaphores' waits sit at
  level zero).
-/
import proofs.«209474_g91096256348957_cont_sun_m_1209_13_alg».proof.Proof.KBBodyObl

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))
variable (ρ : Dev nD → PrngReg)

/-- The level assignment of the launch: the handshakes'. -/
abbrev LL : GSem nD τ sig → Finset (HIx 1) := (K (F := F)).L
abbrev lvv : GSem nD τ sig → HIx 1 → ℕ := (K (F := F)).lev
/-- A TensorCore kernel's region of @main, as the pipeline library records it. -/
abbrev RS (p : Fin 2) := Pipeline.RegionSeg (pcfgs (F := F)) adm (pdats m xf pv) (none : HIx 1) defs₀ 𝒱₀ (LL (F := F)) (lvv (F := F)) p

/-- What the TensorCore owes and has recorded once the one SparseCore call is over: nothing owed, its recorded waits at or
    below the call's last handshake. -/
def owesT (c : Dev nD) : sProp 𝕄 :=
  iprop(∃ W, ⌜(K (F := F)).WBelow (SparseCore.T c) W 8⌝ ∗ owes (SparseCore.T c) (0 : CellTallies nD τ sig (HIx 1)) W)

/-- What rides along beside the buffers: the TensorCore's free semaphores at zero, the generator register, the `owes`. -/
def rideT (c : Dev nD) : sProp 𝕄 :=
  iprop((K (F := F)).tcSems0 c ∗ prngReg c (ρ c) ∗ owesT (F := F) c)

omit [FloatOps F] in
theorem prefHeld_emp (p : Fin 2) (c : Dev nD) (q) (pf) :
    (Pipeline.prefHeld (Ix := HIx 1) (Name := ℕ) (U := UU) (Lvl := ℕ) (Val := Elt F) (pcfgs (F := F) p).pre c q pf : sProp 𝕄) = BI.emp :=
  match p with
  | ⟨0, _⟩ => bigSep_univ_eq_bigSepL [] (Finset.ext fun x => x.elim0) List.nodup_nil _
  | ⟨1, _⟩ => bigSep_univ_eq_bigSepL [] (Finset.ext fun x => x.elim0) List.nodup_nil _

theorem owesAt_intro {cfg : Pipeline.Cfg sig Λ₀} (c : Dev nD) (dat : Dat τ (Elt F) (HIx 1) ℕ UU ℕ cfg c) (t : Fin (cfg.N + 1))
    (h0 : dat.owed t = 0) (hr : dat.recorded t = recd (F := F) c) : owesT (F := F) c ⊢ (dat.owesAt (none : HIx 1) t : sProp 𝕄) := by
  unfold owesT Pipeline.Dat.owesAt Pipeline.owesWithin Pipeline.Dat.bound
  rw [h0, hr]
  iintro ⟨%W, %hW, HO⟩
  iexists W; isplitr
  · ipureintro; intro p hp; exact Or.inl (hW p hp)
  · iexact HO

theorem owesAt_elim {cfg : Pipeline.Cfg sig Λ₀} (c : Dev nD) (dat : Dat τ (Elt F) (HIx 1) ℕ UU ℕ cfg c) (t : Fin (cfg.N + 1))
    (h0 : dat.owed t = 0) (hr : dat.recorded t = recd (F := F) c) : (dat.owesAt (none : HIx 1) t : sProp 𝕄) ⊢ owesT (F := F) c := by
  unfold owesT Pipeline.Dat.owesAt Pipeline.owesWithin Pipeline.Dat.bound
  rw [h0, hr]
  iintro ⟨%W, %hW, HO⟩
  iexists W; isplitr
  · ipureintro; intro p hp
    rcases hW hp with h | ⟨w, s, rfl⟩
    · exact h
    · show (K (F := F)).lev _ none ≤ 8
      rw [SparseCore.Cfg.lev_none]; exact Nat.zero_le _
  · iexact HO

/-! ## Kernel 1 -/

theorem arrAt1_0 (c : Dev nD) (n : ℕ) : (dat1 m xf pv c).arrAt 0 n = VA m xf pv c main_arg0 :=
  ((dat1 m xf pv c).arrAt_in 0 rfl n).trans (A1_eq m xf pv c 0)

theorem rest1_eq (c : Dev nD) :
    (Pipeline.unscopedRest spec1 c (VA m xf pv c) : sProp 𝕄) = Pipeline.unscopedRest (Pipeline.pin (pcfgs (F := F)) adm 0).spec c (VB m xf pv c) := by
  show (Pipeline.unscopedRest spec1 c (VA m xf pv c) : sProp 𝕄) = Pipeline.unscopedRest spec1 c (VB m xf pv c)
  rw [unscopedRest1_eq, unscopedRest1_eq, VB_ne m xf pv c main_arg1 (by decide), VB_ne m xf pv c main_arg2 (by decide),
    VB_ne m xf pv c main_arg3 (by decide), VB_ne m xf pv c main_arg4 (by decide), VB_ne m xf pv c main_v0 (by decide),
    VB_ne m xf pv c main_v1 (by decide), VB_ne m xf pv c main_v3 (by decide)]

def reg1 : RS m xf pv 0 where
  win := launch1.win.to₀
  block_pos := block_pos1
  stage_whole := stage_whole1
  K := PEmpty
  osem k := k.elim
  ho := Pipeline.OwnSemFacts.none _
  hbody c := (body1 m xf pv c).loose
  hwaits := Pipeline.hwaits_of_owed_zero _ _ _ _ _ _ 0 fun _ _ => rfl
  pre c := iprop(unscopedBufs c (VA m xf pv c) ∗ rideT (F := F) ρ c)
  post c := iprop(unscopedBufs c (VB m xf pv c) ∗ rideT (F := F) ρ c)
  X _ := iprop(emp)
  Y _ := iprop(emp)
  Z c := iprop(Pipeline.unscopedRest spec1 c (VA m xf pv c) ∗ (K (F := F)).tcSems0 c ∗ prngReg c (ρ c))
  hentry c := by
    rw [Pipeline.ownSems0_none, prefHeld_emp]
    unfold rideT
    iintro ⟨⟨Hb, Hs, Hp, HO⟩, -, -⟩
    ihave H := (Pipeline.arrays_of_unscopedBufs (pcfgs (F := F)) adm (pdats m xf pv) (p := 0) launch1.win arr_whole1 c
      ((dat1 m xf pv c).share_full fun _ => rfl) (VA m xf pv c) (fun w => A1_eq m xf pv c w)) $$ Hb
    icases H with ⟨Ha, Hr⟩
    imodintro
    isplitl [Ha]; · iexact Ha
    isplitr; · iempintro
    isplitl [HO]; · iapply (owesAt_intro c (dat1 m xf pv c) 0 rfl rfl); iexact HO
    isplitr; · iempintro
    isplitl [Hr]; · iexact Hr
    isplitl [Hs]; · iexact Hs
    iexact Hp
  hin c := by
    rw [show (pdats m xf pv 0 c).Φ 0 = Pipeline.scopedRest spec1 c from rfl]
    iintro ⟨-, -, H⟩; iexact H
  hout c := by
    rw [show (pdats m xf pv 0 c).Φ (Fin.last _) = Pipeline.scopedRest spec1 c from rfl, Pipeline.ownSems0_none]
    iintro H
    isplitr; · iempintro
    isplitr; · iempintro
    iexact H
  hexit c := by
    rw [Pipeline.arrays_eq (Pipeline.pin (pcfgs (F := F)) adm) (pdats m xf pv) 0 c arr_whole1 ((dat1 m xf pv c).share_full fun _ => rfl),
      Pipeline.unscopedBufs_split (Pipeline.pin (pcfgs (F := F)) adm) 0 launch1.win.arr_unscoped launch1.win.arr_inj c (VB m xf pv c),
      bigSep_W1, bigSep_W1, ← rest1_eq]
    unfold rideT
    iintro ⟨⟨H0, H1⟩, HO, -, Hr, Hs, Hp⟩
    imodintro
    isplitl [H0 H1 Hr]
    · isplitl [H0 H1]
      · isplitl [H0]
        · rw [show (pdats m xf pv 0 c).arrAt 0 (Pipeline.pin (pcfgs (F := F)) adm 0).N = VB m xf pv c main_arg0 from
            (arrAt1_0 m xf pv c _).trans (VB_ne m xf pv c main_arg0 (by decide)).symm]
          iexact H0
        · rw [show (pdats m xf pv 0 c).arrAt 1 (Pipeline.pin (pcfgs (F := F)) adm 0).N = VB m xf pv c main_v2 from
            (arrAt1_1 m xf pv c).trans (VB_v2 m xf pv c).symm]
          iexact H1
      · iexact Hr
    isplitl [Hs]; · iexact Hs
    isplitl [Hp]; · iexact Hp
    iapply (owesAt_elim c (dat1 m xf pv c) _ rfl rfl); iexact HO

/-! ## Kernel 2 -/

theorem arrAt2_in (c : Dev nD) (w : Fin cfg2.W) (hw : (cfg2.win w).isOut = false) (n : ℕ) :
    (dat2 m xf pv c).arrAt w n = VB m xf pv c (Pipeline.arrRef spec2 w) :=
  ((dat2 m xf pv c).arrAt_in w hw n).trans (A2_eq m xf pv c w)

theorem rest2_eq (c : Dev nD) :
    (Pipeline.unscopedRest spec2 c (VB m xf pv c) : sProp 𝕄) = Pipeline.unscopedRest (Pipeline.pin (pcfgs (F := F)) adm 1).spec c (VC m xf pv c) := by
  show (Pipeline.unscopedRest spec2 c (VB m xf pv c) : sProp 𝕄) = Pipeline.unscopedRest spec2 c (VC m xf pv c)
  rw [unscopedRest2_eq, unscopedRest2_eq, VC_ne m xf pv c main_arg0 (by decide), VC_ne m xf pv c main_arg1 (by decide),
    VC_ne m xf pv c main_arg2 (by decide), VC_ne m xf pv c main_arg4 (by decide), VC_ne m xf pv c main_v0 (by decide)]

def reg2 : RS m xf pv 1 where
  win := launch2.win.to₀
  block_pos := block_pos2
  stage_whole := stage_whole2
  K := PEmpty
  osem k := k.elim
  ho := Pipeline.OwnSemFacts.none _
  hbody c := (body2 m xf pv c).loose
  hwaits := Pipeline.hwaits_of_owed_zero _ _ _ _ _ _ 1 fun _ _ => rfl
  pre c := iprop(unscopedBufs c (VB m xf pv c) ∗ rideT (F := F) ρ c)
  post c := iprop(unscopedBufs c (VC m xf pv c) ∗ rideT (F := F) ρ c)
  X _ := iprop(emp)
  Y _ := iprop(emp)
  Z c := iprop(Pipeline.unscopedRest spec2 c (VB m xf pv c) ∗ (K (F := F)).tcSems0 c ∗ prngReg c (ρ c))
  hentry c := by
    rw [Pipeline.ownSems0_none, prefHeld_emp]
    unfold rideT
    iintro ⟨⟨Hb, Hs, Hp, HO⟩, -, -⟩
    ihave H := (Pipeline.arrays_of_unscopedBufs (pcfgs (F := F)) adm (pdats m xf pv) (p := 1) launch2.win arr_whole2 c
      ((dat2 m xf pv c).share_full fun _ => rfl) (VB m xf pv c) (fun w => A2_eq m xf pv c w)) $$ Hb
    icases H with ⟨Ha, Hr⟩
    imodintro
    isplitl [Ha]; · iexact Ha
    isplitr; · iempintro
    isplitl [HO]; · iapply (owesAt_intro c (dat2 m xf pv c) 0 rfl rfl); iexact HO
    isplitr; · iempintro
    isplitl [Hr]; · iexact Hr
    isplitl [Hs]; · iexact Hs
    iexact Hp
  hin c := by
    rw [show (pdats m xf pv 1 c).Φ 0 = Pipeline.scopedRest spec2 c from rfl]
    iintro ⟨-, -, H⟩; iexact H
  hout c := by
    rw [show (pdats m xf pv 1 c).Φ (Fin.last _) = Pipeline.scopedRest spec2 c from rfl, Pipeline.ownSems0_none]
    iintro H
    isplitr; · iempintro
    isplitr; · iempintro
    iexact H
  hexit c := by
    rw [Pipeline.arrays_eq (Pipeline.pin (pcfgs (F := F)) adm) (pdats m xf pv) 1 c arr_whole2 ((dat2 m xf pv c).share_full fun _ => rfl),
      Pipeline.unscopedBufs_split (Pipeline.pin (pcfgs (F := F)) adm) 1 launch2.win.arr_unscoped launch2.win.arr_inj c (VC m xf pv c),
      bigSep_W2, bigSep_W2, ← rest2_eq]
    unfold rideT
    iintro ⟨⟨H0, H1, H2, H3⟩, HO, -, Hr, Hs, Hp⟩
    imodintro
    isplitl [H0 H1 H2 H3 Hr]
    · isplitl [H0 H1 H2 H3]
      · isplitl [H0]
        · rw [show (pdats m xf pv 1 c).arrAt 0 (Pipeline.pin (pcfgs (F := F)) adm 1).N = VC m xf pv c main_v1 from
            (arrAt2_in m xf pv c 0 rfl _).trans (VC_ne m xf pv c main_v1 (by decide)).symm]
          iexact H0
        isplitl [H1]
        · rw [show (pdats m xf pv 1 c).arrAt 1 (Pipeline.pin (pcfgs (F := F)) adm 1).N = VC m xf pv c main_v2 from
            (arrAt2_in m xf pv c 1 rfl _).trans (VC_ne m xf pv c main_v2 (by decide)).symm]
          iexact H1
        isplitl [H2]
        · rw [show (pdats m xf pv 1 c).arrAt 2 (Pipeline.pin (pcfgs (F := F)) adm 1).N = VC m xf pv c main_arg3 from
            (arrAt2_in m xf pv c 2 rfl _).trans (VC_ne m xf pv c main_arg3 (by decide)).symm]
          iexact H2
        · rw [show (pdats m xf pv 1 c).arrAt 3 (Pipeline.pin (pcfgs (F := F)) adm 1).N = VC m xf pv c main_v3 from
            (arrAt2_3 m xf pv c).trans (VC_v3 m xf pv c).symm]
          iexact H3
      · iexact Hr
    isplitl [Hs]; · iexact Hs
    isplitl [Hp]; · iexact Hp
    iapply (owesAt_elim c (dat2 m xf pv c) _ rfl rfl); iexact HO

end Cert.Proof.KB

end
-- ==== Proof.KBLaunchElem.lean ====
/-
  The launch element of the kernel's ghost state.

  The program's ghost state has three parts side by side: the rounds of the four handshake semaphores of the one
  SparseCore call, the rounds of the staging cells of the two TensorCore kernels, and the counters of the local
  transfers. At launch the first part is the handshakes' launch element, the second the staging cells' launch element
  (every cell at round 0 with no schedule chosen, and one duty token per transfer the two kernels' loops will issue),
  the third the unit. The handshakes' part goes to the launch theorem as it is; the staging cells' part is dealt out
  per device and per kernel; the counters are not used (the vector-subcore kernel's copies are local and need no
  schedule) and the SparseCore kernel asks nothing of its own at its call.
-/
import proofs.«209474_g91096256348957_cont_sun_m_1209_13_alg».proof.Proof.KBDat

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshakes' rounds, the two kernels' staging cells' rounds with their duty tokens, no
    counter. -/
def u₀ : UU :=
  (initOf (K (F := F)).hsCells (K (F := F)).hsToks,
    (initOf (Pipeline.cells (Pipeline.pin (pcfgs (F := F)) adm) cellOf_inj')
      (Pipeline.launchToks (Pipeline.pin (pcfgs (F := F)) adm) cellOf_inj'), 1))

/-- What @main on device `d` starts from: the rounds state of the staging cells of both TensorCore kernels and the
    duty tokens of their transfers. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem bigSep_emp' {I : Type} (s : Finset I) : (bigSep s fun _ => iprop(emp)) = (iprop(emp) : sProp 𝕄) := bigSep_emp_const s

omit [FloatOps F] in
/-- The staging cells' part and the counters, owned side by side, are each owned through its own embedding. -/
theorem own_pair_EP (b : UP) (k : Counters) :
    (BI.own ((embR : Emb (UP × Counters) 𝕄) (b, k)) : sProp 𝕄)
      ⊢ iprop(BI.own ((EP : Emb UP 𝕄) b) ∗ BI.own (((Emb.inr : Emb Counters (UP × Counters)).trans (embR : Emb (UP × Counters) 𝕄)) k)) :=
  own_pair_emb embR b k

/-- The launch element splits into the handshakes' part, each device's staging-cell state, and nothing for the
    SparseCore kernel itself; the counters, the kernels' own credit and the free semaphores are dropped. -/
theorem hu₀ (xf : (d : Dev nD) → Buf (Elt F) (xfLoc d)) :
    iprop(ownU (u₀ (F := F)) ∗ (P xf).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P xf).x q thr) := by
  unfold u₀
  iintro ⟨Hu, -, -⟩
  ihave H := (ownU_pair _ _) $$ Hu
  icases H with ⟨HH, HR⟩
  ihave H2 := (own_pair_EP _ _) $$ HR
  icases H2 with ⟨HP, -⟩
  imod (Pipeline.fund_ghost (Pipeline.pin (pcfgs (F := F)) adm) EP cellOf_inj') $$ HP with ⟨Hg, Ht⟩
  imodintro
  isplitl [HH]; · iexact HH
  isplitl [Hg Ht]
  · unfold G
    rw [bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

omit [FloatOps F] in
/-- A product over the two kernels, written out. -/
theorem bigSep_two (Φ : Fin 2 → sProp 𝕄) : bigSep Finset.univ Φ = iprop(Φ 0 ∗ Φ 1) :=
  bigSep_univ_eq_bigSepL [(0 : Fin 2), 1] (by decide) (by decide) Φ

/-- A device's staging-cell state, kernel by kernel: each kernel's cells' rounds state with its duty tokens. -/
theorem G_split (d : Dev nD) :
    (G (F := F) d : sProp 𝕄)
      ⊢ iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [bigSep_two, bigSep_two]
  iintro ⟨⟨Hg0, Hg1⟩, Ht0, Ht1⟩
  isplitl [Hg0 Ht0]
  · isplitl [Hg0] <;> iassumption
  · isplitl [Hg1] <;> iassumption

/-- The same as the pipeline library names the state of a set of kernels not yet entered, at the set of both. -/
theorem G_ghostOn (d : Dev nD) :
    (G (F := F) d : sProp 𝕄) ⊢ Pipeline.ghostOn (pcfgs (F := F)) adm EP Finset.univ d :=
  Entails.of_eq (by unfold G Pipeline.ghostOn Pipeline.PerCore.ghostOn; rw [bigSep_sep'])

end Cert.Proof.KB

end
-- ==== Proof.KBVals.lean ====
/-
  The contents of the two arrays the SparseCore call touches, as @main makes them.

  The flattened table is the host reshape of the table; the partial sums hold, after the call, contents the proof does
  not name: they are carried as a parameter.
-/
import proofs.«209474_g91096256348957_cont_sun_m_1209_13_alg».proof.Proof.KBDat
import Idealize.ShloMosaic.Lib.StableHlo.Run

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- @main's first statement: the table recast as one row of 1280000 words. -/
abbrev opR : HloOp τ sig (Elt F) := StableHlo.reshape main_arg0 main_v0 rfl shapeCasts_S10000x128_S1280000

/-- The device's buffers at launch, as a valuation. -/
abbrev V0 (d : Dev nD) : Valuation τ sig (Elt F) := fun b => m (d, b)

/-- The flattened table's contents once the reshape has run. -/
def xfOf (d : Dev nD) : Buf (Elt F) (xfLoc d) := (opR (F := F)).result (V0 m d) (Proc.devRef .tc main_v0)

/-- The partial sums' contents at launch. -/
def pv0 (d : Dev nD) : Buf (Elt F) (pLoc d) := m (pLoc d)

/-- Contents of device `d`'s partial sums, as a family over the devices (there is one device). -/
def pvOf (d : Dev nD) (p : Buf (Elt F) (pLoc d)) : (c : Dev nD) → Buf (Elt F) (pLoc c) :=
  fun c => (Subsingleton.elim d c : d = c) ▸ p

omit [FloatOps F] in
theorem pvOf_self (d : Dev nD) (p : Buf (Elt F) (pLoc d)) : pvOf d p d = p := rfl

end Cert.Proof.KB

end
-- ==== Proof.KBSplit.lean ====
/-
  How one SparseCore's share of the call's resources divides among its sixteen vector subcores, and how the
  TensorCore's two arrays divide between the two SparseCores.

  A SparseCore holds a read share of the flattened table, one sixteenth of it per subcore and a remainder of its
  own, and the sixteen rows of the partial sums its subcores write (rows 2 i + c). Handing the subcores their parts
  and taking them back is regrouping; the remainder of the share stays with the SparseCore meanwhile.
-/
import proofs.«209474_g91096256348957_cont_sun_m_1209_13_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable [FloatOps F] (xf : (d : Dev nD) → Buf (Elt F) (xfLoc d))

/-- A product over the subcores of the call's grid is the product over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's resources are its subcores' and the rest of its read share; the subcores' come back as they went. -/
theorem vecSplit : (K (F := F)).VecSplit' (P xf) 0 := by
  intro d c
  show coreRes xf d (Fin.cast nCore_zero c) ⊢ |={Set.univ}=> iprop(
      (bigSep Finset.univ fun i : Fin ((K (F := F)).nSub 0) => tileRes xf d (Fin.cast nCore_zero c) (Fin.cast nSub_zero i))
      ∗ ((bigSep Finset.univ fun i : Fin ((K (F := F)).nSub 0) => tileRes xf d (Fin.cast nCore_zero c) (Fin.cast nSub_zero i))
          -∗ coreRes xf d (Fin.cast nCore_zero c)))
  rw [bigSep_tasks (F := F) (fun i => tileRes xf d (Fin.cast nCore_zero c) i)]
  unfold coreRes
  iintro ⟨Hr, Hts⟩; imodintro
  isplitl [Hts]; · iexact Hts
  iintro Hts
  isplitl [Hr]; · iexact Hr
  iexact Hts

/-! ## The TensorCore's two arrays between the two SparseCores

The flattened table goes out as read shares: two halves-of-halves for the SparseCores with a remainder the TensorCore
keeps, each SparseCore's again sixteen for its subcores with a remainder of its own. The partial sums go out by rows:
the 32 rows `2 i + c`, over SparseCore `c` and subcore `i`, are pairwise disjoint and cover the array. -/

/-- A product over the SparseCores of the call's grid is the product over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The row of subcore `i` of SparseCore `c`, as a set of elements of the partial sums. -/
abbrev rowOf (ci : Fin 2 × Fin 16) : Finset S32x16.Idx := prowSet (wid ci.1 ci.2)

omit [FloatOps F] in
theorem prowSet_eq (r : Fin 32) : prowSet r = (prow r).set := by
  show ((View.whole (main_v1_scv : Ref sig .scVector)).slice (prow r)).set = _
  rw [View.set_slice]; exact Finset.map_refl

omit [FloatOps F] in
/-- Different (SparseCore, subcore) pairs own different rows: `2 i + c` determines `i` and `c < 2`. -/
theorem wid_injective : Function.Injective fun ci : Fin 2 × Fin 16 => wid ci.1 ci.2 := by
  rintro ⟨c, i⟩ ⟨c', i'⟩ h
  have hv : 2 * i.val + c.val = 2 * i'.val + c'.val := congrArg Fin.val h
  have hc := c.isLt; have hc' := c'.isLt
  exact Prod.ext (Fin.ext (by show c.val = c'.val; omega)) (Fin.ext (by show i.val = i'.val; omega))

omit [FloatOps F] in
theorem rows_disjoint : ∀ a ∈ (Finset.univ : Finset (Fin 2 × Fin 16)), ∀ b ∈ (Finset.univ : Finset (Fin 2 × Fin 16)), a ≠ b → Disjoint (rowOf a) (rowOf b) :=
  fun a _ b _ h => by
    show Disjoint (prowSet _) (prowSet _)
    rw [prowSet_eq, prowSet_eq]; exact Rect.part_disjoint hdiv32 fun e => h (wid_injective e)

omit [FloatOps F] in
/-- Every row `r` is the row of subcore `r / 2` of SparseCore `r % 2`. -/
theorem rows_cover : (Finset.univ : Finset (Fin 2 × Fin 16)).biUnion rowOf = Finset.univ := by
  refine Finset.eq_univ_iff_forall.mpr fun x => ?_
  obtain ⟨r, hr⟩ := Rect.exists_mem_part hdiv32 x
  have hr32 := r.isLt
  have hw : wid ⟨r.val % 2, Nat.mod_lt _ (by decide)⟩ ⟨r.val / 2, by omega⟩ = r := Fin.ext (by show 2 * (r.val / 2) + r.val % 2 = r.val; omega)
  refine Finset.mem_biUnion.mpr ⟨(⟨r.val % 2, Nat.mod_lt _ (by decide)⟩, ⟨r.val / 2, by omega⟩), Finset.mem_univ _, ?_⟩
  show x ∈ prowSet _
  rw [prowSet_eq, hw]; exact hr

omit [FloatOps F] in
/-- The partial sums whole are their 32 rows, by SparseCore and subcore. -/
theorem pPts_rows (d : Dev nD) (f : Buf (Elt F) (pLoc d)) :
    (pLoc d ↦{fullShare} f : sProp 𝕄)
      = bigSep Finset.univ fun c : Fin 2 => bigSep Finset.univ fun i : Fin 16 => pLoc d ↦[prowSet (wid c i)]{fullShare} f := by
  rw [← bigSep_univ_prod (fun ci : Fin 2 × Fin 16 => (pLoc d ↦[rowOf ci]{fullShare} f : sProp 𝕄)),
    ← pointsTo_biUnion Finset.univ (ℓ := pLoc d) rowOf rows_disjoint, rows_cover]; try rfl

omit [FloatOps F] in
/-- The table at the full share is the TensorCore's remainder and the two SparseCores' shares; -/
theorem xfPts_cores (d : Dev nD) (f : Buf (Elt F) (xfLoc d)) :
    (xfLoc d ↦{fullShare} f : sProp 𝕄)
      = iprop((xfLoc d ↦{shareDrop fullShare 2} f) ∗ bigSep Finset.univ fun c : Fin 2 => xfLoc d ↦{shareTok fullShare 2 c} f) :=
  BI.equiv_iff.mp ⟨(Transfers.pointsTo_toks fullShare 2).1, (Transfers.pointsTo_toks fullShare 2).2⟩

omit [FloatOps F] in
/-- a SparseCore's share is its own remainder and its sixteen subcores' shares. -/
theorem xfPts_tiles (d : Dev nD) (f : Buf (Elt F) (xfLoc d)) (c : Fin 2) :
    (xfLoc d ↦{shareTok fullShare 2 c} f : sProp 𝕄)
      = iprop((xfLoc d ↦{qxRest c} f) ∗ bigSep Finset.univ fun i : Fin 16 => xfLoc d ↦{qx c i} f) :=
  BI.equiv_iff.mp ⟨(Transfers.pointsTo_toks (shareTok fullShare 2 c) 16).1, (Transfers.pointsTo_toks (shareTok fullShare 2 c) 16).2⟩

/-- One SparseCore's resources from its share of the table and its sixteen rows, at the contents `f`. -/
theorem core_intro (d : Dev nD) (f : Buf (Elt F) (pLoc d)) (c : Fin 2) :
    iprop((xfLoc d ↦{shareTok fullShare 2 c} xf d) ∗ bigSep Finset.univ fun i : Fin 16 => pLoc d ↦[prowSet (wid c i)]{fullShare} f)
      ⊢ (coreRes xf d c : sProp 𝕄) := by
  rw [xfPts_tiles]; unfold coreRes tileRes
  iintro ⟨⟨Hr, Hts⟩, Hrows⟩
  isplitl [Hr]; · iexact Hr
  rw [bigSep_sep']
  isplitl [Hts]; · iexact Hts
  have hi : ∀ i : Fin 16, (pLoc d ↦[prowSet (wid c i)]{fullShare} f : sProp 𝕄) ⊢ iprop(∃ f, pLoc d ↦[prowSet (wid c i)]{fullShare} f) :=
    fun i => by iintro H; iexists f; iexact H
  have hm : (bigSep Finset.univ fun i : Fin 16 => (pLoc d ↦[prowSet (wid c i)]{fullShare} f : sProp 𝕄))
      ⊢ bigSep Finset.univ fun i : Fin 16 => (iprop(∃ f, pLoc d ↦[prowSet (wid c i)]{fullShare} f) : sProp 𝕄) :=
    bigSep_mono fun i _ => hi i
  iapply hm; iexact Hrows

/-- and back: its share of the table, and each of its rows at some contents. -/
theorem core_elim (d : Dev nD) (c : Fin 2) :
    (coreRes xf d c : sProp 𝕄)
      ⊢ iprop((xfLoc d ↦{shareTok fullShare 2 c} xf d) ∗ bigSep Finset.univ fun i : Fin 16 => iprop(∃ f, pLoc d ↦[prowSet (wid c i)]{fullShare} f)) := by
  rw [xfPts_tiles]; unfold coreRes tileRes
  rw [bigSep_sep']
  iintro ⟨Hr, Hts, Hrows⟩
  isplitl [Hr Hts]
  · isplitl [Hr]; · iexact Hr
    iexact Hts
  · iexact Hrows

/-- Rows held each at some contents are the array whole at some contents. -/
theorem rows_join (d : Dev nD) :
    (bigSep Finset.univ fun c : Fin 2 => bigSep Finset.univ fun i : Fin 16 => iprop(∃ f, pLoc d ↦[prowSet (wid c i)]{fullShare} f))
      ⊢ (iprop(∃ f : Buf (Elt F) (pLoc d), pLoc d ↦{fullShare} f) : sProp 𝕄) := by
  rw [← bigSep_univ_prod (fun ci : Fin 2 × Fin 16 => (iprop(∃ f : Buf (Elt F) (pLoc d), pLoc d ↦[rowOf ci]{fullShare} f) : sProp 𝕄))]
  refine (bigSep_exists_pi Finset.univ (fun ci (f : Buf (Elt F) (pLoc d)) => (pLoc d ↦[rowOf ci]{fullShare} f : sProp 𝕄))).trans ?_
  iintro ⟨%fs, H⟩
  ihave H' := (pointsTo_biUnion_join Finset.univ rowOf fs (fs (0, 0)) rows_disjoint) $$ H
  icases H' with ⟨%g, -, Hg⟩
  rw [rows_cover]
  iexists g; iexact Hg

/-- The call takes the table and the partial sums whole and hands each SparseCore its part; the TensorCore keeps the
    remainder of the table's share. -/
theorem st_intro (d : Dev nD) (f : Buf (Elt F) (pLoc d)) :
    iprop((xfLoc d ↦{fullShare} xf d) ∗ (pLoc d ↦{fullShare} f))
      ⊢ (iprop((xfLoc d ↦{shareDrop fullShare 2} xf d) ∗ bigSep Finset.univ fun c : Fin ((K (F := F)).nCore 0) => (P xf).st 0 d c) : sProp 𝕄) := by
  show _ ⊢ iprop(_ ∗ bigSep Finset.univ fun c : Fin ((K (F := F)).nCore 0) => coreRes xf d (Fin.cast nCore_zero c))
  rw [bigSep_cores (F := F) (fun c => coreRes xf d c), xfPts_cores, pPts_rows]
  iintro ⟨⟨Hd, Hts⟩, Hrows⟩
  isplitl [Hd]; · iexact Hd
  ihave H := (Entails.of_eq (bigSep_sep' (Finset.univ : Finset (Fin 2)) (fun c => (xfLoc d ↦{shareTok fullShare 2 c} xf d : sProp 𝕄))
      (fun c => bigSep Finset.univ fun i : Fin 16 => (pLoc d ↦[prowSet (wid c i)]{fullShare} f : sProp 𝕄))).symm) $$ [Hts Hrows]
  · isplitl [Hts]; · iexact Hts
    iexact Hrows
  have hm : (bigSep Finset.univ fun c : Fin 2 => (iprop((xfLoc d ↦{shareTok fullShare 2 c} xf d)
        ∗ bigSep Finset.univ fun i : Fin 16 => pLoc d ↦[prowSet (wid c i)]{fullShare} f) : sProp 𝕄))
      ⊢ bigSep Finset.univ fun c : Fin 2 => (coreRes xf d c : sProp 𝕄) := bigSep_mono fun c _ => core_intro xf d f c
  iapply hm; iexact H

/-- What the SparseCores hand back with the TensorCore's remainder is the table whole, unchanged, and the partial sums
    whole at some contents. -/
theorem dn_elim (d : Dev nD) :
    (iprop((xfLoc d ↦{shareDrop fullShare 2} xf d) ∗ bigSep Finset.univ fun c : Fin ((K (F := F)).nCore 0) => (P xf).dn 0 d c) : sProp 𝕄)
      ⊢ iprop((xfLoc d ↦{fullShare} xf d) ∗ ∃ f : Buf (Elt F) (pLoc d), pLoc d ↦{fullShare} f) := by
  show iprop(_ ∗ bigSep Finset.univ fun c : Fin ((K (F := F)).nCore 0) => coreRes xf d (Fin.cast nCore_zero c)) ⊢ _
  rw [bigSep_cores (F := F) (fun c => coreRes xf d c), xfPts_cores (f := xf d)]
  iintro ⟨Hd, Hcs⟩
  have hm : (bigSep Finset.univ fun c : Fin 2 => (coreRes xf d c : sProp 𝕄))
      ⊢ bigSep Finset.univ fun c : Fin 2 => (iprop((xfLoc d ↦{shareTok fullShare 2 c} xf d)
        ∗ bigSep Finset.univ fun i : Fin 16 => iprop(∃ f, pLoc d ↦[prowSet (wid c i)]{fullShare} f)) : sProp 𝕄) :=
    bigSep_mono fun c _ => core_elim xf d c
  ihave H := hm $$ Hcs
  ihave H' := (Entails.of_eq (bigSep_sep' (Finset.univ : Finset (Fin 2)) (fun c => (xfLoc d ↦{shareTok fullShare 2 c} xf d : sProp 𝕄))
      (fun c => bigSep Finset.univ fun i : Fin 16 => (iprop(∃ f, pLoc d ↦[prowSet (wid c i)]{fullShare} f) : sProp 𝕄)))) $$ H
  icases H' with ⟨Hts, Hrows⟩
  isplitl [Hd Hts]
  · isplitl [Hd]; · iexact Hd
    iexact Hts
  · iapply (rows_join d); iexact Hrows

end Cert.Proof.KB

end
-- ==== Proof.KBCall.lean ====
/-
  The head of @main on the TensorCore: the host reshape, then the one SparseCore call.

  The reshape writes the flattened table and touches nothing else, so the TensorCore's unscoped buffers pass from the
  launch contents to the same with the flattened table at the reshaped table. The call takes the flattened table and
  the partial sums out of those buffers, hands them to the two SparseCores (the table by read shares, the partial sums
  by rows), and puts back what they return: the flattened table unchanged and the partial sums at some contents.
-/
import proofs.«209474_g91096256348957_cont_sun_m_1209_13_alg».proof.Proof.KBVals
import proofs.«209474_g91096256348957_cont_sun_m_1209_13_alg».proof.Proof.KBSplit

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ)

/-! ## The reshape -/

/-- The reshape names two of the TensorCore's unscoped buffers. -/
theorem opR_sub : (opR (F := F)).bufs ⊆ Pipeline.ucRefs τ sig :=
  Pipeline.sub_ucRefs _ (StableHlo.reshape_bufs_sub _ _ _ _ _ _)

/-- What the reshape leaves in each of the TensorCore's buffers: the reshaped table in the flattened table, every other
    buffer as launched. -/
theorem res_eq (d : Dev nD) (b : Ref sig .tc) :
    (opR (F := F)).result (V0 m d) (Proc.devRef .tc b) = VA m (xfOf m) (pv0 m) d b := by
  by_cases h0 : b = main_v0
  · subst h0; exact (VA_v0 m (xfOf m) (pv0 m) d).symm
  · have e : (opR (F := F)).result (V0 m d) (Proc.devRef .tc b) = V0 m d (Proc.devRef .tc b) :=
      StableHlo.reshape_result_ne _ _ _ _ _ _ (V0 m d) h0
    rw [e]
    by_cases h1 : b = main_v1
    · subst h1; exact (VA_v1 m (xfOf m) (pv0 m) d).symm
    · exact (VA_arg m (xfOf m) (pv0 m) d b h0 h1).symm

theorem unscopedBufs_res (d : Dev nD) :
    (unscopedBufs d (VA m (xfOf m) (pv0 m) d) : sProp 𝕄)
      = held (SparseCore.T d) (Pipeline.ucRefs τ sig) ((opR (F := F)).result (V0 m d)) :=
  (congrArg (fun W => (unscopedBufs d W : sProp 𝕄)) (funext fun b => (res_eq m d b).symm)).trans
    (Pipeline.unscopedBufs_held d ((opR (F := F)).result (V0 m d)))

/-- The reshape, from the TensorCore's unscoped buffers as launched to the same with the flattened table written. -/
theorem wp_reshape (d : Dev nD) (Φ : PUnit → sProp 𝕄) :
    iprop(boundary (SparseCore.T d) ∗ unscopedBufs d (fun b => m ((SparseCore.T d).loc b))
        ∗ (iprop(boundary (SparseCore.T d) ∗ unscopedBufs d (VA m (xfOf m) (pv0 m) d)) -∗ Φ ⟨⟩))
      ⊢ wp frame (wpE ((K (F := F)).defs (D (F := F))) 𝒱 (SparseCore.T d) none) Set.univ (hlo rfl (opR (F := F)) (fun _ => .ret ⟨⟩)) Φ := by
  rw [show (unscopedBufs d (fun b => m ((SparseCore.T d).loc b)) : sProp 𝕄) = held (SparseCore.T d) (Pipeline.ucRefs τ sig) (V0 m d) from
      Pipeline.unscopedBufs_held d (V0 m d), unscopedBufs_res m d]
  iintro ⟨Hb, Hheld, Hk⟩
  iapply (wp_hlo_within 𝒱 (SparseCore.T d) none Set.univ (op := opR (F := F)) (S := Pipeline.ucRefs τ sig) (opR_sub (F := F)) (V := V0 m d)) $$ [Hb Hheld]
  · isplitl [Hb]; · iexact Hb
    iexact Hheld
  iintro ⟨Hb, Hheld⟩
  rw [wp_ret]; imodintro
  iapply Hk
  isplitl [Hb]; · iexact Hb
  iexact Hheld

/-! ## The call -/

/-- The TensorCore's unscoped references. -/
abbrev UB : Finset (Ref sig .tc) := Finset.univ.filter fun b : Ref sig .tc => ¬ b.isScoped

omit [FloatOps F] in
/-- The unscoped buffers are the flattened table, the partial sums and the other seven. -/
theorem unscopedBufs_two (d : Dev nD) (W : (b : Ref sig .tc) → Buf (Elt F) ((d.tc : Thread nD τ).loc b)) :
    (unscopedBufs d W : sProp 𝕄)
      = iprop((xfLoc d ↦{fullShare} W main_v0) ∗ (pLoc d ↦{fullShare} W main_v1)
          ∗ bigSep ((UB.erase main_v0).erase main_v1) fun b => ((d.tc : Thread nD τ).loc b) ↦{fullShare} W b) := by
  unfold unscopedBufs
  rw [SparseCore.bigSep_erase' (i := main_v0) (by decide), SparseCore.bigSep_erase' (i := main_v1) (by decide)]

/-- The other seven are as launched whatever the partial sums hold. -/
theorem rest_congr (d : Dev nD) (pv pv' : (c : Dev nD) → Buf (Elt F) (pLoc c)) :
    (bigSep ((UB.erase main_v0).erase main_v1) fun b => (((d.tc : Thread nD τ).loc b) ↦{fullShare} VA m (xfOf m) pv d b : sProp 𝕄))
      = bigSep ((UB.erase main_v0).erase main_v1) fun b => ((d.tc : Thread nD τ).loc b) ↦{fullShare} VA m (xfOf m) pv' d b :=
  bigSep_congr fun b hb => by
    have h1 : b ≠ main_v1 := (Finset.mem_erase.mp hb).1
    have h0 : b ≠ main_v0 := (Finset.mem_erase.mp (Finset.mem_erase.mp hb).2).1
    rw [VA_arg m _ _ d b h0 h1, VA_arg m _ _ d b h0 h1]

/-- The SparseCore call on the TensorCore: from its handshake state before the call and its unscoped buffers with the
    flattened table written, to its state after the call and the same buffers with the partial sums at some contents. -/
theorem wp_call (κ : GSem nD τ sig → ℕ) (d : Dev nD) (Φ : PUnit → sProp 𝕄) :
    iprop((K (F := F)).ctx EH (P (xfOf m)) κ ∗ (K (F := F)).tcSt EH d 0 ∗ unscopedBufs d (VA m (xfOf m) (pv0 m) d)
        ∗ (∀ p : Buf (Elt F) (pLoc d), iprop((K (F := F)).tcSt EH d 1 ∗ unscopedBufs d (VA m (xfOf m) (pvOf d p) d)) -∗ Φ ⟨⟩))
      ⊢ wp frame (wpE ((K (F := F)).defs (D (F := F))) 𝒱 (SparseCore.T d) none) Set.univ ((K (F := F)).run d 0) Φ := by
  rw [unscopedBufs_two d (VA m (xfOf m) (pv0 m) d), VA_v0, VA_v1]
  iintro ⟨#Hctx, Hst, ⟨Hx, Hp, Hrest⟩, Hk⟩
  ihave H := (st_intro (xfOf m) d (pv0 m d)) $$ [Hx Hp]
  · isplitl [Hx]; · iexact Hx
    iexact Hp
  icases H with ⟨Hd, Hsts⟩
  iapply ((K (F := F)).wp_run (D (F := F)) 𝒱 (EH := EH) (P := P (xfOf m)) κ d 0) $$ [Hst Hsts Hd Hrest Hk]
  isplitr; · iexact Hctx
  isplitl [Hst]; · iexact Hst
  isplitl [Hsts]; · iexact Hsts
  iintro ⟨Hst, Hdn⟩
  ihave H := (dn_elim (xfOf m) d) $$ [Hd Hdn]
  · isplitl [Hd]; · iexact Hd
    iexact Hdn
  icases H with ⟨Hx, %p, Hp⟩
  iapply Hk $$ %p
  isplitl [Hst]; · iexact Hst
  rw [unscopedBufs_two d (VA m (xfOf m) (pvOf d p) d), VA_v0, VA_v1, pvOf_self, rest_congr m d (pvOf d p) (pv0 m)]
  isplitl [Hx]; · iexact Hx
  isplitl [Hp]; · iexact Hp
  iexact Hrest

end Cert.Proof.KB

end
-- ==== Proof.KBTcSt.lean ====
/-
  The TensorCore's handshake state once the one SparseCore call is over, in two parts: that it owes nothing, its recorded
  waits at or below the call's last handshake; and the rest — its position on its own cell after one round, that round
  reached, every sequencer's next round reached, and the tokens and credit of later calls (there is none).
-/
import proofs.«209474_g91096256348957_cont_sun_m_1209_13_alg».proof.Proof.KBRegs

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore's state after the call, less what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing: its state is that fact and the rest. -/
theorem tcSt_one (d : Dev nD) : (K (F := F)).tcSt EH d 1 ⊣⊢ iprop(owesT (F := F) d ∗ tcRest (F := F) d) := by
  unfold SparseCore.Cfg.tcSt owesT tcRest
  rw [(K (F := F)).Otc_end d (le_refl 1)]

end Cert.Proof.KB

end
-- ==== Proof.KBFin.lean ====
/-
  The end of the run: what the TensorCore of a device holds when @main has ended, and how the claim is read off it.

  At the end every unscoped buffer of the TensorCore is held whole: the result array at the three result words (for
  the contents, whatever they are, that the SparseCore call left in the partial sums), the one-word array at the
  running word after five blocks, the flattened table, the partial sums, and the five arguments at their launch
  contents. A buffer held whole pins the physical memory's contents of that buffer, so the final memory has the result
  array at the three result words and every argument unchanged.
-/
import proofs.«209474_g91096256348957_cont_sun_m_1209_13_alg».proof.Proof.KBVals

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- What device `d`'s TensorCore holds at the end: its unscoped buffers, whole, at the final contents, for some
    contents `p` of the partial sums. -/
def FIN (d : Dev nD) : sProp 𝕄 :=
  iprop(∃ p : Buf (Elt F) (pLoc d), unscopedBufs d (VC m (xfOf m) (pvOf d p) d))

/-- What the final memory of device `d` must satisfy: the result array holds the three result words for some
    partial sums, and the five arguments are as launched. -/
def fq (d : Dev nD) (s' : Phys nD τ sig (Elt F)) : Prop :=
  (∃ p : Vec F S32x16 .f32,
      s'.mem.mem ((SparseCore.T d).loc main_v3) = Spec.result p (Spec.acc (tbl m d) 5) (gv m d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

/-- The claim's post, per device. -/
def QC : PUnit × MemSt nD τ sig (Elt F) → Prop := fun r => ∀ c : Dev nD,
  (∃ p : Vec F S32x16 .f32,
      r.2.mem ((c.tc : Thread nD τ).loc main_v3) = Spec.result p (Spec.acc (tbl m c) 5) (gv m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

omit [FloatOps F] in
/-- An unscoped buffer held whole pins the physical memory's contents of that buffer. -/
theorem agree_at (d : Dev nD) (W : (b : Ref sig .tc) → Buf (Elt F) ((d.tc : Thread nD τ).loc b)) (b : Ref sig .tc)
    (hb : ¬ b.isScoped) (s' : Phys nD τ sig (Elt F)) :
    iprop(unscopedBufs d W ∗ SI s') ⊢ (⌜s'.mem.mem ((d.tc : Thread nD τ).loc b) = W b⌝ : sProp 𝕄) := by
  have h1 : (unscopedBufs d W : sProp 𝕄) ⊢ ((d.tc : Thread nD τ).loc b ↦{fullShare} W b) := by
    unfold unscopedBufs; exact bigSep_elim (i := b) (s := Finset.univ.filter fun b : Ref sig .tc => ¬ b.isScoped)
      (Finset.mem_filter.mpr ⟨Finset.mem_univ b, hb⟩)
  iintro ⟨Hb, HSI⟩
  ihave Hx := h1 $$ Hb
  ihave H := (SI_pointsTo_agree (st := s') (ℓ := (d.tc : Thread nD τ).loc b) (I := Finset.univ) (q := fullShare) (f := W b)) $$ [HSI Hx]
  · isplitl [HSI] <;> iassumption
  icases H with %hx
  ipureintro; exact funext fun i => hx i (Finset.mem_univ i)

omit [FloatOps F] in
/-- Two pure consequences of one assertion hold together. -/
theorem pure_both {X : sProp 𝕄} {φ ψ : Prop} (h : X ⊢ (⌜φ⌝ : sProp 𝕄)) (h' : X ⊢ (⌜ψ⌝ : sProp 𝕄)) :
    X ⊢ (⌜φ ∧ ψ⌝ : sProp 𝕄) :=
  (Laws.and_intro h h').trans Laws.pure_and.1

/-- The final contents at the result array and at an argument. -/
theorem VC_arg (xf : (d : Dev nD) → Buf (Elt F) (xfLoc d)) (pv : (d : Dev nD) → Buf (Elt F) (pLoc d)) (c : Dev nD)
    (b : Ref sig .tc) (h0 : b ≠ main_v0) (h1 : b ≠ main_v1) (h2 : b ≠ main_v2) (h3 : b ≠ main_v3) :
    VC m xf pv c b = m ((c : Thread nD τ).loc b) := by
  rw [VC_ne m xf pv c b h3, VB_ne m xf pv c b h2, VA_arg m xf pv c b h0 h1]

/-- The final memory of a device satisfies the claim's post there. -/
theorem hfin (d : Dev nD) (s' : Phys nD τ sig (Elt F)) : iprop(FIN m d ∗ SI s') ⊢ (⌜fq m d s'⌝ : sProp 𝕄) := by
  have key : ∀ p : Buf (Elt F) (pLoc d), iprop(unscopedBufs d (VC m (xfOf m) (pvOf d p) d) ∗ SI s') ⊢ (⌜fq m d s'⌝ : sProp 𝕄) := fun p =>
    (pure_both (agree_at d _ main_v3 (by decide) s')
      (pure_both (agree_at d _ main_arg0 (by decide) s')
        (pure_both (agree_at d _ main_arg1 (by decide) s')
          (pure_both (agree_at d _ main_arg2 (by decide) s')
            (pure_both (agree_at d _ main_arg3 (by decide) s') (agree_at d _ main_arg4 (by decide) s')))))).trans
      (Laws.pure_mono fun ⟨h3, h0, h1, h2, h3', h4⟩ =>
        ⟨⟨p, h3.trans (VC_v3 m (xfOf m) (pvOf d p) d)⟩,
          h0.trans (VC_arg m _ _ d main_arg0 (by decide) (by decide) (by decide) (by decide)),
          h1.trans (VC_arg m _ _ d main_arg1 (by decide) (by decide) (by decide) (by decide)),
          h2.trans (VC_arg m _ _ d main_arg2 (by decide) (by decide) (by decide) (by decide)),
          h3'.trans (VC_arg m _ _ d main_arg3 (by decide) (by decide) (by decide) (by decide)),
          h4.trans (VC_arg m _ _ d main_arg4 (by decide) (by decide) (by decide) (by decide))⟩)
  unfold FIN
  iintro ⟨HF, HSI⟩
  icases HF with ⟨%p, Hb⟩
  iapply (key p)
  isplitl [Hb] <;> iassumption

/-- Every device's final memory satisfying the post is the claim's post. -/
theorem hQ : ∀ s' : Phys nD τ sig (Elt F), (∀ d, fq m d s') → QC m (⟨⟩, s'.mem) := fun _ h c => h c

end Cert.Proof.KB

end
-- ==== Proof.KBTile.lean ====
/-
  The task of one vector subcore, proved once at a symbolic subcore.

  Subcore (L 0, L 1) copies two 640-word pieces of the flattened table into its two scratch buffers (one copy per
  semaphore, both outstanding together), waits for the first, reads the first scratch in a counted loop of loads, waits
  for the second, reads the second scratch likewise, stores sixteen words into its third scratch and copies that scratch
  into row 2 (L 1) + (L 0) of the partial sums on its scoped semaphore, waiting for the copy. Only the frame is stated:
  the read share of the table comes back as it was, the row at some contents, the scratches and the three semaphores as
  the subcore's scoped storage was handed over.
-/
import proofs.«209474_g91096256348957_cont_sun_m_1209_13_alg».proof.Proof.KBSetup
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

variable [FloatOps F] (xf : (d : Dev nD) → Buf (Elt F) (xfLoc d))

section Tile

variable (d : Dev nD) (L : grid0.Coords)

/-- The SparseCore and the subcore the grid point names, as the device numbers them and as the payloads do. -/
abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- A subcore's three scratch buffers. -/
abbrev s0 : Memref sig .scVector .vmem S640 .f32 := Memref.whole cc0_scratch0
abbrev s1 : Memref sig .scVector .vmem S640 .f32 := Memref.whole cc0_scratch1
abbrev s2 : Memref sig .scVector .vmem S16 .f32 := Memref.whole cc0_scratch2

/-- The row of the partial sums the subcore addresses, as the program slices and squeezes it. -/
abbrev rowK (L : grid0.Coords) : Rect S32x16 := Rect.unit (s := S32x16) (k0_off5 L) S1x16.size (k0_off5_inb L)
abbrev pRowK (L : grid0.Coords) : Memref sig .scVector .hbm S16 .f32 :=
  ((pV : Memref sig .scVector .hbm S32x16 .f32).slice (rowK L) (fun _ => rfl)).squeeze S16 squeezes_S1x16_S16

omit [FloatOps F] in
/-- That rectangle is row 2 (L 1) + (L 0) of the 32 rows. -/
theorem rowK_eq : rowK L = prow (wid (cL L) (jL L)) := by
  unfold rowK prow Rect.part Rect.block
  congr 1 <;> funext a
  · rw [k0_off5_eq]
    match a with
    | 0 => simp [Shape.partIx, Shape.partSize, wid]
    | 1 => simp [Shape.partIx, Shape.partSize]
  · match a with
    | 0 => simp [Shape.partSize]
    | 1 => simp [Shape.partSize]

omit [FloatOps F] in
theorem set_pRowK : (pRowK L).view.set = prowSet (wid (cL L) (jL L)) := by
  show (((pV : Memref sig .scVector .hbm S32x16 .f32).view.slice (rowK L)).reshape S16 squeezes_S1x16_S16.numel_eq).set
    = ((pV : Memref sig .scVector .hbm S32x16 .f32).view.slice (prow (wid (cL L) (jL L)))).set
  rw [View.set_reshape]
  exact rowK_eq L ▸ rfl

omit [FloatOps F] in
theorem pts_pRowK (f : Buf (Elt F) (pLoc d)) :
    ((pRowK L).view.loc (V d (cV L) (jV L)) ↦[(pRowK L).view.set]{fullShare} f : sProp 𝕄) = pLoc d ↦[prowSet (wid (cL L) (jL L))]{fullShare} f := by
  rw [set_pRowK]
omit [FloatOps F] in
theorem pts_xf (q : PosShare TreeShare) (f : Buf (Elt F) (xfLoc d)) :
    ((xfV : Memref sig .scVector .hbm S1280000 .f32).view.loc (V d (cV L) (jV L)) ↦{q} f : sProp 𝕄) = xfLoc d ↦{q} f := rfl
omit [FloatOps F] in
theorem pts_s0 (f : Buf (Elt F) ((V d (cV L) (jV L)).loc cc0_scratch0)) :
    ((s0 : Memref sig .scVector .vmem S640 .f32).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1 : Memref sig .scVector .vmem S640 .f32).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2 : Memref sig .scVector .vmem S16 .f32).view.loc (V d (cV L) (jV L)) ↦{fullShare} f : sProp 𝕄) = (V d (cV L) (jV L)).loc cc0_scratch2 ↦{fullShare} f := rfl

/-- The subcore's three semaphores as cells. -/
abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
/-- The three semaphores are among the subcore's own: at zero they are these three and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What the two counted loops carry: ten vectors of sixteen words. -/
abbrev Acc (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32

/-- The loops only load from a scratch buffer: before every trip, whatever is carried, the scratch is held whole at some
    contents. -/
def inv0 (_ : Nat) (_ : Acc F) : sProp 𝕄 :=
  iprop(∃ f, (s0 : Memref sig .scVector .vmem S640 .f32).view.loc (V d (cV L) (jV L)) ↦{fullShare} f)
def inv1 (_ : Nat) (_ : Acc F) : sProp 𝕄 :=
  iprop(∃ f, (s1 : Memref sig .scVector .vmem S640 .f32).view.loc (V d (cV L) (jV L)) ↦{fullShare} f)

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes xf d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_sumsq_body L xfV (Memref.isWhole_whole _) pV (Memref.isWhole_whole _)
            s0 (Memref.isWhole_whole _) s1 (Memref.isWhole_whole _) s2 (Memref.isWhole_whole _) cc0_scratch3 cc0_scratch4 cc0_scoped0)
          fun _ => iprop(tileRes xf d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_sumsq_body_eq_skeleton]; unfold cc0__sc_sumsq_body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hx, %fp, Hp⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hx' := (Entails.of_eq (pts_xf (F := F) d L _ _).symm) $$ Hx
  ihave Hp' := (Entails.of_eq (pts_pRowK (F := F) d L _).symm) $$ Hp
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two copies out of the table are started, one per semaphore, and the first is waited for: the first scratch is
  -- held again, the second copy still outstanding
  sl_exec
  -- the first loop only loads from the first scratch
  sl_for (inv0 (F := F) d L) $$ [Hs0']
  case region =>
    intro k acc
    obtain ⟨a0, a1, a2, a3, a4, a5, a6, a7, a8, a9⟩ := acc
    unfold inv0
    iintro ⟨%f, Hs⟩
    sl_exec
    sl_step
    iexists _; iexact Hs
  · unfold inv0; iexists _; iexact Hs0'
  iintro %acc HI
  unfold inv0
  icases HI with ⟨%f0', Hs0⟩
  -- the second copy is waited for: the table's share is whole again; the second loop only loads from the second scratch
  sl_exec
  sl_for (inv1 (F := F) d L) $$ [Hs1']
  case region =>
    intro k acc
    obtain ⟨a0, a1, a2, a3, a4, a5, a6, a7, a8, a9⟩ := acc
    unfold inv1
    iintro ⟨%f, Hs⟩
    sl_exec
    sl_step
    iexists _; iexact Hs
  · unfold inv1; iexists _; iexact Hs1'
  iintro %acc' HI
  unfold inv1
  icases HI with ⟨%f1', Hs1⟩
  -- the third scratch is loaded and stored, copied into the subcore's row on the scoped semaphore, and the copy waited for
  sl_exec
  sl_step
  -- everything is held again: the share of the table as it was, the row and the scratches at what they now hold, the
  -- three semaphores at zero; the three waits recorded are the task's own
  isplitl [Hx' Hp']
  · isplitl [Hx']
    · iapply (Entails.of_eq (pts_xf (F := F) d L _ _)); iexact Hx'
    · iexists _; iapply (Entails.of_eq (pts_pRowK (F := F) d L _)); iexact Hp'
  isplitl [Hs0 Hs1 Hs2' Hbufs]
  · isplitl [Hs0]
    · iexists _; iapply (Entails.of_eq (pts_s0 (F := F) d L _)); iexact Hs0
    isplitl [Hs1]
    · iexists _; iapply (Entails.of_eq (pts_s1 (F := F) d L _)); iexact Hs1
    isplitl [Hs2']
    · iexists _; iapply (Entails.of_eq (pts_s2 (F := F) d L _)); iexact Hs2'
    · iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1))
    (insert (SemLoc.dma cc0_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

/-! ## The launch theorem's obligation for the kernel -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_sumsq_body (coordsV c s)
          xfV (Memref.isWhole_whole _) pV (Memref.isWhole_whole _)
          s0 (Memref.isWhole_whole _) s1 (Memref.isWhole_whole _) s2 (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch theorem's obligation: from its share of the table and its row, with its
    scoped storage, to the same back. -/
theorem tileObl : (K (F := F)).TileObl (D (F := F)) 𝒱 (P xf) v₀ 0 := by
  intro d c i O W hO _ _
  -- the kernel owes nothing for a protocol of its own
  simp only [show (P xf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body xf d (coordsV ⟨_, hc.1⟩ ⟨_, hc.2⟩) facts O W hO).trans (wp_mono frame _ _ fun _ => obl_post)

end Cert.Proof.KB

end
-- ==== Proof.KBMain.lean ====
/-
  @main on the TensorCore, and the run of the whole program.

  @main is four statements: the host reshape of the table, the call of the SparseCore kernel, and the two TensorCore
  kernels. The first two leave the flattened table in place and the partial sums at contents `p` the proof does not
  name; kernel 1 leaves the running word after five blocks; kernel 2 leaves the three result words. Each TensorCore
  kernel is entered by the region rule of the pipeline library, lifted to the SparseCore program's body table, from the
  staging cells' ghost state the launch funded.
-/
import proofs.«209474_g91096256348957_cont_sun_m_1209_13_alg».proof.Proof.KBRegs
import proofs.«209474_g91096256348957_cont_sun_m_1209_13_alg».proof.Proof.KBLaunchElem
import proofs.«209474_g91096256348957_cont_sun_m_1209_13_alg».proof.Proof.KBCall
import proofs.«209474_g91096256348957_cont_sun_m_1209_13_alg».proof.Proof.KBTcSt
import proofs.«209474_g91096256348957_cont_sun_m_1209_13_alg».proof.Proof.KBFin
import proofs.«209474_g91096256348957_cont_sun_m_1209_13_alg».proof.Proof.KBTile
import proofs.«209474_g91096256348957_cont_sun_m_1209_13_alg».proof.Proof.KBSplit

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)
variable (xf : (d : Dev nD) → Buf (Elt F) (xfLoc d)) (pv : (d : Dev nD) → Buf (Elt F) (pLoc d))
variable (ρ : Dev nD → PrngReg)

omit [FloatOps F] in
/-- A TensorCore kernel's call, as @main spells it, is the call in the kernels' own signature, lifted. -/
theorem call_eq (p : Fin 2) :
    (Prog.lift (.customCall (SparseCore.inner (Pipeline.entry p)) ()) : Prog (TpuEff nD τ sig (Elt F) (SparseCore.Sig (ΛP (F := F)) 1) .tc) PUnit)
      = SparseCore.liftProg (Q := 1) (.op (.customCall (Pipeline.entry p) ()) fun _ => .ret ⟨⟩) := rfl

/-- A TensorCore kernel's region in the kernels' own body table: the region rule of the pipeline library. -/
theorem wp_region₀ (p : Fin 2) (R : RS m xf pv p) (d : Dev nD) (Φ : PUnit → sProp 𝕄) :
    iprop(boundary (SparseCore.T d) ∗ R.pre d ∗ levAts (LL (F := F)) (lvv (F := F))
        ∗ Pipeline.cellsGhost (Pipeline.pin (pcfgs (F := F)) adm) EP p d ∗ Pipeline.toksInit (Pipeline.pin (pcfgs (F := F)) adm) EP p d
        ∗ (iprop(boundary (SparseCore.T d) ∗ R.post d) -∗ Φ ⟨⟩))
      ⊢ wp frame (wpE (D (F := F)) 𝒱 (SparseCore.T d) none) Set.univ
          (.op (.customCall (Pipeline.entry p) ()) fun _ => .ret ⟨⟩) Φ := by
  iintro ⟨Hb, Hpre, Hlev, Hg, Ht, Hk⟩
  iapply (Pipeline.RegionSeg.wp (pcfgs (F := F)) adm (pdats m xf pv) (none : HIx 1) cellOf_inj' EP defs₀ 𝒱₀ (LL (F := F)) (lvv (F := F)) R d none
    (fun _ h => nomatch h) (fun _ => .ret ⟨⟩) Φ)
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-- The same inside the SparseCore program: lifted to the extended body table. -/
theorem wp_region (p : Fin 2) (R : RS m xf pv p) (d : Dev nD) (Φ : PUnit → sProp 𝕄) :
    iprop(boundary (SparseCore.T d) ∗ R.pre d ∗ levAts (LL (F := F)) (lvv (F := F))
        ∗ Pipeline.cellsGhost (Pipeline.pin (pcfgs (F := F)) adm) EP p d ∗ Pipeline.toksInit (Pipeline.pin (pcfgs (F := F)) adm) EP p d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  rw [call_eq]
  exact (wp_region₀ m xf pv p R d Φ).trans ((K (F := F)).wp_liftProg (D (F := F)) 𝒱 (SparseCore.T d) Set.univ none _ Φ)

/-- Kernel 1's call, from the buffers at VA to the buffers at VB. -/
theorem wp_kernel1 (d : Dev nD) (Φ : PUnit → sProp 𝕄) :
    iprop(boundary (SparseCore.T d) ∗ iprop(unscopedBufs d (VA m xf pv d) ∗ rideT (F := F) ρ d) ∗ levAts (LL (F := F)) (lvv (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ iprop(unscopedBufs d (VB m xf pv d) ∗ rideT (F := F) ρ d)) -∗ Φ ⟨⟩))
      ⊢ wp frame (wpE ((K (F := F)).defs (D (F := F))) 𝒱 (SparseCore.T d) none) Set.univ
          (Prog.lift (.customCall (SparseCore.inner (Pipeline.entry 0)) ())) Φ :=
  wp_region m xf pv 0 (reg1 m xf pv ρ) d Φ

/-- Kernel 2's call, from the buffers at VB to the buffers at VC. -/
theorem wp_kernel2 (d : Dev nD) (Φ : PUnit → sProp 𝕄) :
    iprop(boundary (SparseCore.T d) ∗ iprop(unscopedBufs d (VB m xf pv d) ∗ rideT (F := F) ρ d) ∗ levAts (LL (F := F)) (lvv (F := F))
        ∗ Pipeline.cellsGhost (Pipeline.pin (pcfgs (F := F)) adm) EP 1 d ∗ Pipeline.toksInit (Pipeline.pin (pcfgs (F := F)) adm) EP 1 d
        ∗ (iprop(boundary (SparseCore.T d) ∗ iprop(unscopedBufs d (VC m xf pv d) ∗ rideT (F := F) ρ d)) -∗ Φ ⟨⟩))
      ⊢ wp frame (wpE ((K (F := F)).defs (D (F := F))) 𝒱 (SparseCore.T d) none) Set.univ
          (Prog.lift (.customCall (SparseCore.inner (Pipeline.entry 1)) ())) Φ :=
  wp_region m xf pv 1 (reg2 m xf pv ρ) d Φ

/-- @main on device `d`'s TensorCore. -/
theorem hmain (κ : GSem nD τ sig → ℕ) (d : Dev nD) :
    iprop((K (F := F)).ctx EH (P (xfOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, wp_bind, wp_pure]
  iintro ⟨#Hctx, Hst, ⟨Hb, Hbufs, Hsems, Hprng⟩, HG⟩
  ihave Hlev := (SparseCore.Cfg.ctx_levAts κ) $$ Hctx
  ihave HG' := (G_split d) $$ HG
  icases HG' with ⟨⟨Hg0, Ht0⟩, ⟨Hg1, Ht1⟩⟩
  -- the reshape
  iapply (wp_reshape m d _)
  isplitl [Hb]; · iexact Hb
  isplitl [Hbufs]; · iexact Hbufs
  iintro ⟨Hb, Hbufs⟩
  -- the SparseCore call
  iapply (wp_call m κ d _)
  isplitr; · iexact Hctx
  isplitl [Hst]; · iexact Hst
  isplitl [Hbufs]; · iexact Hbufs
  iintro %p ⟨Hst, Hbufs⟩
  ihave Hst' := (tcSt_one d).1 $$ Hst
  icases Hst' with ⟨HO, Hrest⟩
  -- kernel 1
  iapply (wp_kernel1 m (xfOf m) (pvOf d p) ρ d _)
  isplitl [Hb]; · iexact Hb
  isplitl [Hbufs Hsems Hprng HO]
  · unfold rideT
    isplitl [Hbufs]; · iexact Hbufs
    isplitl [Hsems]; · iexact Hsems
    isplitl [Hprng]; · iexact Hprng
    iexact HO
  isplitr; · iexact Hlev
  isplitl [Hg0]; · iexact Hg0
  isplitl [Ht0]; · iexact Ht0
  iintro ⟨Hb, Hpost⟩
  -- kernel 2
  iapply (wp_kernel2 m (xfOf m) (pvOf d p) ρ d _)
  isplitl [Hb]; · iexact Hb
  isplitl [Hpost]; · iexact Hpost
  isplitr; · iexact Hlev
  isplitl [Hg1]; · iexact Hg1
  isplitl [Ht1]; · iexact Ht1
  iintro ⟨Hb, Hpost⟩
  unfold rideT
  icases Hpost with ⟨Hbufs, -, -, HO⟩
  imodintro
  isplitl [HO Hrest]
  · iapply (tcSt_one d).2
    isplitl [HO]; · iexact HO
    iexact Hrest
  unfold FIN
  iexists p; iexact Hbufs

/-! ## The program's run -/

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (xfOf m)) facts v₀
    (fun q hq => match q with | 0 => nomatch hq)
    (fun q _ => match q with | 0 => tileObl (xfOf m))
    (fun q _ => match q with | 0 => SparseCore.Cfg.VecSplit.of_plain (vecSplit (xfOf m)))
    m ρ main (G (F := F)) (FIN m) (u₀ (F := F)) (hu₀ (xfOf m)) (hmain m ρ) (fq m) (hfin m) (QC m) (hQ m)

end Cert.Proof.KB

end
-- ==== Proof.KIClaims.lean ====
/-
  The claims, from the three runs.

  The kernel's run (at the ideal values, and at the machine's words) ends with the result array at the kernel's three
  words, for some contents of the partial sums, and the five arguments unchanged; the reference's run ends with its
  result at `refResult` of the table and g, its arguments unchanged. The kernel's three words are `refResult` of the
  same table and g whatever the partial sums are (they enter multiplied by zero), so from memories that agree on
  the arguments the two results are equal. Each frame is its run with the result dropped.
-/
import proofs.«209474_g91096256348957_cont_sun_m_1209_13_alg».proof.Defs
import proofs.«209474_g91096256348957_cont_sun_m_1209_13_alg».proof.Proof.KIMain
import proofs.«209474_g91096256348957_cont_sun_m_1209_13_alg».proof.Proof.KBMain
import proofs.«209474_g91096256348957_cont_sun_m_1209_13_alg».proof.Proof.RefSide
import proofs.«209474_g91096256348957_cont_sun_m_1209_13_alg».proof.Proof.Gen.Kernel
import proofs.«209474_g91096256348957_cont_sun_m_1209_13_alg».proof.Proof.Gen.KernelIdeal
import proofs.«209474_g91096256348957_cont_sun_m_1209_13_alg».proof.Proof.Gen.ReferenceIdeal
import proofs.«209474_g91096256348957_cont_sun_m_1209_13_alg».proof.Proof.Gen.Pre_input_domain

noncomputable section

namespace Cert.Proof.Claims

open Idealize.ShloMosaic Idealize.ShloMosaic.TcCoe Idealize.SL.Sem

/-- The kernel, read at the machine's words, runs and leaves its arguments unchanged. -/
theorem frame_k : Cert.frame_Kernel := fun m ρ _ =>
  (θ_run Cert.Kernel.defs _ _).mono (fun _ h c => (h c).2) (Cert.Proof.KB.run_main (F := Bits) m ρ)

/-- The kernel, read at the ideal values, runs and leaves its arguments unchanged. -/
theorem frame_ki : Cert.frame_KernelIdeal := fun m ρ _ =>
  (θ_run Cert.KernelIdeal.defs _ _).mono (fun _ h c => (h c).2) (Cert.Proof.KI.run_main (F := Ideal) m ρ)

/-- At the ideal values, from memories that agree on the arguments, the kernel and the reference both run, end with
    equal results and leave their arguments unchanged. -/
theorem algebraic : Cert.algebraic_KernelIdeal_ReferenceIdeal := by
  intro m ρ m' ρ' _ hagree
  refine ⟨fun c => Cert.Proof.RefSide.refResult
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3)), ?_, ?_⟩
  · refine (θ_run Cert.KernelIdeal.defs _ _).mono (fun _ h c => ?_) (Cert.Proof.KI.run_main (F := Ideal) m ρ)
    obtain ⟨⟨p, hp⟩, hargs⟩ := h c
    exact ⟨hp.trans (Cert.Proof.RefSide.result_eq_ref _ _ p), hargs⟩
  · refine (θ_run Cert.ReferenceIdeal.defs _ _).mono (fun _ h c => ⟨?_, (h c).2⟩) (Cert.Proof.RefSide.ref_run m' ρ')
    rw [(h c).1, (hagree c).1, (hagree c).2.2.2.1]

end Cert.Proof.Claims

end
-- ==== Proof.lean ====
/-
  The certificate's claim: the kernel and the reference compute the same three words.

  The kernel computes sqrt (0 * (a sum of 32 x 16 partial sums made on the SparseCores) + the sum, over five blocks of
  2000 rows, of the squares of the block's entries), g[1], g[2]; the reference computes sqrt (the sum of the squares of
  all 10000 x 128 entries), g[1], g[2]. On the extended reals 0 * v = 0 for every v and addition is commutative and
  associative, so the two first words are equal for every input, finite or not. Both programs terminate from every
  memory and leave their arguments unchanged; the kernel's idealization rewrote nothing.
-/
import proofs.«209474_g91096256348957_cont_sun_m_1209_13_alg».proof.Defs
import proofs.«209474_g91096256348957_cont_sun_m_1209_13_alg».proof.Proof.Gen.Kernel
import proofs.«209474_g91096256348957_cont_sun_m_1209_13_alg».proof.Proof.Gen.Kernel.Skeleton
import proofs.«209474_g91096256348957_cont_sun_m_1209_13_alg».proof.Proof.Gen.Kernel.Launch
import proofs.«209474_g91096256348957_cont_sun_m_1209_13_alg».proof.Proof.Gen.Kernel.Regions
import proofs.«209474_g91096256348957_cont_sun_m_1209_13_alg».proof.Proof.Gen.Kernel.Points
import proofs.«209474_g91096256348957_cont_sun_m_1209_13_alg».proof.Proof.Gen.KernelIdeal
import proofs.«209474_g91096256348957_cont_sun_m_1209_13_alg».proof.Proof.Gen.KernelIdeal.Skeleton
import proofs.«209474_g91096256348957_cont_sun_m_1209_13_alg».proof.Proof.Gen.KernelIdeal.Launch
import proofs.«209474_g91096256348957_cont_sun_m_1209_13_alg».proof.Proof.Gen.KernelIdeal.Regions
import proofs.«209474_g91096256348957_cont_sun_m_1209_13_alg».proof.Proof.Gen.KernelIdeal.Points
import proofs.«209474_g91096256348957_cont_sun_m_1209_13_alg».proof.Proof.Gen.ReferenceIdeal
import proofs.«209474_g91096256348957_cont_sun_m_1209_13_alg».proof.Proof.Gen.Pre_input_domain
import proofs.«209474_g91096256348957_cont_sun_m_1209_13_alg».proof.Proof.RefSide
import proofs.«209474_g91096256348957_cont_sun_m_1209_13_alg».proof.Proof.KIClaims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.Claims.frame_k, Cert.Proof.Claims.frame_ki, Cert.Proof.RefSide.frame_ri, trivial, Cert.Proof.Claims.algebraic⟩

end Cert.Proof

end
